-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x512 : Shape := ⟨3, ![1, 512, 512]⟩
abbrev S512x512 : Shape := ⟨2, ![512, 512]⟩
abbrev S_ : Shape := ⟨0, ![]⟩
abbrev S512 : Shape := ⟨1, ![512]⟩

class Facts : Prop where
  bcast_S_S1x512x512 : S_.BroadcastsInDim S1x512x512 (![] : Fin 0 → Fin S1x512x512.rank)
  reducesTo_S1x512x512_S_d0_1_2 : S1x512x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  reducesTo_S_S_d : S_.ReducesTo [] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512x512 .f32) (main_arg12 : FVec F S512 .f32) (main_v45 : IVec S_ 1) (main_v49 : IVec S_ 1) : IVec S_ 1 :=
  let main_v50 : IVec S_ 1 := andi main_v45 main_v49
  let main_v51 : FVec F S512x512 .f32 := Host.absf main_arg11
  let main_cst_20 : FVec F S_ .f32 := constant S_ .f32 0x7F800000#32
  let main_v52 : FVec F S512x512 .f32 := broadcastInDim S512x512 ![] bcast_S_S512x512 main_cst_20
  let main_v53 : IVec S512x512 1 := cmpf .olt main_v51 main_v52
  let main_c_21 : IVec S_ 1 := constantI S_ 1 1#1
  let main_v54 : IVec S_ 1 := (fun x v => Host.reduce IntOp.andi x v reducesTo_S512x512_S_d0_1 h_S_) main_v53 main_c_21
  let main_v55 : IVec S_ 1 := andi main_v50 main_v54
  let main_v56 : FVec F S512 .f32 := Host.absf main_arg12
  let main_cst_22 : FVec F S_ .f32 := constant S_ .f32 0x7F800000#32
  let main_v57 : FVec F S512 .f32 := broadcastInDim S512 ![] bcast_S_S512 main_cst_22
  let main_v58 : IVec S512 1 := cmpf .olt main_v56 main_v57
  let main_c_23 : IVec S_ 1 := constantI S_ 1 1#1
  let main_v59 : IVec S_ 1 := (fun x v => Host.reduce IntOp.andi x v reducesTo_S512_S_d0 h_S_) main_v58 main_c_23
  let main_v60 : IVec S_ 1 := andi main_v55 main_v59
  main_v60

def fn_part2 {F : FTy → Type} [FloatOps F] (main_arg8 : FVec F S512 .f32) (main_arg9 : FVec F S512x512 .f32) (main_arg10 : FVec F S512 .f32) (main_arg11 : FVec F S512x512 .f32) (main_arg12 : FVec F S512 .f32) (main_v30 : IVec S_ 1) (main_v31 : FVec F S512x512 .f32) (main_v32 : FVec F S512x512 .f32) : IVec S_ 1 :=
  let main_v33 : IVec S512x512 1 := cmpf .olt main_v31 main_v32
  let main_c_13 : IVec S_ 1 := constantI S_ 1 1#1
  let main_v34 : IVec S_ 1 := (fun x v => Host.reduce IntOp.andi x v reducesTo_S512x512_S_d0_1 h_S_) main_v33 main_c_13
  let main_v35 : IVec S_ 1 := andi main_v30 main_v34
  let main_v36 : FVec F S512 .f32 := Host.absf main_arg8
  let main_cst_14 : FVec F S_ .f32 := constant S_ .f32 0x7F800000#32
  let main_v37 : FVec F S512 .f32 := broadcastInDim S512 ![] bcast_S_S512 main_cst_14
  let main_v38 : IVec S512 1 := cmpf .olt main_v36 main_v37
  let main_c_15 : IVec S_ 1 := constantI S_ 1 1#1
  let main_v39 : IVec S_ 1 := (fun x v => Host.reduce IntOp.andi x v reducesTo_S512_S_d0 h_S_) main_v38 main_c_15
  let main_v40 : IVec S_ 1 := andi main_v35 main_v39
  let main_v41 : FVec F S512x512 .f32 := Host.absf main_arg9
  let main_cst_16 : FVec F S_ .f32 := constant S_ .f32 0x7F800000#32
  let main_v42 : FVec F S512x512 .f32 := broadcastInDim S512x512 ![] bcast_S_S512x512 main_cst_16
  let main_v43 : IVec S512x512 1 := cmpf .olt main_v41 main_v42
  let main_c_17 : IVec S_ 1 := constantI S_ 1 1#1
  let main_v44 : IVec S_ 1 := (fun x v => Host.reduce IntOp.andi x v reducesTo_S512x512_S_d0_1 h_S_) main_v43 main_c_17
  let main_v45 : IVec S_ 1 := andi main_v40 main_v44
  let main_v46 : FVec F S512 .f32 := Host.absf main_arg10
  let main_cst_18 : FVec F S_ .f32 := constant S_ .f32 0x7F800000#32
  let main_v47 : FVec F S512 .f32 := broadcastInDim S512 ![] bcast_S_S512 main_cst_18
  let main_v48 : IVec S512 1 := cmpf .olt main_v46 main_v47
  let main_c_19 : IVec S_ 1 := constantI S_ 1 1#1
  let main_v49 : IVec S_ 1 := (fun x v => Host.reduce IntOp.andi x v reducesTo_S512_S_d0 h_S_) main_v48 main_c_19
  fn_part3 (F := F) main_arg11 main_arg12 main_v45 main_v49

def fn_part1 {F : FTy → Type} [FloatOps F] (main_arg4 : FVec F S_ .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_v12 : IVec S_ 1) (main_v15 : IVec S_ 1) : IVec S_ 1 :=
  let main_v16 : IVec S_ 1 := andi main_v12 main_v15
  let main_v17 : FVec F S_ .f32 := Host.absf main_arg4
  let main_cst_6 : FVec F S_ .f32 := constant S_ .f32 0x7F800000#32
  let main_v18 : IVec S_ 1 := cmpf .olt main_v17 main_cst_6
  let main_c_7 : IVec S_ 1 := constantI S_ 1 1#1
  let main_v19 : IVec S_ 1 := (fun x v => Host.reduce IntOp.andi x v reducesTo_S_S_d h_S_) main_v18 main_c_7
  let main_v20 : IVec S_ 1 := andi main_v16 main_v19
  let main_v21 : FVec F S512x512 .f32 := Host.absf main_arg5
  let main_cst_8 : FVec F S_ .f32 := constant S_ .f32 0x7F800000#32
  let main_v22 : FVec F S512x512 .f32 := broadcastInDim S512x512 ![] bcast_S_S512x512 main_cst_8
  let main_v23 : IVec S512x512 1 := cmpf .olt main_v21 main_v22
  let main_c_9 : IVec S_ 1 := constantI S_ 1 1#1
  let main_v24 : IVec S_ 1 := (fun x v => Host.reduce IntOp.andi x v reducesTo_S512x512_S_d0_1 h_S_) main_v23 main_c_9
  let main_v25 : IVec S_ 1 := andi main_v20 main_v24
  let main_v26 : FVec F S512 .f32 := Host.absf main_arg6
  let main_cst_10 : FVec F S_ .f32 := constant S_ .f32 0x7F800000#32
  let main_v27 : FVec F S512 .f32 := broadcastInDim S512 ![] bcast_S_S512 main_cst_10
  let main_v28 : IVec S512 1 := cmpf .olt main_v26 main_v27
  let main_c_11 : IVec S_ 1 := constantI S_ 1 1#1
  let main_v29 : IVec S_ 1 := (fun x v => Host.reduce IntOp.andi x v reducesTo_S512_S_d0 h_S_) main_v28 main_c_11
  let main_v30 : IVec S_ 1 := andi main_v25 main_v29
  let main_v31 : FVec F S512x512 .f32 := Host.absf main_arg7
  let main_cst_12 : FVec F S_ .f32 := constant S_ .f32 0x7F800000#32
  let main_v32 : FVec F S512x512 .f32 := broadcastInDim S512x512 ![] bcast_S_S512x512 main_cst_12
  fn_part2 (F := F) main_arg8 main_arg9 main_arg10 main_arg11 main_arg12 main_v30 main_v31 main_v32

def fn {F : FTy → Type} [FloatOps F] (main_arg0 : FVec F S1x512x512 .f32) (main_arg1 : FVec F S512x512 .f32) (main_arg2 : FVec F S_ .f32) (main_arg3 : FVec F S_ .f32) (main_arg4 : FVec F S_ .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) : IVec S_ 1 :=
  let main_v0 : FVec F S1x512x512 .f32 := Host.absf main_arg0
  let main_cst : FVec F S_ .f32 := constant S_ .f32 0x7F800000#32
  let main_v1 : FVec F S1x512x512 .f32 := broadcastInDim S1x512x512 ![] bcast_S_S1x512x512 main_cst
  let main_v2 : IVec S1x512x512 1 := cmpf .olt main_v0 main_v1
  let main_c : IVec S_ 1 := constantI S_ 1 1#1
  let main_v3 : IVec S_ 1 := (fun x v => Host.reduce IntOp.andi x v reducesTo_S1x512x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S_ .f32 := Host.absf main_arg3
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_arg4 main_arg5 main_arg6 main_arg7 main_arg8 main_arg9 main_arg10 main_arg11 main_arg12 main_v12 main_v15
-- ==== Kernel.lean ====
abbrev S1x512x512 : Shape := ⟨3, ![1, 512, 512]⟩
abbrev S512x512 : Shape := ⟨2, ![512, 512]⟩
abbrev S_ : Shape := ⟨0, ![]⟩
abbrev S512 : Shape := ⟨1, ![512]⟩
abbrev S1536x512 : Shape := ⟨2, ![1536, 512]⟩
abbrev S1536 : Shape := ⟨1, ![1536]⟩
abbrev S1x1536 : Shape := ⟨2, ![1, 1536]⟩
abbrev S1x1 : Shape := ⟨2, ![1, 1]⟩
abbrev S512x1536 : Shape := ⟨2, ![512, 1536]⟩
abbrev S128x512 : Shape := ⟨2, ![128, 512]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S128x1x128 : Shape := ⟨3, ![128, 1, 128]⟩
abbrev S1x128x128 : Shape := ⟨3, ![1, 128, 128]⟩
abbrev S128x128x128 : Shape := ⟨3, ![128, 128, 128]⟩
abbrev S1x512x8x64 : Shape := ⟨4, ![1, 512, 8, 64]⟩
abbrev S1x8x512x64 : Shape := ⟨4, ![1, 8, 512, 64]⟩
abbrev S8x512x64 : Shape := ⟨3, ![8, 512, 64]⟩
abbrev S2x512x64 : Shape := ⟨3, ![2, 512, 64]⟩
abbrev S2x512x512 : Shape := ⟨3, ![2, 512, 512]⟩
abbrev S2x512 : Shape := ⟨2, ![2, 512]⟩
abbrev S2x512x1 : Shape := ⟨3, ![2, 512, 1]⟩
abbrev S1x512 : Shape := ⟨2, ![1, 512]⟩

abbrev nBuf : Space → Nat
  | .hbm => 43
  | .vmem => 36
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S1536x512, .f32⟩
  | .hbm, ⟨15, _⟩ => ⟨S1536, .f32⟩
  | .hbm, ⟨16, _⟩ => ⟨S1x1536, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S512x1536, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S1x512x8x64, .f32⟩
  | .hbm, ⟨25, _⟩ => ⟨S1x8x512x64, .f32⟩
  | .hbm, ⟨26, _⟩ => ⟨S8x512x64, .f32⟩
  | .hbm, ⟨27, _⟩ => ⟨S1x512x8x64, .f32⟩
  | .hbm, ⟨28, _⟩ => ⟨S1x8x512x64, .f32⟩
  | .hbm, ⟨29, _⟩ => ⟨S8x512x64, .f32⟩
  | .hbm, ⟨30, _⟩ => ⟨S1x512x8x64, .f32⟩
  | .hbm, ⟨31, _⟩ => ⟨S1x8x512x64, .f32⟩
  | .hbm, ⟨32, _⟩ => ⟨S8x512x64, .f32⟩
  | .hbm, ⟨33, _⟩ => ⟨S8x512x64, .f32⟩
  | .hbm, ⟨34, _⟩ => ⟨S1x8x512x64, .f32⟩
  | .hbm, ⟨35, _⟩ => ⟨S1x512x8x64, .f32⟩
  | .hbm, ⟨36, _⟩ => ⟨S512x512, .f32⟩
  | .hbm, ⟨37, _⟩ => ⟨S1x512, .f32⟩
  | .hbm, ⟨38, _⟩ => ⟨S1x1, .f32⟩
  | .hbm, ⟨39, _⟩ => ⟨S1x1, .f32⟩
  | .hbm, ⟨40, _⟩ => ⟨S1x1, .f32⟩
  | .hbm, ⟨41, _⟩ => ⟨S512x512, .f32⟩
  | .hbm, ⟨42, _⟩ => ⟨S1x512x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S512x512, .f32⟩
  | .local _ .vmem, ⟨5, _⟩ => ⟨S1x128, .f32⟩
  | .local _ .vmem, ⟨6, _⟩ => ⟨S1x128, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S128x128, .f32⟩
  | .local _ .vmem, ⟨11, _⟩ => ⟨S128x128, .f32⟩
  | .local _ .vmem, ⟨12, _⟩ => ⟨S128x512, .bf16⟩
  | .local _ .vmem, ⟨13, _⟩ => ⟨S128x512, .bf16⟩
  | .local _ .vmem, ⟨14, _⟩ => ⟨S2x512x64, .f32⟩
  | .local _ .vmem, ⟨15, _⟩ => ⟨S2x512x64, .f32⟩
  | .local _ .vmem, ⟨16, _⟩ => ⟨S2x512x64, .f32⟩
  | .local _ .vmem, ⟨17, _⟩ => ⟨S2x512x64, .f32⟩
  | .local _ .vmem, ⟨18, _⟩ => ⟨S2x512x64, .f32⟩
  | .local _ .vmem, ⟨19, _⟩ => ⟨S2x512x64, .f32⟩
  | .local _ .vmem, ⟨20, _⟩ => ⟨S2x512x64, .f32⟩
  | .local _ .vmem, ⟨21, _⟩ => ⟨S2x512x64, .f32⟩
  | .local _ .vmem, ⟨22, _⟩ => ⟨S128x512, .f32⟩
  | .local _ .vmem, ⟨23, _⟩ => ⟨S128x512, .f32⟩
  | .local _ .vmem, ⟨24, _⟩ => ⟨S128x512, .f32⟩
  | .local _ .vmem, ⟨25, _⟩ => ⟨S128x512, .f32⟩
  | .local _ .vmem, ⟨26, _⟩ => ⟨S512x512, .f32⟩
  | .local _ .vmem, ⟨27, _⟩ => ⟨S1x128, .f32⟩
  | .local _ .vmem, ⟨28, _⟩ => ⟨S1x128, .f32⟩
  | .local _ .vmem, ⟨29, _⟩ => ⟨S1x1, .f32⟩
  | .local _ .vmem, ⟨30, _⟩ => ⟨S1x1, .f32⟩
  | .local _ .vmem, ⟨31, _⟩ => ⟨S1x1, .f32⟩
  | .local _ .vmem, ⟨32, _⟩ => ⟨S128x128, .f32⟩
  | .local _ .vmem, ⟨33, _⟩ => ⟨S128x128, .f32⟩
  | .local _ .vmem, ⟨34, _⟩ => ⟨S128x512, .bf16⟩
  | .local _ .vmem, ⟨35, _⟩ => ⟨S128x512, .bf16⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc2_scratch0 : Ref sig .tc := ⟨.vmem, 34, rfl⟩
abbrev cc2_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem3_1 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := ⟨2, ![4, 12], ![false, false]⟩

@[reducible] def k0_t1_loop : Scf.Loop 32 :=
  let c0_i32 : BitVec 32 := 0#32
  let c4_i32 : BitVec 32 := 4#32
  let v27 : BitVec 32 := Scalar.addi c0_i32 c4_i32
  let c1_i32 : BitVec 32 := 1#32
  ⟨c0_i32, v27, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v57 : BitVec 32 := Scalar.muli arg12 c128_i32
  v57
def k0_off1 (k0_t1 : Fin k0_t1_loop.trips) : Fin 2 → Nat :=
  let c0_27 : Index := 0#32
  let c0_i32 : BitVec 32 := 0#32
  let c1_i32 : BitVec 32 := 1#32
  let arg12 : BitVec 32 := Scf.iv c0_i32 c1_i32 k0_t1
  let c128_i32 : BitVec 32 := 128#32
  let v57 : BitVec 32 := Scalar.muli arg12 c128_i32
  let v58 : BitVec 32 := v57
  let v59 : Index := Scalar.indexCast v58
  ![0, v59.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 4], ![false, false]⟩

@[reducible] def k2_t1_loop : Scf.Loop 32 :=
  let c0_i32 : BitVec 32 := 0#32
  let c4_i32 : BitVec 32 := 4#32
  let v26 : BitVec 32 := Scalar.addi c0_i32 c4_i32
  let c1_i32 : BitVec 32 := 1#32
  ⟨c0_i32, v26, c1_i32⟩
def k2_mult1 (k2_t1 : Fin k2_t1_loop.trips) : BitVec 32 :=
  let c0_i32 : BitVec 32 := 0#32
  let c1_i32 : BitVec 32 := 1#32
  let arg12 : BitVec 32 := Scf.iv c0_i32 c1_i32 k2_t1
  let c128_i32 : BitVec 32 := 128#32
  let v56 : BitVec 32 := Scalar.muli arg12 c128_i32
  v56
def k2_off1 (k2_t1 : Fin k2_t1_loop.trips) : Fin 2 → Nat :=
  let c0_27 : Index := 0#32
  let c0_i32 : BitVec 32 := 0#32
  let c1_i32 : BitVec 32 := 1#32
  let arg12 : BitVec 32 := Scf.iv c0_i32 c1_i32 k2_t1
  let c128_i32 : BitVec 32 := 128#32
  let v56 : BitVec 32 := Scalar.muli arg12 c128_i32
  let v57 : BitVec 32 := v56
  let v58 : Index := Scalar.indexCast v57
  ![0, v58.toNat]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S128x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S128x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

class Facts₀ : Prop where
  shapeCasts_S1x512x512_S512x512 : S1x512x512.ShapeCasts S512x512
  concatenates_S512x512_S512x512_S512x512_S1536x512_d0 : Shape.Concatenates [S512x512, S512x512, S512x512] S1536x512 0
  concatenates_S512_S512_S512_S1536_d0 : Shape.Concatenates [S512, S512, S512] S1536 0
  shapeCasts_S1536_S1x1536 : S1536.ShapeCasts S1x1536
  shapeCasts_S_S1x1 : S_.ShapeCasts S1x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  reduces_S128x512_S128 : S128x512.Reduces [1] S128
  shapeCasts_S128_S128x1 : S128.ShapeCasts S128x1
  shapeCasts_S128_S1x128 : S128.ShapeCasts S1x128
  packedbf16_S128x512_S128x512_0_0 : (Rect.unit (s := S128x512) ![0, 0] S128x512.size inb_S128x512_S128x512_0_0).PackedRows (EltTy.packing .bf16)
  h_S128x128 : 0 < S128x128.numel
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  broadcasts_S128x1_S128x128 : S128x1.Broadcasts S128x128
  broadcasts_S1x128_S128x128 : S1x128.Broadcasts S128x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  slices_S512x1536_S512x512_0_0 : S512x1536.Slices ![0, 0] S512x512
  slices_S512x1536_S512x512_0_512 : S512x1536.Slices ![0, 512] S512x512
  slices_S512x1536_S512x512_0_1024 : S512x1536.Slices ![0, 1024] S512x512
  shapeCasts_S512x512_S1x512x8x64 : S512x512.ShapeCasts S1x512x8x64
  transposes_S1x512x8x64_S1x8x512x64_0_2_1_3 : S1x512x8x64.Transposes [0, 2, 1, 3] S1x8x512x64
  shapeCasts_S1x8x512x64_S8x512x64 : S1x8x512x64.ShapeCasts S8x512x64
  inb_S2x512x64_S2x512x64_0_0_0 : ∀ a, (![0, 0, 0] : Fin 3 → Nat) a + S2x512x64.size a ≤ S2x512x64.size a
  h_S2x512x64 : 0 < S2x512x64.numel
  shapeCasts_S2x512x64_S2x512x64 : S2x512x64.ShapeCasts S2x512x64
  reduces_S2x512x512_S2x512 : S2x512x512.Reduces [2] S2x512
  shapeCasts_S2x512_S2x512x1 : S2x512.ShapeCasts S2x512x1
  broadcasts_S2x512x1_S2x512x512 : S2x512x1.Broadcasts S2x512x512
  shapeCasts_S8x512x64_S1x8x512x64 : S8x512x64.ShapeCasts S1x8x512x64
  transposes_S1x8x512x64_S1x512x8x64_0_2_1_3 : S1x8x512x64.Transposes [0, 2, 1, 3] S1x512x8x64
  shapeCasts_S1x512x8x64_S512x512 : S1x512x8x64.ShapeCasts S512x512
  shapeCasts_S512_S1x512 : S512.ShapeCasts S1x512
  shapeCasts_S512x512_S1x512x512 : S512x512.ShapeCasts S1x512x512
  dot_S128x512_S512x512_S128x512_1_0_0_1_n_n_wf : DotDims.WF S128x512 S512x512 S128x512 [1] [0] [0] [1] [] []
  dot_S2x512x64_S2x512x64_S2x512x512_2_2_1_1_0_0_wf : DotDims.WF S2x512x64 S2x512x64 S2x512x512 [2] [2] [1] [1] [0] [0]
  dot_S2x512x512_S2x512x64_S2x512x64_2_1_1_2_0_0_wf : DotDims.WF S2x512x512 S2x512x64 S2x512x64 [2] [1] [1] [2] [0] [0]
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S128x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x512.size a
  hwx0_0 : ∀ i : grid0.Coords, EltTy.bits .f32 = 32 ∨ (Rect.block (s := S512x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S1536x512.size a
  hwx0_1 : ∀ i : grid0.Coords, EltTy.bits .f32 = 32 ∨ (Rect.block (s := S1536x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x1536.size a
  hwx0_3 : ∀ i : grid0.Coords, EltTy.bits .f32 = 32 ∨ (Rect.block (s := S1x1536) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S512x1536.size a
  hwx0_7 : ∀ i : grid0.Coords, EltTy.bits .f32 = 32 ∨ (Rect.block (s := S512x1536) S128x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x512x64.size a ≤ S8x512x64.size a
  hwx1_0 : ∀ i : grid1.Coords, EltTy.bits .f32 = 32 ∨ (Rect.block (s := S8x512x64) S2x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x512x64.size a ≤ S8x512x64.size a
  hwx1_1 : ∀ i : grid1.Coords, EltTy.bits .f32 = 32 ∨ (Rect.block (s := S8x512x64) S2x512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x512x64.size a ≤ S8x512x64.size a
  hwx1_2 : ∀ i : grid1.Coords, EltTy.bits .f32 = 32 ∨ (Rect.block (s := S8x512x64) S2x512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x512x64.size a ≤ S8x512x64.size a
  hwx1_3 : ∀ i : grid1.Coords, EltTy.bits .f32 = 32 ∨ (Rect.block (s := S8x512x64) S2x512x64.size (cc1_transform_3 i) (hinb1_3 i)).WholeWords (EltTy.packing .f32)
  hrank2 : 0 < grid2.rank
  k2_t1_ok : k2_t1_loop.OK
  k2_mult1_dvd : ∀ k2_t1 : Fin k2_t1_loop.trips, 128 ∣ (k2_mult1 k2_t1).toNat
  k2_off1_inb : ∀ k2_t1 : Fin k2_t1_loop.trips, ∀ a, (k2_off1 k2_t1) a + S128x128.size a ≤ S128x512.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x512.size a ≤ S512x512.size a
  hwx2_0 : ∀ i : grid2.Coords, EltTy.bits .f32 = 32 ∨ (Rect.block (s := S512x512) S128x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x512.size a ≤ S512x512.size a
  hwx2_1 : ∀ i : grid2.Coords, EltTy.bits .f32 = 32 ∨ (Rect.block (s := S512x512) S128x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x512.size a
  hwx2_3 : ∀ i : grid2.Coords, EltTy.bits .f32 = 32 ∨ (Rect.block (s := S1x512) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S512x512.size a
  hwx2_7 : ∀ i : grid2.Coords, EltTy.bits .f32 = 32 ∨ (Rect.block (s := S512x512) S128x128.size (cc2_transform_7 i) (hinb2_7 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S2x512x64_S2x512x64_S2x512x512_2_2_1_1_0_0 : DotDims S2x512x64 S2x512x64 S2x512x512 where
  lhsContracting := [2]
  rhsContracting := [2]
  lhsNonContracting := [1]
  rhsNonContracting := [1]
  lhsBatch := [0]
  rhsBatch := [0]
  wf := dot_S2x512x64_S2x512x64_S2x512x512_2_2_1_1_0_0_wf
def dot_S2x512x512_S2x512x64_S2x512x64_2_1_1_2_0_0 : DotDims S2x512x512 S2x512x64 S2x512x64 where
  lhsContracting := [2]
  rhsContracting := [1]
  lhsNonContracting := [1]
  rhsNonContracting := [2]
  lhsBatch := [0]
  rhsBatch := [0]
  wf := dot_S2x512x512_S2x512x64_S2x512x64_2_1_1_2_0_0_wf

abbrev win0_0 : Pipeline.Window sig grid0 :=
  Pipeline.Window.ofSpec (Memref.whole main_v0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13) S2x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S2x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S128x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v28) S128x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S1x512x512 : Shape := ⟨3, ![1, 512, 512]⟩
abbrev S512x512 : Shape := ⟨2, ![512, 512]⟩
abbrev S_ : Shape := ⟨0, ![]⟩
abbrev S512 : Shape := ⟨1, ![512]⟩
abbrev S512x1x512 : Shape := ⟨3, ![512, 1, 512]⟩
abbrev S512x512x512 : Shape := ⟨3, ![512, 512, 512]⟩
abbrev S512x1 : Shape := ⟨2, ![512, 1]⟩
abbrev S1x512 : Shape := ⟨2, ![1, 512]⟩
abbrev S1x512x8x64 : Shape := ⟨4, ![1, 512, 8, 64]⟩
abbrev S1x8x512x64 : Shape := ⟨4, ![1, 8, 512, 64]⟩
abbrev S1x8x512x512 : Shape := ⟨4, ![1, 8, 512, 512]⟩
abbrev S1x8x512 : Shape := ⟨3, ![1, 8, 512]⟩
abbrev S1x8x512x1 : Shape := ⟨4, ![1, 8, 512, 1]⟩

abbrev nBuf : Space → Nat
  | .hbm => 211
  | .vmem => 0
  | .smem => 0
  | _ => 0

abbrev hbmTy0_0 (i : Nat) : BufTy := match i % 128 with
  | 0 => ⟨S1x512x512, .f32⟩
  | 1 => ⟨S512x512, .f32⟩
  | 2 => ⟨S_, .f32⟩
  | 3 => ⟨S_, .f32⟩
  | 4 => ⟨S_, .f32⟩
  | 5 => ⟨S512x512, .f32⟩
  | 6 => ⟨S512, .f32⟩
  | 7 => ⟨S512x512, .f32⟩
  | 8 => ⟨S512, .f32⟩
  | 9 => ⟨S512x512, .f32⟩
  | 10 => ⟨S512, .f32⟩
  | 11 => ⟨S512x512, .f32⟩
  | 12 => ⟨S512, .f32⟩
  | 13 => ⟨S512x512, .f32⟩
  | 14 => ⟨S512x512, .f32⟩
  | 15 => ⟨S_, .f32⟩
  | 16 => ⟨S512x512, .f32⟩
  | 17 => ⟨S512x512, .f32⟩
  | 18 => ⟨S512x512, .f32⟩
  | 19 => ⟨S_, .f32⟩
  | 20 => ⟨S512x512, .f32⟩
  | 21 => ⟨S512x512, .f32⟩
  | 22 => ⟨S512x1x512, .f32⟩
  | 23 => ⟨S1x512x512, .f32⟩
  | 24 => ⟨S512x512x512, .f32⟩
  | 25 => ⟨S512x512x512, .f32⟩
  | 26 => ⟨S512x512x512, .f32⟩
  | 27 => ⟨S_, .f32⟩
  | 28 => ⟨S512x512, .f32⟩
  | 29 => ⟨S_, .f32⟩
  | 30 => ⟨S512, .f32⟩
  | 31 => ⟨S512x1, .f32⟩
  | 32 => ⟨S512x512, .f32⟩
  | 33 => ⟨S512x512, .f32⟩
  | 34 => ⟨S_, .f32⟩
  | 35 => ⟨S512, .f32⟩
  | 36 => ⟨S1x512, .f32⟩
  | 37 => ⟨S512x512, .f32⟩
  | 38 => ⟨S512x512, .f32⟩
  | 39 => ⟨S512x512, .f32⟩
  | 40 => ⟨S512x512, .f32⟩
  | 41 => ⟨S_, .f32⟩
  | 42 => ⟨S512x512, .f32⟩
  | 43 => ⟨S512x512, .f32⟩
  | 44 => ⟨S512x512, .f32⟩
  | 45 => ⟨S_, .f32⟩
  | 46 => ⟨S512x512, .f32⟩
  | 47 => ⟨S512x512, .f32⟩
  | 48 => ⟨S512x512, .f32⟩
  | 49 => ⟨S_, .f32⟩
  | 50 => ⟨S512x512, .f32⟩
  | 51 => ⟨S512x512, .f32⟩
  | 52 => ⟨S512x512, .f32⟩
  | 53 => ⟨S1x512, .f32⟩
  | 54 => ⟨S512x512, .f32⟩
  | 55 => ⟨S512x512, .f32⟩
  | 56 => ⟨S512x512, .f32⟩
  | 57 => ⟨S_, .f32⟩
  | 58 => ⟨S512x512, .f32⟩
  | 59 => ⟨S512x512, .f32⟩
  | 60 => ⟨S512x512, .f32⟩
  | 61 => ⟨S_, .f32⟩
  | 62 => ⟨S512x512, .f32⟩
  | 63 => ⟨S512x512, .f32⟩
  | 64 => ⟨S512x1x512, .f32⟩
  | 65 => ⟨S1x512x512, .f32⟩
  | 66 => ⟨S512x512x512, .f32⟩
  | 67 => ⟨S512x512x512, .f32⟩
  | 68 => ⟨S512x512x512, .f32⟩
  | 69 => ⟨S_, .f32⟩
  | 70 => ⟨S512x512, .f32⟩
  | 71 => ⟨S_, .f32⟩
  | 72 => ⟨S512, .f32⟩
  | 73 => ⟨S512x1, .f32⟩
  | 74 => ⟨S512x512, .f32⟩
  | 75 => ⟨S512x512, .f32⟩
  | 76 => ⟨S_, .f32⟩
  | 77 => ⟨S512, .f32⟩
  | 78 => ⟨S1x512, .f32⟩
  | 79 => ⟨S512x512, .f32⟩
  | 80 => ⟨S512x512, .f32⟩
  | 81 => ⟨S512x512, .f32⟩
  | 82 => ⟨S512x512, .f32⟩
  | 83 => ⟨S_, .f32⟩
  | 84 => ⟨S512x512, .f32⟩
  | 85 => ⟨S512x512, .f32⟩
  | 86 => ⟨S512x512, .f32⟩
  | 87 => ⟨S_, .f32⟩
  | 88 => ⟨S512x512, .f32⟩
  | 89 => ⟨S512x512, .f32⟩
  | 90 => ⟨S512x512, .f32⟩
  | 91 => ⟨S_, .f32⟩
  | 92 => ⟨S512x512, .f32⟩
  | 93 => ⟨S512x512, .f32⟩
  | 94 => ⟨S512x512, .f32⟩
  | 95 => ⟨S1x512, .f32⟩
  | 96 => ⟨S512x512, .f32⟩
  | 97 => ⟨S512x512, .f32⟩
  | 98 => ⟨S512x512, .f32⟩
  | 99 => ⟨S_, .f32⟩
  | 100 => ⟨S512x512, .f32⟩
  | 101 => ⟨S512x512, .f32⟩
  | 102 => ⟨S512x512, .f32⟩
  | 103 => ⟨S_, .f32⟩
  | 104 => ⟨S512x512, .f32⟩
  | 105 => ⟨S512x512, .f32⟩
  | 106 => ⟨S512x1x512, .f32⟩
  | 107 => ⟨S1x512x512, .f32⟩
  | 108 => ⟨S512x512x512, .f32⟩
  | 109 => ⟨S512x512x512, .f32⟩
  | 110 => ⟨S512x512x512, .f32⟩
  | 111 => ⟨S_, .f32⟩
  | 112 => ⟨S512x512, .f32⟩
  | 113 => ⟨S_, .f32⟩
  | 114 => ⟨S512, .f32⟩
  | 115 => ⟨S512x1, .f32⟩
  | 116 => ⟨S512x512, .f32⟩
  | 117 => ⟨S512x512, .f32⟩
  | 118 => ⟨S_, .f32⟩
  | 119 => ⟨S512, .f32⟩
  | 120 => ⟨S1x512, .f32⟩
  | 121 => ⟨S512x512, .f32⟩
  | 122 => ⟨S512x512, .f32⟩
  | 123 => ⟨S512x512, .f32⟩
  | 124 => ⟨S512x512, .f32⟩
  | 125 => ⟨S_, .f32⟩
  | 126 => ⟨S512x512, .f32⟩
  | 127 => ⟨S512x512, .f32⟩
  | _ => ⟨S1x512x512, .f32⟩

abbrev hbmTy0_1 (i : Nat) : BufTy := match i % 128 with
  | 0 => ⟨S512x512, .f32⟩
  | 1 => ⟨S_, .f32⟩
  | 2 => ⟨S512x512, .f32⟩
  | 3 => ⟨S512x512, .f32⟩
  | 4 => ⟨S512x512, .f32⟩
  | 5 => ⟨S_, .f32⟩
  | 6 => ⟨S512x512, .f32⟩
  | 7 => ⟨S512x512, .f32⟩
  | 8 => ⟨S512x512, .f32⟩
  | 9 => ⟨S1x512, .f32⟩
  | 10 => ⟨S512x512, .f32⟩
  | 11 => ⟨S512x512, .f32⟩
  | 12 => ⟨S1x512x8x64, .f32⟩
  | 13 => ⟨S1x8x512x64, .f32⟩
  | 14 => ⟨S1x512x8x64, .f32⟩
  | 15 => ⟨S1x8x512x64, .f32⟩
  | 16 => ⟨S1x512x8x64, .f32⟩
  | 17 => ⟨S1x8x512x64, .f32⟩
  | 18 => ⟨S1x8x512x512, .f32⟩
  | 19 => ⟨S_, .f32⟩
  | 20 => ⟨S_, .f32⟩
  | 21 => ⟨S1x8x512x512, .f32⟩
  | 22 => ⟨S1x8x512x512, .f32⟩
  | 23 => ⟨S_, .f32⟩
  | 24 => ⟨S1x8x512, .f32⟩
  | 25 => ⟨S_, .f32⟩
  | 26 => ⟨S1x8x512, .f32⟩
  | 27 => ⟨S1x8x512, .f32⟩
  | 28 => ⟨S1x8x512x1, .f32⟩
  | 29 => ⟨S1x8x512x512, .f32⟩
  | 30 => ⟨S1x8x512x512, .f32⟩
  | 31 => ⟨S1x8x512x512, .f32⟩
  | 32 => ⟨S_, .f32⟩
  | 33 => ⟨S1x8x512, .f32⟩
  | 34 => ⟨S1x8x512x1, .f32⟩
  | 35 => ⟨S1x8x512x512, .f32⟩
  | 36 => ⟨S1x8x512x512, .f32⟩
  | 37 => ⟨S1x8x512x64, .f32⟩
  | 38 => ⟨S1x512x8x64, .f32⟩
  | 39 => ⟨S512x512, .f32⟩
  | 40 => ⟨S512x512, .f32⟩
  | 41 => ⟨S_, .f32⟩
  | 42 => ⟨S512x512, .f32⟩
  | 43 => ⟨S512x512, .f32⟩
  | 44 => ⟨S512x512, .f32⟩
  | 45 => ⟨S_, .f32⟩
  | 46 => ⟨S512x512, .f32⟩
  | 47 => ⟨S512x512, .f32⟩
  | 48 => ⟨S512x1x512, .f32⟩
  | 49 => ⟨S1x512x512, .f32⟩
  | 50 => ⟨S512x512x512, .f32⟩
  | 51 => ⟨S512x512x512, .f32⟩
  | 52 => ⟨S512x512x512, .f32⟩
  | 53 => ⟨S_, .f32⟩
  | 54 => ⟨S512x512, .f32⟩
  | 55 => ⟨S_, .f32⟩
  | 56 => ⟨S512, .f32⟩
  | 57 => ⟨S512x1, .f32⟩
  | 58 => ⟨S512x512, .f32⟩
  | 59 => ⟨S512x512, .f32⟩
  | 60 => ⟨S_, .f32⟩
  | 61 => ⟨S512, .f32⟩
  | 62 => ⟨S1x512, .f32⟩
  | 63 => ⟨S512x512, .f32⟩
  | 64 => ⟨S512x512, .f32⟩
  | 65 => ⟨S512x512, .f32⟩
  | 66 => ⟨S512x512, .f32⟩
  | 67 => ⟨S_, .f32⟩
  | 68 => ⟨S512x512, .f32⟩
  | 69 => ⟨S512x512, .f32⟩
  | 70 => ⟨S512x512, .f32⟩
  | 71 => ⟨S_, .f32⟩
  | 72 => ⟨S512x512, .f32⟩
  | 73 => ⟨S512x512, .f32⟩
  | 74 => ⟨S512x512, .f32⟩
  | 75 => ⟨S_, .f32⟩
  | 76 => ⟨S512x512, .f32⟩
  | 77 => ⟨S512x512, .f32⟩
  | 78 => ⟨S512x512, .f32⟩
  | 79 => ⟨S1x512, .f32⟩
  | 80 => ⟨S512x512, .f32⟩
  | 81 => ⟨S512x512, .f32⟩
  | 82 => ⟨S1x512x512, .f32⟩
  | _ => ⟨S1x512x512, .f32⟩

abbrev hbmTy (i : Nat) : BufTy := match i / 128 with
  | 0 => hbmTy0_0 i
  | 1 => hbmTy0_1 i
  | _ => ⟨S1x512x512, .f32⟩

abbrev bufTy : (tb : Table) → Fin (tcTables nBuf tb) → BufTy
  | .hbm, ⟨i, _⟩ => hbmTy i
  | _, _ => ⟨S1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_call0_cst : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_call1_cst : Ref sig .tc := ⟨.hbm, 19, rfl⟩
abbrev main_call1_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call2_cst : Ref sig .tc := ⟨.hbm, 57, rfl⟩
abbrev main_call2_v0 : Ref sig .tc := ⟨.hbm, 58, rfl⟩
abbrev main_v36 : Ref sig .tc := ⟨.hbm, 59, rfl⟩
abbrev main_v37 : Ref sig .tc := ⟨.hbm, 60, rfl⟩
abbrev main_call3_cst : Ref sig .tc := ⟨.hbm, 61, rfl⟩
abbrev main_call3_v0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_3 : Ref sig .tc := ⟨.hbm, 69, rfl⟩
abbrev main_v44 : Ref sig .tc := ⟨.hbm, 70, rfl⟩
abbrev main_cst_4 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_6 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call4_cst : Ref sig .tc := ⟨.hbm, 99, rfl⟩
abbrev main_call4_v0 : Ref sig .tc := ⟨.hbm, 100, rfl⟩
abbrev main_v70 : Ref sig .tc := ⟨.hbm, 101, rfl⟩
abbrev main_v71 : Ref sig .tc := ⟨.hbm, 102, rfl⟩
abbrev main_call5_cst : Ref sig .tc := ⟨.hbm, 103, rfl⟩
abbrev main_call5_v0 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_7 : Ref sig .tc := ⟨.hbm, 111, rfl⟩
abbrev main_v78 : Ref sig .tc := ⟨.hbm, 112, rfl⟩
abbrev main_cst_8 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_9 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_10 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_11 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_12 : Ref sig .tc := ⟨.hbm, 151, rfl⟩
abbrev main_v113 : Ref sig .tc := ⟨.hbm, 152, rfl⟩
abbrev main_cst_13 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_14 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_call6_cst : Ref sig .tc := ⟨.hbm, 169, rfl⟩
abbrev main_call6_v0 : Ref sig .tc := ⟨.hbm, 170, rfl⟩
abbrev main_v128 : Ref sig .tc := ⟨.hbm, 171, rfl⟩
abbrev main_v129 : Ref sig .tc := ⟨.hbm, 172, rfl⟩
abbrev main_call7_cst : Ref sig .tc := ⟨.hbm, 173, rfl⟩
abbrev main_call7_v0 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_15 : Ref sig .tc := ⟨.hbm, 181, rfl⟩
abbrev main_v136 : Ref sig .tc := ⟨.hbm, 182, rfl⟩
abbrev main_cst_16 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_17 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_18 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩

abbrev nD : Nat := 1
abbrev τ : Topo := Topo.v7x

variable {F : FTy → Type} [FloatOps F]

class Facts₀ : Prop where
  shapeCasts_S1x512x512_S512x512 : S1x512x512.ShapeCasts S512x512
  bcast_S_S512x512 : S_.BroadcastsInDim S512x512 (![] : Fin 0 → Fin S512x512.rank)
  bcast_S512x512_S512x1x512_0_2 : S512x512.BroadcastsInDim S512x1x512 (![0, 2] : Fin 2 → Fin S512x1x512.rank)
  bcast_S512x512_S1x512x512_1_2 : S512x512.BroadcastsInDim S1x512x512 (![1, 2] : Fin 2 → Fin S1x512x512.rank)
  bcast_S512x1x512_S512x512x512_0_1_2 : S512x1x512.BroadcastsInDim S512x512x512 (![0, 1, 2] : Fin 3 → Fin S512x512x512.rank)
  bcast_S1x512x512_S512x512x512_0_1_2 : S1x512x512.BroadcastsInDim S512x512x512 (![0, 1, 2] : Fin 3 → Fin S512x512x512.rank)
  reducesTo_S512x512x512_S512x512_d2 : S512x512x512.ReducesTo [2] S512x512
  h_S_ : 0 < S_.numel
  reducesTo_S512x512_S512_d1 : S512x512.ReducesTo [1] S512
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  shapeCasts_S512x512_S1x512x8x64 : S512x512.ShapeCasts S1x512x8x64
  transposes_S1x512x8x64_S1x8x512x64_0_2_1_3 : S1x512x8x64.Transposes [0, 2, 1, 3] S1x8x512x64
  bcast_S_S1x8x512x512 : S_.BroadcastsInDim S1x8x512x512 (![] : Fin 0 → Fin S1x8x512x512.rank)
  reducesTo_S1x8x512x512_S1x8x512_d3 : S1x8x512x512.ReducesTo [3] S1x8x512
  bcast_S_S1x8x512 : S_.BroadcastsInDim S1x8x512 (![] : Fin 0 → Fin S1x8x512.rank)
  bcast_S1x8x512_S1x8x512x1_0_1_2 : S1x8x512.BroadcastsInDim S1x8x512x1 (![0, 1, 2] : Fin 3 → Fin S1x8x512x1.rank)
  bcast_S1x8x512x1_S1x8x512x512_0_1_2_3 : S1x8x512x1.BroadcastsInDim S1x8x512x512 (![0, 1, 2, 3] : Fin 4 → Fin S1x8x512x512.rank)
  transposes_S1x8x512x64_S1x512x8x64_0_2_1_3 : S1x8x512x64.Transposes [0, 2, 1, 3] S1x512x8x64
  shapeCasts_S1x512x8x64_S512x512 : S1x512x8x64.ShapeCasts S512x512
  shapeCasts_S512x512_S1x512x512 : S512x512.ShapeCasts S1x512x512
  dot_S512x512_S512x512_S512x512_1_0_0_1_n_n_wf : DotDims.WF S512x512 S512x512 S512x512 [1] [0] [0] [1] [] []
  dot_S1x8x512x64_S1x8x512x64_S1x8x512x512_3_3_2_2_01_01_wf : DotDims.WF S1x8x512x64 S1x8x512x64 S1x8x512x512 [3] [3] [2] [2] [0, 1] [0, 1]
  dot_S1x8x512x512_S1x8x512x64_S1x8x512x64_3_2_2_3_01_01_wf : DotDims.WF S1x8x512x512 S1x8x512x64 S1x8x512x64 [3] [2] [2] [3] [0, 1] [0, 1]

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S1x8x512x64_S1x8x512x64_S1x8x512x512_3_3_2_2_01_01 : DotDims S1x8x512x64 S1x8x512x64 S1x8x512x512 where
  lhsContracting := [3]
  rhsContracting := [3]
  lhsNonContracting := [2]
  rhsNonContracting := [2]
  lhsBatch := [0, 1]
  rhsBatch := [0, 1]
  wf := dot_S1x8x512x64_S1x8x512x64_S1x8x512x512_3_3_2_2_01_01_wf
def dot_S1x8x512x512_S1x8x512x64_S1x8x512x64_3_2_2_3_01_01 : DotDims S1x8x512x512 S1x8x512x64 S1x8x512x64 where
  lhsContracting := [3]
  rhsContracting := [2]
  lhsNonContracting := [2]
  rhsNonContracting := [3]
  lhsBatch := [0, 1]
  rhsBatch := [0, 1]
  wf := dot_S1x8x512x512_S1x8x512x64_S1x8x512x64_3_2_2_3_01_01_wf

class Facts : Prop extends Facts₀ where

variable [Facts]
-- ==== Proof.K.Reg0.lean ====
/-
  The first Tversky call (the rows against the stacked query, key and value prototypes) as one region of the program: what its body needs of the launch and what it
  leaves, at any float instance.

  At a grid point the body is handed eight staging buffers — a block of 128 rows, a block of 128 prototypes, the feature
  matrix, the prototypes' biases, the three scalars, and the output block — and two scratch buffers of its own. It reads
  the seven inputs where they lie, writes both projections into scratch, sums the pairwise minima over four slices of
  128 feature columns, and overwrites the whole output block. So each input buffer ends as it began (its block of the
  array the region was entered with, whether the pipeline fetched it at this point or kept it from an earlier one), the
  scratch buffers end at contents nobody reads again, and the output buffer ends at the one piece the body stored,
  which covers it. These are the proof data of the region; the body obligation says the body meets them at every point.
-/
import proofs.«150770_j35493609734446_2_alg».proof.Proof.Gen.Kernel.Launch
import proofs.«150770_j35493609734446_2_alg».proof.Proof.Gen.Kernel.Skeleton
import proofs.«150770_j35493609734446_2_alg».proof.Proof.Gen.Kernel.Loops
import proofs.«150770_j35493609734446_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not (a window whose block
    index did not move still holds the block of the point before, which is this point's), for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body on any staging memrefs -/

/-- One staging buffer of the output window, through which its contents are stated (the choice does not matter). -/
abbrev VO0_7 : View sig .tc .vmem S128x128 .f32 := (Memref.whole cc0_stg7_0 : Memref sig .tc .vmem S128x128 .f32).view
/-- Each window's current staging memref at point `t`, spelled as the pipeline passes it, and its wholeness. -/
abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
/-- The two scratch operands: whole scoped buffers of the kernel's own, passed beside the windows. -/
abbrev scM0_0 : Memref sig .tc .vmem S128x512 .bf16 := Memref.whole cc0_scratch0
abbrev scM0_1 : Memref sig .tc .vmem S128x512 .bf16 := Memref.whole cc0_scratch1

/-- The region's invariant, conjunct by conjunct: the core's scoped buffers that are not this call's staging buffers — the
    two scratch operands owned at some contents, the others at some contents — and the generator register at some
    state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := by
  unfold Pipeline.ΦA; rw [scopedRest0_eq]; simp only [scM0_0, scM0_1, owns_whole]; try rfl

set_option maxHeartbeats 4000000 in
/-- The pieces the body's stores leave in the output block's staging memref (last first), with the proof that on whole
    staging memrefs — the seven inputs' at their contents, the output's and the two scratch buffers at anything — the body
    runs to the continuation holding the inputs' as they were, the scratch at some contents and the output's buffer with
    those pieces written. -/
noncomputable def kernelRun0_A (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (x0 : Vec F S128x512 .f32) (x1 : Vec F S128x512 .f32) (x2 : Vec F S512x512 .f32) (x3 : Vec F S1x128 .f32) (x4 : Vec F S1x1 .f32) (x5 : Vec F S1x1 .f32) (x6 : Vec F S1x1 .f32) :
    { L7 : List (View.Piece (Elt F) S128x128 .f32) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ (∃ d, owns (c : Thread nD τ) arg10 fullShare d) ∗ (∃ d, owns (c : Thread nD τ) arg11 fullShare d)) -∗ K ⟨⟩))
          ⊢ wp frame (wpE (defs₀ (F := F)) Variants.none c none) Set.univ (cc0__tversky_kernel i arg2 harg2 arg3 harg3 arg4 harg4 arg5 harg5 arg6 harg6 arg7 harg7 arg8 harg8 arg9 harg9 arg10 harg10 arg11 harg11) K } := by
  refine ⟨?_, fun K => ?run⟩
  case run =>
    simp only [cc0__tversky_kernel_eq_skeleton]; unfold cc0__tversky_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _, _; isplitr; swap; · iexact HS0
      ipureintro; rfl
    iexists _, _; isplitr; swap; · iexact HS1
    ipureintro; rfl

/-- The body's one store into the output block covers it. -/
theorem cover0_A_7 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (x0 : Vec F S128x512 .f32) (x1 : Vec F S128x512 .f32) (x2 : Vec F S512x512 .f32) (x3 : Vec F S1x128 .f32) (x4 : Vec F S1x1 .f32) (x5 : Vec F S1x1 .f32) (x6 : Vec F S1x1 .f32) (y : S128x128.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).1 S128x128.size (by sl_kernel_rfl) y

/-- What the run leaves in the output block's staging buffer: its pieces read back. -/
def out0_A_7 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (x0 : Vec F S128x512 .f32) (x1 : Vec F S128x512 .f32) (x2 : Vec F S512x512 .f32) (x3 : Vec F S1x128 .f32) (x4 : Vec F S1x1 .f32) (x5 : Vec F S1x1 .f32) (x6 : Vec F S1x1 .f32) : Vec F S128x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 x0 x1 x2 x3 x4 x5 x6).1)

/-! ## What the output holds after each point -/

/-- What the output window's staging buffer holds after the body at point `t`: the run's contents at the point's memrefs
    and input blocks. -/
def outsAt0 (c : Dev nD) (t : Fin cfg0.N) : Vec F S128x128 .f32 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t)

/-! ## The region's proof data -/

/-- The proof data on core `c`: the arrays as the region finds them; after the body at point `t` each input's buffer at
    its block and the output's at `outsAt0`; the invariant the scoped rest and the generator register; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 1000000 in
/-- The body at any point: the inputs' memrefs hold their blocks, so the run applies; the invariant hands the body its two
    scratch buffers and takes them back at whatever they then hold; the rest of the invariant and what the core owes pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  rw [show (dat0 V c).Φ t.castSucc = Pipeline.ΦA spec0 c from rfl, PhiA0_eq]
  unfold outsAt0
  unfold out0_A_7
  iintro ⟨⟨⟨HS0, HS1, HR2, HR3, HR4, HR5, HR6, HR7, HR8, HR9, HR10, HR11, HR12, HR13, HR14, HR15, HR16, HR17, HR18, HR19, HR20, HR21, HR22, HR23⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t)).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, HS0, HS1⟩
  isplitl [HS0 HS1 HR2 HR3 HR4 HR5 HR6 HR7 HR8 HR9 HR10 HR11 HR12 HR13 HR14 HR15 HR16 HR17 HR18 HR19 HR20 HR21 HR22 HR23 Hg]
  · isplitl [HS0 HS1 HR2 HR3 HR4 HR5 HR6 HR7 HR8 HR9 HR10 HR11 HR12 HR13 HR14 HR15 HR16 HR17 HR18 HR19 HR20 HR21 HR22 HR23]
    · isplitl [HS0]; · iexact HS0
      isplitl [HS1]; · iexact HS1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      iexact HR23
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_A_7 c _ _ _ _ _ _ _ _ _ _ _ _ _ _ _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1.lean ====
/-
  The attention call's half of the frame of the word-level program, at any float instance.

  The attention body is handed three blocks of two heads each — queries, keys, values, every block 2 × 512 × 64 —
  and a fourth buffer for the result. It reads the three blocks whole, computes the two heads' attention as one pure
  function of them, and stores that into the fourth buffer whole; nothing else is touched. So after the body each
  input buffer still holds its block and the output buffer holds the attention of the three blocks: that is the
  proof data of the call's pipeline, and the body's run is the obligation the pipeline asks for at every grid point.
-/
import proofs.«150770_j35493609734446_2_alg».proof.Proof.Gen.Kernel.Launch
import proofs.«150770_j35493609734446_2_alg».proof.Proof.Gen.Kernel.Skeleton
import proofs.«150770_j35493609734446_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- what the core's buffers hold when the attention call is entered
variable (V : (c : Dev nD) → (b : Ref sig .tc) → Buf (Elt F) ((c : Thread nD τ).loc b))

/-! ## The windows' blocks -/

/-- Window `w`'s block at grid point `t`: two heads of the array the call finds in that window. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The queries' buffer holds its block at every point, for any proof data whose array is the entry contents and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' buffer, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' buffer, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's one rectangle: the whole block -/

abbrev r1_0 : Rect S2x512x64 := Rect.unit (s := S2x512x64) ![0, 0, 0] S2x512x64.size inb_S2x512x64_S2x512x64_0_0_0

/-- Its offsets are all zero. -/
theorem hz1 : (![0, 0, 0] : Fin S2x512x64.rank → Nat) = fun _ => 0 := by
  funext a; match a with | ⟨0, _⟩ => rfl | ⟨1, _⟩ => rfl | ⟨2, _⟩ => rfl

/-! ## What the body leaves in the result buffer -/

/-- The result buffer after the body, from the three input blocks: one store of the whole block. -/
def out1_3 (x0 x1 x2 : Vec F S2x512x64 .f32) : Vec F S2x512x64 .f32 :=
  View.canon [⟨r1_0, k1_pay1 (View.ld x0 r1_0) (View.ld x1 r1_0) (View.ld x2 r1_0)⟩]

/-- The one store covers the block: its rectangle is everything. -/
theorem cover1_3 (p0 : Vec F S2x512x64 .f32) (y : S2x512x64.Idx) :
    ∃ pc ∈ ([⟨r1_0, p0⟩] : List (View.Piece (Elt F) S2x512x64 .f32)), y ∈ pc.1.set :=
  ⟨⟨r1_0, p0⟩, List.mem_singleton_self _, View.mem_set_unit_zero hz1 inb_S2x512x64_S2x512x64_0_0_0 y⟩

/-! ## The body's triple -/

set_option maxHeartbeats 1000000 in
/-- The body on whole staging buffers — the three inputs at contents `x0 x1 x2`, the result buffer at anything — runs
    to the continuation with the inputs as they were and the result buffer at `out1_3 x0 x1 x2`. -/
theorem sound_kernel1 (c : Dev nD) (E : Set ℕ) (i : grid1.Coords)
    (arg1 : Memref sig .tc .vmem S2x512x64 .f32) (harg1 : arg1.IsWhole) (arg2 : Memref sig .tc .vmem S2x512x64 .f32) (harg2 : arg2.IsWhole)
    (arg3 : Memref sig .tc .vmem S2x512x64 .f32) (harg3 : arg3.IsWhole) (arg4 : Memref sig .tc .vmem S2x512x64 .f32) (harg4 : arg4.IsWhole)
    (x0 x1 x2 : Vec F S2x512x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the attention call's pipeline on core `c`: the arrays as the call finds them; after the body at
    point `t` each input buffer at its block and the result buffer at `out1_3` of the three blocks; the invariant
    that of a body touching nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Reg2.lean ====
/-
  The second Tversky call (the attended rows against the output prototypes) as one region of the program: what its body needs of the launch and what it
  leaves, at any float instance.

  At a grid point the body is handed eight staging buffers — a block of 128 rows, a block of 128 prototypes, the feature
  matrix, the prototypes' biases, the three scalars, and the output block — and two scratch buffers of its own. It reads
  the seven inputs where they lie, writes both projections into scratch, sums the pairwise minima over four slices of
  128 feature columns, and overwrites the whole output block. So each input buffer ends as it began (its block of the
  array the region was entered with, whether the pipeline fetched it at this point or kept it from an earlier one), the
  scratch buffers end at contents nobody reads again, and the output buffer ends at the one piece the body stored,
  which covers it. These are the proof data of the region; the body obligation says the body meets them at every point.
-/
import proofs.«150770_j35493609734446_2_alg».proof.Proof.Gen.Kernel.Launch
import proofs.«150770_j35493609734446_2_alg».proof.Proof.Gen.Kernel.Skeleton
import proofs.«150770_j35493609734446_2_alg».proof.Proof.Gen.Kernel.Loops
import proofs.«150770_j35493609734446_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not (a window whose block
    index did not move still holds the block of the point before, which is this point's), for any proof data whose
    array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body on any staging memrefs -/

/-- One staging buffer of the output window, through which its contents are stated (the choice does not matter). -/
abbrev VO2_7 : View sig .tc .vmem S128x128 .f32 := (Memref.whole cc2_stg7_0 : Memref sig .tc .vmem S128x128 .f32).view
/-- Each window's current staging memref at point `t`, spelled as the pipeline passes it, and its wholeness. -/
abbrev ms2_0 (t : Fin cfg2.N) : Memref sig .tc .vmem S128x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S128x128 .f32 := win2_7.stage (cfg2.slots t 7)
abbrev hs2_7 (t : Fin cfg2.N) : (ms2_7 t).IsWhole := hstage2_7 ((cfg2.slots t 7).cast nbuf2_7)
/-- The two scratch operands: whole scoped buffers of the kernel's own, passed beside the windows. -/
abbrev scM2_0 : Memref sig .tc .vmem S128x512 .bf16 := Memref.whole cc2_scratch0
abbrev scM2_1 : Memref sig .tc .vmem S128x512 .bf16 := Memref.whole cc2_scratch1

/-- The region's invariant, conjunct by conjunct: the core's scoped buffers that are not this call's staging buffers — the
    two scratch operands owned at some contents, the others at some contents — and the generator register at some
    state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2_0 fullShare d) ∗ (∃ d, owns (c : Thread nD τ) scM2_1 fullShare d)) ∗ (∃ r, prngReg c r)) := by
  unfold Pipeline.ΦA; rw [scopedRest2_eq]; simp only [scM2_0, scM2_1, owns_whole]; try rfl

set_option maxHeartbeats 4000000 in
/-- The pieces the body's stores leave in the output block's staging memref (last first), with the proof that on whole
    staging memrefs — the seven inputs' at their contents, the output's and the two scratch buffers at anything — the body
    runs to the continuation holding the inputs' as they were, the scratch at some contents and the output's buffer with
    those pieces written. -/
noncomputable def kernelRun2_A (c : Dev nD) (i : grid2.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (x0 : Vec F S128x512 .f32) (x1 : Vec F S128x512 .f32) (x2 : Vec F S512x512 .f32) (x3 : Vec F S1x128 .f32) (x4 : Vec F S1x1 .f32) (x5 : Vec F S1x1 .f32) (x6 : Vec F S1x1 .f32) :
    { L7 : List (View.Piece (Elt F) S128x128 .f32) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ (∃ d, owns (c : Thread nD τ) arg10 fullShare d) ∗ (∃ d, owns (c : Thread nD τ) arg11 fullShare d)) -∗ K ⟨⟩))
          ⊢ wp frame (wpE (defs₀ (F := F)) Variants.none c none) Set.univ (cc2__tversky_kernel i arg2 harg2 arg3 harg3 arg4 harg4 arg5 harg5 arg6 harg6 arg7 harg7 arg8 harg8 arg9 harg9 arg10 harg10 arg11 harg11) K } := by
  refine ⟨?_, fun K => ?run⟩
  case run =>
    simp only [cc2__tversky_kernel_eq_skeleton]; unfold cc2__tversky_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _, _; isplitr; swap; · iexact HS0
      ipureintro; rfl
    iexists _, _; isplitr; swap; · iexact HS1
    ipureintro; rfl

/-- The body's one store into the output block covers it. -/
theorem cover2_A_7 (c : Dev nD) (i : grid2.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (x0 : Vec F S128x512 .f32) (x1 : Vec F S128x512 .f32) (x2 : Vec F S512x512 .f32) (x3 : Vec F S1x128 .f32) (x4 : Vec F S1x1 .f32) (x5 : Vec F S1x1 .f32) (x6 : Vec F S1x1 .f32) (y : S128x128.Idx) :
    ∃ pc ∈ (kernelRun2_A c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun2_A c i arg2 harg2 arg3 harg3 arg4 harg4 arg5 harg5 arg6 harg6 arg7 harg7 arg8 harg8 arg9 harg9 arg10 harg10 arg11 harg11 x0 x1 x2 x3 x4 x5 x6).1 S128x128.size (by sl_kernel_rfl) y

/-- What the run leaves in the output block's staging buffer: its pieces read back. -/
def out2_A_7 (c : Dev nD) (i : grid2.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (x0 : Vec F S128x512 .f32) (x1 : Vec F S128x512 .f32) (x2 : Vec F S512x512 .f32) (x3 : Vec F S1x128 .f32) (x4 : Vec F S1x1 .f32) (x5 : Vec F S1x1 .f32) (x6 : Vec F S1x1 .f32) : Vec F S128x128 .f32 :=
  VO2_7.read (Elt F) (VO2_7.writes (Elt F) VO2_7.junk (kernelRun2_A c i arg2 harg2 arg3 harg3 arg4 harg4 arg5 harg5 arg6 harg6 arg7 harg7 arg8 harg8 arg9 harg9 arg10 harg10 arg11 harg11 x0 x1 x2 x3 x4 x5 x6).1)

/-! ## What the output holds after each point -/

/-- What the output window's staging buffer holds after the body at point `t`: the run's contents at the point's memrefs
    and input blocks. -/
def outsAt2 (c : Dev nD) (t : Fin cfg2.N) : Vec F S128x128 .f32 :=
  out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (iblk2 V c 5 t) (iblk2 V c 6 t)

/-! ## The region's proof data -/

/-- The proof data on core `c`: the arrays as the region finds them; after the body at point `t` each input's buffer at
    its block and the output's at `outsAt2`; the invariant the scoped rest and the generator register; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t) := by dsimp only [dat2]

/-! Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 1000000 in
/-- The body at any point: the inputs' memrefs hold their blocks, so the run applies; the invariant hands the body its two
    scratch buffers and takes them back at whatever they then hold; the rest of the invariant and what the core owes pass
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  rw [show (dat2 V c).Φ t.castSucc = Pipeline.ΦA spec2 c from rfl, PhiA2_eq]
  unfold outsAt2
  unfold out2_A_7
  iintro ⟨⟨⟨HR0, HR1, HR2, HR3, HR4, HR5, HR6, HR7, HR8, HR9, HR10, HR11, HR12, HR13, HR14, HR15, HR16, HR17, HR18, HR19, HR20, HR21, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t)).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, HS0, HS1⟩
  isplitl [HR0 HR1 HR2 HR3 HR4 HR5 HR6 HR7 HR8 HR9 HR10 HR11 HR12 HR13 HR14 HR15 HR16 HR17 HR18 HR19 HR20 HR21 HS0 HS1 Hg]
  · isplitl [HR0 HR1 HR2 HR3 HR4 HR5 HR6 HR7 HR8 HR9 HR10 HR11 HR12 HR13 HR14 HR15 HR16 HR17 HR18 HR19 HR20 HR21 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover2_A_7 c _ _ _ _ _ _ _ _ _ _ _ _ _ _ _ _ _ _ _ _ _ _ _ _ _ _ _ _)

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Run.lean ====
/-
  The three calls put together: what the program's buffers hold at each boundary, each call's record for the
  several-call launch theorem, and the word-level program's frame.

  The program is: a stretch of host operations (the rows reshaped, the query, key and value prototypes and their
  biases stacked), the first Tversky call, a stretch cutting its 512 × 1536 result into eight heads of queries, keys
  and values, the attention call, a stretch merging the heads back into 512 × 512 rows, the second Tversky call, and a
  last reshape. Each call changes exactly one array — its result — and leaves every other unscoped buffer as it found
  it; between calls the host operations are pushed through the valuation. So the buffers' contents at the eight
  boundaries are a chain of valuations, each determined by the one before, and the frame follows from the three calls'
  body obligations.
-/
import proofs.«150770_j35493609734446_2_alg».proof.Proof.K.Reg0
import proofs.«150770_j35493609734446_2_alg».proof.Proof.K.Reg1
import proofs.«150770_j35493609734446_2_alg».proof.Proof.K.Reg2
import proofs.«150770_j35493609734446_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What core `c`'s buffers hold at each boundary of the program

The program is four stretches of host operations around the three calls. Before the first Tversky call the buffers
hold the launch contents pushed through the first stretch; each call changes one array, its result — the stacked
projections, then the attended heads, then the output projection — to what its pipeline's write-backs leave; each
later stretch is pushed through from there. -/

/-- A family of valuations read at the core's own references: the form a call's proof data takes its entry contents in. -/
abbrev Vr (W : Dev nD → Valuation τ sig (Elt F)) : (c : Dev nD) → (b : Ref sig .tc) → Buf (Elt F) ((c : Thread nD τ).loc b) :=
  fun c b => W c b

/-- Entering the first Tversky call. -/
abbrev Va1 (c : Dev nD) : Valuation τ sig (Elt F) := Gen.V1 m c
/-- What the first Tversky call leaves in its result array: the 512 × 1536 stacked projections. -/
def o2 (c : Dev nD) : Buf (Elt F) ((c : Thread nD τ).loc main_v7) := (dat0 (Vr (Va1 m)) c).arrAt 7 cfg0.N
/-- Leaving it. -/
abbrev Va2 (c : Dev nD) : Valuation τ sig (Elt F) := Function.update (Va1 m c) main_v7 (o2 m c)
/-- Entering the attention call: the projections cut into queries, keys and values, head by head. -/
abbrev Va3 (c : Dev nD) : Valuation τ sig (Elt F) := StableHlo.after hostOps1 (Va2 m c)
/-- What the attention call leaves in its result array: the eight attended heads. -/
def o4 (c : Dev nD) : Buf (Elt F) ((c : Thread nD τ).loc main_v20) := (dat1 (Vr (Va3 m)) c).arrAt 3 cfg1.N
/-- Leaving it. -/
abbrev Va4 (c : Dev nD) : Valuation τ sig (Elt F) := Function.update (Va3 m c) main_v20 (o4 m c)
/-- Entering the second Tversky call: the heads merged back into rows. -/
abbrev Va5 (c : Dev nD) : Valuation τ sig (Elt F) := StableHlo.after hostOps2 (Va4 m c)
/-- What the second Tversky call leaves in its result array. -/
def o6 (c : Dev nD) : Buf (Elt F) ((c : Thread nD τ).loc main_v28) := (dat2 (Vr (Va5 m)) c).arrAt 7 cfg2.N
/-- Leaving it. -/
abbrev Va6 (c : Dev nD) : Valuation τ sig (Elt F) := Function.update (Va5 m c) main_v28 (o6 m c)
/-- At the return. -/
abbrev Va7 (c : Dev nD) : Valuation τ sig (Elt F) := StableHlo.after hostOps3 (Va6 m c)

/-- The three results, as the unknowns the program's host side is stated over. -/
def outs : Gen.Outs (F := F) := fun J r c =>
  if J = 2 then Va2 m c r else if J = 4 then Va4 m c r else Va6 m c r

theorem outs_2 (r : Ref sig .tc) (c : Dev nD) : outs m 2 r c = Va2 m c r := by
  unfold outs; rw [if_pos rfl]
theorem outs_4 (r : Ref sig .tc) (c : Dev nD) : outs m 4 r c = Va4 m c r := by
  unfold outs; rw [if_neg (by decide), if_pos rfl]
theorem outs_6 (r : Ref sig .tc) (c : Dev nD) : outs m 6 r c = Va6 m c r := by
  unfold outs; rw [if_neg (by decide), if_neg (by decide)]

/-- With those results the host side's valuations are the ones above. -/
theorem V2_eq (c : Dev nD) : Gen.V2 m (outs m) c = Va2 m c := by
  show Function.update (Gen.V1 m c) (Proc.devRef .tc main_v7) (outs m 2 main_v7 c) = Va2 m c
  rw [outs_2]
  show Function.update (Va1 m c) (Proc.devRef .tc main_v7) (Function.update (Va1 m c) (Proc.devRef .tc main_v7) (o2 m c) (Proc.devRef .tc main_v7)) = _
  rw [Function.update_self]
theorem V3_eq (c : Dev nD) : Gen.V3 m (outs m) c = Va3 m c := by
  show StableHlo.after hostOps1 (Gen.V2 m (outs m) c) = _
  rw [V2_eq]
theorem V4_eq (c : Dev nD) : Gen.V4 m (outs m) c = Va4 m c := by
  show Function.update (Gen.V3 m (outs m) c) (Proc.devRef .tc main_v20) (outs m 4 main_v20 c) = Va4 m c
  rw [outs_4, V3_eq]
  show Function.update (Va3 m c) (Proc.devRef .tc main_v20) (Function.update (Va3 m c) (Proc.devRef .tc main_v20) (o4 m c) (Proc.devRef .tc main_v20)) = _
  rw [Function.update_self]
theorem V5_eq (c : Dev nD) : Gen.V5 m (outs m) c = Va5 m c := by
  show StableHlo.after hostOps2 (Gen.V4 m (outs m) c) = _
  rw [V4_eq]
theorem V6_eq (c : Dev nD) : Gen.V6 m (outs m) c = Va6 m c := by
  show Function.update (Gen.V5 m (outs m) c) (Proc.devRef .tc main_v28) (outs m 6 main_v28 c) = Va6 m c
  rw [outs_6, V5_eq]
  show Function.update (Va5 m c) (Proc.devRef .tc main_v28) (Function.update (Va5 m c) (Proc.devRef .tc main_v28) (o6 m c) (Proc.devRef .tc main_v28)) = _
  rw [Function.update_self]
theorem V7_eq (c : Dev nD) : Gen.V7 m (outs m) c = Va7 m c := by
  show StableHlo.after hostOps3 (Gen.V6 m (outs m) c) = _
  rw [V6_eq]

/-! ## The proof data family and what rides beside the buffers -/

/-- Every call's proof data, each at its call's entry contents. -/
def pdats : (p : Fin 3) → (c : Dev nD) → Dat τ (Elt F) Unit ℕ (UR sig nD τ) ℕ (cfgs p) c
  | ⟨0, _⟩ => fun c => dat0 (Vr (Va1 m)) c
  | ⟨1, _⟩ => fun c => dat1 (Vr (Va3 m)) c
  | ⟨2, _⟩ => fun c => dat2 (Vr (Va5 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-! ## Each call's arrays at its exit

At a call's exit each of its arrays holds what the exit valuation says: an input array is as entered — no write-back
touches it, and it is not the result array —, the result array is the write-backs' fold; off the call's arrays the exit
valuation is the entry one. -/

theorem arr_ne0 : ∀ w : Fin 8, w ≠ 7 → Pipeline.arrRef spec0 w ≠ main_v7 := by decide
theorem isIn0 : ∀ w : Fin 8, w ≠ 7 → (cfg0.win w).isOut = false := by decide
theorem hF0 (c : Dev nD) (w : Fin cfg0.W) : (pdats m 0 c).arrAt w cfg0.N = Vr (Va2 m) c (Pipeline.arrRef spec0 w) := by
  show (dat0 (Vr (Va1 m)) c).arrAt w cfg0.N = Function.update (Va1 m c) (Proc.devRef .tc main_v7) (o2 m c) (Proc.devRef .tc (Pipeline.arrRef spec0 w))
  by_cases hw : w = 7
  · subst hw; rw [Function.update_self]; rfl
  · rw [Function.update_of_ne (StableHlo.devRef_ne_of_ne (arr_ne0 w hw))]
    exact ((dat0 (Vr (Va1 m)) c).arrAt_in w (isIn0 w hw) _).trans (A_eq0 (Vr (Va1 m)) c w)
theorem hrest0 (c : Dev nD) : ∀ b, b ∉ Finset.univ.image (Pipeline.arrRef spec0) → Vr (Va2 m) c b = Vr (Va1 m) c b := fun b hb => by
  show Function.update (Va1 m c) (Proc.devRef .tc main_v7) (o2 m c) (Proc.devRef .tc b) = _
  rw [Function.update_of_ne (StableHlo.devRef_ne_of_ne fun e => hb (Finset.mem_image.mpr ⟨7, Finset.mem_univ _, e.symm⟩))]

theorem arr_ne1 : ∀ w : Fin 4, w ≠ 3 → Pipeline.arrRef spec1 w ≠ main_v20 := by decide
theorem isIn1 : ∀ w : Fin 4, w ≠ 3 → (cfg1.win w).isOut = false := by decide
theorem hF1 (c : Dev nD) (w : Fin cfg1.W) : (pdats m 1 c).arrAt w cfg1.N = Vr (Va4 m) c (Pipeline.arrRef spec1 w) := by
  show (dat1 (Vr (Va3 m)) c).arrAt w cfg1.N = Function.update (Va3 m c) (Proc.devRef .tc main_v20) (o4 m c) (Proc.devRef .tc (Pipeline.arrRef spec1 w))
  by_cases hw : w = 3
  · subst hw; rw [Function.update_self]; rfl
  · rw [Function.update_of_ne (StableHlo.devRef_ne_of_ne (arr_ne1 w hw))]
    exact ((dat1 (Vr (Va3 m)) c).arrAt_in w (isIn1 w hw) _).trans (A_eq1 (Vr (Va3 m)) c w)
theorem hrest1 (c : Dev nD) : ∀ b, b ∉ Finset.univ.image (Pipeline.arrRef spec1) → Vr (Va4 m) c b = Vr (Va3 m) c b := fun b hb => by
  show Function.update (Va3 m c) (Proc.devRef .tc main_v20) (o4 m c) (Proc.devRef .tc b) = _
  rw [Function.update_of_ne (StableHlo.devRef_ne_of_ne fun e => hb (Finset.mem_image.mpr ⟨3, Finset.mem_univ _, e.symm⟩))]

theorem arr_ne2 : ∀ w : Fin 8, w ≠ 7 → Pipeline.arrRef spec2 w ≠ main_v28 := by decide
theorem isIn2 : ∀ w : Fin 8, w ≠ 7 → (cfg2.win w).isOut = false := by decide
theorem hF2 (c : Dev nD) (w : Fin cfg2.W) : (pdats m 2 c).arrAt w cfg2.N = Vr (Va6 m) c (Pipeline.arrRef spec2 w) := by
  show (dat2 (Vr (Va5 m)) c).arrAt w cfg2.N = Function.update (Va5 m c) (Proc.devRef .tc main_v28) (o6 m c) (Proc.devRef .tc (Pipeline.arrRef spec2 w))
  by_cases hw : w = 7
  · subst hw; rw [Function.update_self]; rfl
  · rw [Function.update_of_ne (StableHlo.devRef_ne_of_ne (arr_ne2 w hw))]
    exact ((dat2 (Vr (Va5 m)) c).arrAt_in w (isIn2 w hw) _).trans (A_eq2 (Vr (Va5 m)) c w)
theorem hrest2 (c : Dev nD) : ∀ b, b ∉ Finset.univ.image (Pipeline.arrRef spec2) → Vr (Va6 m) c b = Vr (Va5 m) c b := fun b hb => by
  show Function.update (Va5 m c) (Proc.devRef .tc main_v28) (o6 m c) (Proc.devRef .tc b) = _
  rw [Function.update_of_ne (StableHlo.devRef_ne_of_ne fun e => hb (Finset.mem_image.mpr ⟨7, Finset.mem_univ _, e.symm⟩))]

-- a library lemma stated over the pinned configuration unifies with the printed one only when unification may unfold
-- plain definitions in a metavariable's type
set_option backward.isDefEq.respectTransparency.types false in
/-- Call 0 over the thread state: entered with every unscoped buffer at `Va1`, left with them at `Va2`. Its
    arrays are split out of the unscoped buffers at entry and put back at the exit contents; the generator register goes
    into the pipeline's invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr (Va1 m)) c).loose
  hwaits := Pipeline.hwaits_of_owed_zero _ _ _ _ L lv 0 fun _ _ => rfl
  pre c := iprop(StableHlo.held (c : Thread nD τ) (Pipeline.ucRefs τ sig) (Va1 m c) ∗ R c)
  post c := iprop(StableHlo.held (c : Thread nD τ) (Pipeline.ucRefs τ sig) (Va2 m c) ∗ R c)
  X c := iprop(∃ r, prngReg c r)
  Y c := iprop(∃ r, prngReg c r)
  Z c := Pipeline.unscopedRest (Ix := Unit) (Name := ℕ) (U := UR sig nD τ) (Lvl := ℕ) spec0 c (Vr (Va1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vr (Va1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr (Va1 m) c) (Vr (Va2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 over the thread state: entered with every unscoped buffer at `Va3`, left with them at `Va4`. Its
    arrays are split out of the unscoped buffers at entry and put back at the exit contents; the generator register goes
    into the pipeline's invariant and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr (Va3 m)) c).loose
  hwaits := Pipeline.hwaits_of_owed_zero _ _ _ _ L lv 1 fun _ _ => rfl
  pre c := iprop(StableHlo.held (c : Thread nD τ) (Pipeline.ucRefs τ sig) (Va3 m c) ∗ R c)
  post c := iprop(StableHlo.held (c : Thread nD τ) (Pipeline.ucRefs τ sig) (Va4 m c) ∗ R c)
  X c := iprop(∃ r, prngReg c r)
  Y c := iprop(∃ r, prngReg c r)
  Z c := Pipeline.unscopedRest (Ix := Unit) (Name := ℕ) (U := UR sig nD τ) (Lvl := ℕ) spec1 c (Vr (Va3 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vr (Va3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vr (Va3 m) c) (Vr (Va4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 2 over the thread state: entered with every unscoped buffer at `Va5`, left with them at `Va6`. Its
    arrays are split out of the unscoped buffers at entry and put back at the exit contents; the generator register goes
    into the pipeline's invariant and comes back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr (Va5 m)) c).loose
  hwaits := Pipeline.hwaits_of_owed_zero _ _ _ _ L lv 2 fun _ _ => rfl
  pre c := iprop(StableHlo.held (c : Thread nD τ) (Pipeline.ucRefs τ sig) (Va5 m c) ∗ R c)
  post c := iprop(StableHlo.held (c : Thread nD τ) (Pipeline.ucRefs τ sig) (Va6 m c) ∗ R c)
  X c := iprop(∃ r, prngReg c r)
  Y c := iprop(∃ r, prngReg c r)
  Z c := Pipeline.unscopedRest (Ix := Unit) (Name := ℕ) (U := UR sig nD τ) (Lvl := ℕ) spec2 c (Vr (Va5 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Vr (Va5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Vr (Va5 m) c) (Vr (Va6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The rest states: the same at every boundary. -/
abbrev Es : Fin 4 → Dev nD → sProp 𝕄 := fun _ c => R c

-- the conditional frame's implicit arguments are found by unifying its conclusion with this one, which takes unfolding
-- plain definitions in a metavariable's type
set_option backward.isDefEq.respectTransparency.types false in
/-- From any memory with zero counters every weakly fair execution of the program terminates, nothing faulting, and
    every final memory holds the thirteen argument arrays as launched: the program's host side, given the three calls'
    records above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Gen.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    Es
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)

end Cert.Kernel.Hand

end
-- ==== Proof.KI.Outs.lean ====
/-
  What each kernel body leaves in its output block, as a pure function of the blocks it is handed — at any float
  instance, over the bodies' named arithmetic.

  A Tversky body is handed a block of 128 rows `x0`, a block of 128 prototypes `x1`, the feature matrix `x2`, the
  prototypes' 128 biases `x3` and the three scalars `x4 x5 x6` (α, β, γ, each a 1 × 1 array). It projects rows and
  prototypes through the features, keeps the two projections in scratch, and sums the pairwise minima over the 512
  feature columns in four trips of 128 columns: the carried value before trip `k` is `tvAcc k`, starting from zero.
  An attention body is handed two heads' queries, keys and values.
-/
import proofs.«150770_j35493609734446_2_alg».proof.Proof.Gen.KernelIdeal.Skeleton
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F]

/-! ## The first Tversky call (rows against the stacked query, key and value prototypes) -/

/-- What trip `k` reads of either scratch buffer: all 128 rows, columns `128 k … 128 k + 127`. -/
abbrev tripRect0 (k : Fin k0_t1_loop.trips) : Rect S128x512 :=
  Rect.unit (s := S128x512) (k0_off1 k) S128x128.size (Gen.k0_off1_inb k)

/-- The sum of pairwise minima carried into trip `k`, from the two projections `A` (rows) and `B` (prototypes) kept in
    scratch: zero, then one 128-column slice more per trip. -/
def tvAcc0 (A B : FVec F S128x512 .bf16) : ℕ → FVec F S128x128 .f32
  | 0 => k0_pay7
  | k + 1 =>
    if h : k < k0_t1_loop.trips then
      k0_pay8 (tvAcc0 A B k) (View.ld A (tripRect0 ⟨k, h⟩)) (View.ld B (tripRect0 ⟨k, h⟩))
    else tvAcc0 A B k

/-- The shared mass after all trips. -/
def tvCommon0 (x0 x1 : Vec F S128x512 .f32) (x2 : Vec F S512x512 .f32) : FVec F S128x128 .f32 :=
  tvAcc0 (k0_pay5 x0 x2) (k0_pay6 x1 x2) k0_t1_loop.trips

/-- The block the body stores. -/
def tvOut0 (x0 x1 : Vec F S128x512 .f32) (x2 : Vec F S512x512 .f32) (x3 : Vec F S1x128 .f32) (x4 x5 x6 : Vec F S1x1 .f32) :
    FVec F S128x128 .f32 :=
  k0_pay1 (tvCommon0 x0 x1 x2) (k0_pay9 x0 x2 (tvCommon0 x0 x1 x2)) (k0_pay10 x1 x2 (tvCommon0 x0 x1 x2)) x4 x5 x6 x3

/-! ## The second Tversky call (the attended rows against the output prototypes): the same body -/

abbrev tripRect2 (k : Fin k2_t1_loop.trips) : Rect S128x512 :=
  Rect.unit (s := S128x512) (k2_off1 k) S128x128.size (Gen.k2_off1_inb k)

def tvAcc2 (A B : FVec F S128x512 .bf16) : ℕ → FVec F S128x128 .f32
  | 0 => k2_pay7
  | k + 1 =>
    if h : k < k2_t1_loop.trips then
      k2_pay8 (tvAcc2 A B k) (View.ld A (tripRect2 ⟨k, h⟩)) (View.ld B (tripRect2 ⟨k, h⟩))
    else tvAcc2 A B k

def tvCommon2 (x0 x1 : Vec F S128x512 .f32) (x2 : Vec F S512x512 .f32) : FVec F S128x128 .f32 :=
  tvAcc2 (k2_pay5 x0 x2) (k2_pay6 x1 x2) k2_t1_loop.trips

def tvOut2 (x0 x1 : Vec F S128x512 .f32) (x2 : Vec F S512x512 .f32) (x3 : Vec F S1x128 .f32) (x4 x5 x6 : Vec F S1x1 .f32) :
    FVec F S128x128 .f32 :=
  k2_pay1 (tvCommon2 x0 x1 x2) (k2_pay9 x0 x2 (tvCommon2 x0 x1 x2)) (k2_pay10 x1 x2 (tvCommon2 x0 x1 x2)) x4 x5 x6 x3

/-! ## The attention call: two heads per block -/

/-- The block the attention body stores, from its queries `x0`, keys `x1` and values `x2`. -/
def atOut1 (x0 x1 x2 : Vec F S2x512x64 .f32) : FVec F S2x512x64 .f32 := k1_pay1 x0 x1 x2

end Cert.KernelIdeal.Hand

end
-- ==== Proof.KI.Reg0.lean ====
/-
  The first Tversky call (the rows against the stacked query, key and value prototypes) as one region of the program: what its body needs of the launch and what it
  leaves, at any float instance.

  At a grid point the body is handed eight staging buffers — a block of 128 rows, a block of 128 prototypes, the feature
  matrix, the prototypes' biases, the three scalars, and the output block — and two scratch buffers of its own. It reads
  the seven inputs where they lie, writes both projections into scratch, sums the pairwise minima over four slices of
  128 feature columns, and overwrites the whole output block. So each input buffer ends as it began (its block of the
  array the region was entered with, whether the pipeline fetched it at this point or kept it from an earlier one), the
  scratch buffers end at contents nobody reads again, and the output buffer ends at the one piece the body stored,
  which covers it. These are the proof data of the region; the body obligation says the body meets them at every point.
-/
import proofs.«150770_j35493609734446_2_alg».proof.Proof.KI.Outs
import proofs.«150770_j35493609734446_2_alg».proof.Proof.Gen.KernelIdeal.Launch
import proofs.«150770_j35493609734446_2_alg».proof.Proof.Gen.KernelIdeal.Skeleton
import proofs.«150770_j35493609734446_2_alg».proof.Proof.Gen.KernelIdeal.Loops
import proofs.«150770_j35493609734446_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not (a window whose block
    index did not move still holds the block of the point before, which is this point's), for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body on any staging memrefs -/

/-- One staging buffer of the output window, through which its contents are stated (the choice does not matter). -/
abbrev VO0_7 : View sig .tc .vmem S128x128 .f32 := (Memref.whole cc0_stg7_0 : Memref sig .tc .vmem S128x128 .f32).view
/-- Each window's current staging memref at point `t`, spelled as the pipeline passes it, and its wholeness. -/
abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
/-- The two scratch operands: whole scoped buffers of the kernel's own, passed beside the windows. -/
abbrev scM0_0 : Memref sig .tc .vmem S128x512 .bf16 := Memref.whole cc0_scratch0
abbrev scM0_1 : Memref sig .tc .vmem S128x512 .bf16 := Memref.whole cc0_scratch1

/-- The region's invariant, conjunct by conjunct: the core's scoped buffers that are not this call's staging buffers — the
    two scratch operands owned at some contents, the others at some contents — and the generator register at some
    state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f)) ∗ (∃ r, prngReg c r)) := by
  unfold Pipeline.ΦA; rw [scopedRest0_eq]; simp only [scM0_0, scM0_1, owns_whole]; try rfl

set_option maxHeartbeats 4000000 in
/-- The pieces the body's stores leave in the output block's staging memref (last first), with the proof that on whole
    staging memrefs — the seven inputs' at their contents, the output's and the two scratch buffers at anything — the body
    runs to the continuation holding the inputs' as they were, the scratch at some contents and the output's buffer with
    those pieces written. -/
noncomputable def kernelRun0_A (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (x0 : Vec F S128x512 .f32) (x1 : Vec F S128x512 .f32) (x2 : Vec F S512x512 .f32) (x3 : Vec F S1x128 .f32) (x4 : Vec F S1x1 .f32) (x5 : Vec F S1x1 .f32) (x6 : Vec F S1x1 .f32) :
    { L7 : List (View.Piece (Elt F) S128x128 .f32) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ (∃ d, owns (c : Thread nD τ) arg10 fullShare d) ∗ (∃ d, owns (c : Thread nD τ) arg11 fullShare d)) -∗ K ⟨⟩))
          ⊢ wp frame (wpE (defs₀ (F := F)) Variants.none c none) Set.univ (cc0__tversky_kernel i arg2 harg2 arg3 harg3 arg4 harg4 arg5 harg5 arg6 harg6 arg7 harg7 arg8 harg8 arg9 harg9 arg10 harg10 arg11 harg11) K } := by
  refine ⟨?_, fun K => ?run⟩
  case run =>
    simp only [cc0__tversky_kernel_eq_skeleton]; unfold cc0__tversky_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _, _; isplitr; swap; · iexact HS0
      ipureintro; rfl
    iexists _, _; isplitr; swap; · iexact HS1
    ipureintro; rfl

/-- The body's one store into the output block covers it. -/
theorem cover0_A_7 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (x0 : Vec F S128x512 .f32) (x1 : Vec F S128x512 .f32) (x2 : Vec F S512x512 .f32) (x3 : Vec F S1x128 .f32) (x4 : Vec F S1x1 .f32) (x5 : Vec F S1x1 .f32) (x6 : Vec F S1x1 .f32) (y : S128x128.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).1 S128x128.size (by sl_kernel_rfl) y

/-- What the run leaves in the output block's staging buffer: its pieces read back. -/
def out0_A_7 (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (x0 : Vec F S128x512 .f32) (x1 : Vec F S128x512 .f32) (x2 : Vec F S512x512 .f32) (x3 : Vec F S1x128 .f32) (x4 : Vec F S1x1 .f32) (x5 : Vec F S1x1 .f32) (x6 : Vec F S1x1 .f32) : Vec F S128x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 x0 x1 x2 x3 x4 x5 x6).1)

/-! ## What the output holds after each point -/

/-- What the output window's staging buffer holds after the body at point `t`: the run's contents at the point's memrefs
    and input blocks. -/
def outsAt0 (c : Dev nD) (t : Fin cfg0.N) : Vec F S128x128 .f32 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t)

/-! ## The region's proof data -/

/-- The proof data on core `c`: the arrays as the region finds them; after the body at point `t` each input's buffer at
    its block and the output's at `outsAt0`; the invariant the scoped rest and the generator register; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 1000000 in
/-- The body at any point: the inputs' memrefs hold their blocks, so the run applies; the invariant hands the body its two
    scratch buffers and takes them back at whatever they then hold; the rest of the invariant and what the core owes pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  rw [show (dat0 V c).Φ t.castSucc = Pipeline.ΦA spec0 c from rfl, PhiA0_eq]
  unfold outsAt0
  unfold out0_A_7
  iintro ⟨⟨⟨HS0, HS1, HR2, HR3, HR4, HR5, HR6, HR7, HR8, HR9, HR10, HR11, HR12, HR13, HR14, HR15, HR16, HR17, HR18, HR19, HR20, HR21, HR22, HR23⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t)).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, HS0, HS1⟩
  isplitl [HS0 HS1 HR2 HR3 HR4 HR5 HR6 HR7 HR8 HR9 HR10 HR11 HR12 HR13 HR14 HR15 HR16 HR17 HR18 HR19 HR20 HR21 HR22 HR23 Hg]
  · isplitl [HS0 HS1 HR2 HR3 HR4 HR5 HR6 HR7 HR8 HR9 HR10 HR11 HR12 HR13 HR14 HR15 HR16 HR17 HR18 HR19 HR20 HR21 HR22 HR23]
    · isplitl [HS0]; · iexact HS0
      isplitl [HS1]; · iexact HS1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      iexact HR23
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_A_7 c _ _ _ _ _ _ _ _ _ _ _ _ _ _ _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1.lean ====
/-
  The attention call's half of the frame, at any float instance.

  The attention body is handed three blocks of two heads each — queries, keys, values, every block 2 × 512 × 64 —
  and a fourth buffer for the result. It reads the three blocks whole, computes the two heads' attention as one pure
  function of them, and stores that into the fourth buffer whole; nothing else is touched. So after the body each
  input buffer still holds its block and the output buffer holds the attention of the three blocks: that is the
  proof data of the call's pipeline, and the body's run is the obligation the pipeline asks for at every grid point.
-/
import proofs.«150770_j35493609734446_2_alg».proof.Proof.KI.Outs
import proofs.«150770_j35493609734446_2_alg».proof.Proof.Gen.KernelIdeal.Launch
import proofs.«150770_j35493609734446_2_alg».proof.Proof.Gen.KernelIdeal.Skeleton
import proofs.«150770_j35493609734446_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- what the core's buffers hold when the attention call is entered
variable (V : (c : Dev nD) → (b : Ref sig .tc) → Buf (Elt F) ((c : Thread nD τ).loc b))

/-! ## The windows' blocks -/

/-- Window `w`'s block at grid point `t`: two heads of the array the call finds in that window. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The queries' buffer holds its block at every point, for any proof data whose array is the entry contents and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' buffer, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' buffer, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's one rectangle: the whole block -/

abbrev r1_0 : Rect S2x512x64 := Rect.unit (s := S2x512x64) ![0, 0, 0] S2x512x64.size inb_S2x512x64_S2x512x64_0_0_0

/-- Its offsets are all zero. -/
theorem hz1 : (![0, 0, 0] : Fin S2x512x64.rank → Nat) = fun _ => 0 := by
  funext a; match a with | ⟨0, _⟩ => rfl | ⟨1, _⟩ => rfl | ⟨2, _⟩ => rfl

/-! ## What the body leaves in the result buffer -/

/-- The result buffer after the body, from the three input blocks: one store of the whole block. -/
def out1_3 (x0 x1 x2 : Vec F S2x512x64 .f32) : Vec F S2x512x64 .f32 :=
  View.canon [⟨r1_0, k1_pay1 (View.ld x0 r1_0) (View.ld x1 r1_0) (View.ld x2 r1_0)⟩]

/-- It is the two heads' attention of the blocks as handed over: the rectangle is the whole block, so the loads read
    the blocks themselves and the one store leaves its payload. -/
theorem out1_3_eq (x0 x1 x2 : Vec F S2x512x64 .f32) : out1_3 x0 x1 x2 = atOut1 x0 x1 x2 := by
  unfold out1_3 atOut1
  rw [View.canon_unit_zero hz1]
  simp only [View.ld_unit_zero (S := S2x512x64) hz1]

/-- The one store covers the block: its rectangle is everything. -/
theorem cover1_3 (p0 : Vec F S2x512x64 .f32) (y : S2x512x64.Idx) :
    ∃ pc ∈ ([⟨r1_0, p0⟩] : List (View.Piece (Elt F) S2x512x64 .f32)), y ∈ pc.1.set :=
  ⟨⟨r1_0, p0⟩, List.mem_singleton_self _, View.mem_set_unit_zero hz1 inb_S2x512x64_S2x512x64_0_0_0 y⟩

/-! ## The body's triple -/

set_option maxHeartbeats 1000000 in
/-- The body on whole staging buffers — the three inputs at contents `x0 x1 x2`, the result buffer at anything — runs
    to the continuation with the inputs as they were and the result buffer at `out1_3 x0 x1 x2`. -/
theorem sound_kernel1 (c : Dev nD) (E : Set ℕ) (i : grid1.Coords)
    (arg1 : Memref sig .tc .vmem S2x512x64 .f32) (harg1 : arg1.IsWhole) (arg2 : Memref sig .tc .vmem S2x512x64 .f32) (harg2 : arg2.IsWhole)
    (arg3 : Memref sig .tc .vmem S2x512x64 .f32) (harg3 : arg3.IsWhole) (arg4 : Memref sig .tc .vmem S2x512x64 .f32) (harg4 : arg4.IsWhole)
    (x0 x1 x2 : Vec F S2x512x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the attention call's pipeline on core `c`: the arrays as the call finds them; after the body at
    point `t` each input buffer at its block and the result buffer at `out1_3` of the three blocks; the invariant
    that of a body touching nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Reg2.lean ====
/-
  The second Tversky call (the attended rows against the output prototypes) as one region of the program: what its body needs of the launch and what it
  leaves, at any float instance.

  At a grid point the body is handed eight staging buffers — a block of 128 rows, a block of 128 prototypes, the feature
  matrix, the prototypes' biases, the three scalars, and the output block — and two scratch buffers of its own. It reads
  the seven inputs where they lie, writes both projections into scratch, sums the pairwise minima over four slices of
  128 feature columns, and overwrites the whole output block. So each input buffer ends as it began (its block of the
  array the region was entered with, whether the pipeline fetched it at this point or kept it from an earlier one), the
  scratch buffers end at contents nobody reads again, and the output buffer ends at the one piece the body stored,
  which covers it. These are the proof data of the region; the body obligation says the body meets them at every point.
-/
import proofs.«150770_j35493609734446_2_alg».proof.Proof.KI.Outs
import proofs.«150770_j35493609734446_2_alg».proof.Proof.Gen.KernelIdeal.Launch
import proofs.«150770_j35493609734446_2_alg».proof.Proof.Gen.KernelIdeal.Skeleton
import proofs.«150770_j35493609734446_2_alg».proof.Proof.Gen.KernelIdeal.Loops
import proofs.«150770_j35493609734446_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not (a window whose block
    index did not move still holds the block of the point before, which is this point's), for any proof data whose
    array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body on any staging memrefs -/

/-- One staging buffer of the output window, through which its contents are stated (the choice does not matter). -/
abbrev VO2_7 : View sig .tc .vmem S128x128 .f32 := (Memref.whole cc2_stg7_0 : Memref sig .tc .vmem S128x128 .f32).view
/-- Each window's current staging memref at point `t`, spelled as the pipeline passes it, and its wholeness. -/
abbrev ms2_0 (t : Fin cfg2.N) : Memref sig .tc .vmem S128x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S128x128 .f32 := win2_7.stage (cfg2.slots t 7)
abbrev hs2_7 (t : Fin cfg2.N) : (ms2_7 t).IsWhole := hstage2_7 ((cfg2.slots t 7).cast nbuf2_7)
/-- The two scratch operands: whole scoped buffers of the kernel's own, passed beside the windows. -/
abbrev scM2_0 : Memref sig .tc .vmem S128x512 .bf16 := Memref.whole cc2_scratch0
abbrev scM2_1 : Memref sig .tc .vmem S128x512 .bf16 := Memref.whole cc2_scratch1

/-- The region's invariant, conjunct by conjunct: the core's scoped buffers that are not this call's staging buffers — the
    two scratch operands owned at some contents, the others at some contents — and the generator register at some
    state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2_0 fullShare d) ∗ (∃ d, owns (c : Thread nD τ) scM2_1 fullShare d)) ∗ (∃ r, prngReg c r)) := by
  unfold Pipeline.ΦA; rw [scopedRest2_eq]; simp only [scM2_0, scM2_1, owns_whole]; try rfl

set_option maxHeartbeats 4000000 in
/-- The pieces the body's stores leave in the output block's staging memref (last first), with the proof that on whole
    staging memrefs — the seven inputs' at their contents, the output's and the two scratch buffers at anything — the body
    runs to the continuation holding the inputs' as they were, the scratch at some contents and the output's buffer with
    those pieces written. -/
noncomputable def kernelRun2_A (c : Dev nD) (i : grid2.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (x0 : Vec F S128x512 .f32) (x1 : Vec F S128x512 .f32) (x2 : Vec F S512x512 .f32) (x3 : Vec F S1x128 .f32) (x4 : Vec F S1x1 .f32) (x5 : Vec F S1x1 .f32) (x6 : Vec F S1x1 .f32) :
    { L7 : List (View.Piece (Elt F) S128x128 .f32) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ (∃ d, owns (c : Thread nD τ) arg10 fullShare d) ∗ (∃ d, owns (c : Thread nD τ) arg11 fullShare d)) -∗ K ⟨⟩))
          ⊢ wp frame (wpE (defs₀ (F := F)) Variants.none c none) Set.univ (cc2__tversky_kernel i arg2 harg2 arg3 harg3 arg4 harg4 arg5 harg5 arg6 harg6 arg7 harg7 arg8 harg8 arg9 harg9 arg10 harg10 arg11 harg11) K } := by
  refine ⟨?_, fun K => ?run⟩
  case run =>
    simp only [cc2__tversky_kernel_eq_skeleton]; unfold cc2__tversky_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _, _; isplitr; swap; · iexact HS0
      ipureintro; rfl
    iexists _, _; isplitr; swap; · iexact HS1
    ipureintro; rfl

/-- The body's one store into the output block covers it. -/
theorem cover2_A_7 (c : Dev nD) (i : grid2.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (x0 : Vec F S128x512 .f32) (x1 : Vec F S128x512 .f32) (x2 : Vec F S512x512 .f32) (x3 : Vec F S1x128 .f32) (x4 : Vec F S1x1 .f32) (x5 : Vec F S1x1 .f32) (x6 : Vec F S1x1 .f32) (y : S128x128.Idx) :
    ∃ pc ∈ (kernelRun2_A c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun2_A c i arg2 harg2 arg3 harg3 arg4 harg4 arg5 harg5 arg6 harg6 arg7 harg7 arg8 harg8 arg9 harg9 arg10 harg10 arg11 harg11 x0 x1 x2 x3 x4 x5 x6).1 S128x128.size (by sl_kernel_rfl) y

/-- What the run leaves in the output block's staging buffer: its pieces read back. -/
def out2_A_7 (c : Dev nD) (i : grid2.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (x0 : Vec F S128x512 .f32) (x1 : Vec F S128x512 .f32) (x2 : Vec F S512x512 .f32) (x3 : Vec F S1x128 .f32) (x4 : Vec F S1x1 .f32) (x5 : Vec F S1x1 .f32) (x6 : Vec F S1x1 .f32) : Vec F S128x128 .f32 :=
  VO2_7.read (Elt F) (VO2_7.writes (Elt F) VO2_7.junk (kernelRun2_A c i arg2 harg2 arg3 harg3 arg4 harg4 arg5 harg5 arg6 harg6 arg7 harg7 arg8 harg8 arg9 harg9 arg10 harg10 arg11 harg11 x0 x1 x2 x3 x4 x5 x6).1)

/-! ## What the output holds after each point -/

/-- What the output window's staging buffer holds after the body at point `t`: the run's contents at the point's memrefs
    and input blocks. -/
def outsAt2 (c : Dev nD) (t : Fin cfg2.N) : Vec F S128x128 .f32 :=
  out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (iblk2 V c 0 t) (iblk2 V c 1 t) (iblk2 V c 2 t) (iblk2 V c 3 t) (iblk2 V c 4 t) (iblk2 V c 5 t) (iblk2 V c 6 t)

/-! ## The region's proof data -/

/-- The proof data on core `c`: the arrays as the region finds them; after the body at point `t` each input's buffer at
    its block and the output's at `outsAt2`; the invariant the scoped rest and the generator register; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t) := by dsimp only [dat2]

/-! Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 1000000 in
/-- The body at any point: the inputs' memrefs hold their blocks, so the run applies; the invariant hands the body its two
    scratch buffers and takes them back at whatever they then hold; the rest of the invariant and what the core owes pass
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  rw [show (dat2 V c).Φ t.castSucc = Pipeline.ΦA spec2 c from rfl, PhiA2_eq]
  unfold outsAt2
  unfold out2_A_7
  iintro ⟨⟨⟨HR0, HR1, HR2, HR3, HR4, HR5, HR6, HR7, HR8, HR9, HR10, HR11, HR12, HR13, HR14, HR15, HR16, HR17, HR18, HR19, HR20, HR21, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t)).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, HS0, HS1⟩
  isplitl [HR0 HR1 HR2 HR3 HR4 HR5 HR6 HR7 HR8 HR9 HR10 HR11 HR12 HR13 HR14 HR15 HR16 HR17 HR18 HR19 HR20 HR21 HS0 HS1 Hg]
  · isplitl [HR0 HR1 HR2 HR3 HR4 HR5 HR6 HR7 HR8 HR9 HR10 HR11 HR12 HR13 HR14 HR15 HR16 HR17 HR18 HR19 HR20 HR21 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover2_A_7 c _ _ _ _ _ _ _ _ _ _ _ _ _ _ _ _ _ _ _ _ _ _ _ _ _ _ _ _)

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Run.lean ====
/-
  The three calls put together: what the program's buffers hold at each boundary, each call's record for the
  several-call launch theorem, and the program's run.

  The program is: a stretch of host operations (the rows reshaped, the query, key and value prototypes and their
  biases stacked), the first Tversky call, a stretch cutting its 512 × 1536 result into eight heads of queries, keys
  and values, the attention call, a stretch merging the heads back into 512 × 512 rows, the second Tversky call, and a
  last reshape. Each call changes exactly one array — its result — and leaves every other unscoped buffer as it found
  it; between calls the host operations are pushed through the valuation. So the buffers' contents at the eight
  boundaries are a chain of valuations, each determined by the one before, and the frame follows from the three calls'
  body obligations.
-/
import proofs.«150770_j35493609734446_2_alg».proof.Proof.KI.Reg0
import proofs.«150770_j35493609734446_2_alg».proof.Proof.KI.Reg1
import proofs.«150770_j35493609734446_2_alg».proof.Proof.KI.Reg2
import proofs.«150770_j35493609734446_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What core `c`'s buffers hold at each boundary of the program

The program is four stretches of host operations around the three calls. Before the first Tversky call the buffers
hold the launch contents pushed through the first stretch; each call changes one array, its result — the stacked
projections, then the attended heads, then the output projection — to what its pipeline's write-backs leave; each
later stretch is pushed through from there. -/

/-- A family of valuations read at the core's own references: the form a call's proof data takes its entry contents in. -/
abbrev Vr (W : Dev nD → Valuation τ sig (Elt F)) : (c : Dev nD) → (b : Ref sig .tc) → Buf (Elt F) ((c : Thread nD τ).loc b) :=
  fun c b => W c b

/-- Entering the first Tversky call. -/
abbrev Va1 (c : Dev nD) : Valuation τ sig (Elt F) := Gen.V1 m c
/-- What the first Tversky call leaves in its result array: the 512 × 1536 stacked projections. -/
def o2 (c : Dev nD) : Buf (Elt F) ((c : Thread nD τ).loc main_v7) := (dat0 (Vr (Va1 m)) c).arrAt 7 cfg0.N
/-- Leaving it. -/
abbrev Va2 (c : Dev nD) : Valuation τ sig (Elt F) := Function.update (Va1 m c) main_v7 (o2 m c)
/-- Entering the attention call: the projections cut into queries, keys and values, head by head. -/
abbrev Va3 (c : Dev nD) : Valuation τ sig (Elt F) := StableHlo.after hostOps1 (Va2 m c)
/-- What the attention call leaves in its result array: the eight attended heads. -/
def o4 (c : Dev nD) : Buf (Elt F) ((c : Thread nD τ).loc main_v20) := (dat1 (Vr (Va3 m)) c).arrAt 3 cfg1.N
/-- Leaving it. -/
abbrev Va4 (c : Dev nD) : Valuation τ sig (Elt F) := Function.update (Va3 m c) main_v20 (o4 m c)
/-- Entering the second Tversky call: the heads merged back into rows. -/
abbrev Va5 (c : Dev nD) : Valuation τ sig (Elt F) := StableHlo.after hostOps2 (Va4 m c)
/-- What the second Tversky call leaves in its result array. -/
def o6 (c : Dev nD) : Buf (Elt F) ((c : Thread nD τ).loc main_v28) := (dat2 (Vr (Va5 m)) c).arrAt 7 cfg2.N
/-- Leaving it. -/
abbrev Va6 (c : Dev nD) : Valuation τ sig (Elt F) := Function.update (Va5 m c) main_v28 (o6 m c)
/-- At the return. -/
abbrev Va7 (c : Dev nD) : Valuation τ sig (Elt F) := StableHlo.after hostOps3 (Va6 m c)

/-- The three results, as the unknowns the program's host side is stated over. -/
def outs : Gen.Outs (F := F) := fun J r c =>
  if J = 2 then Va2 m c r else if J = 4 then Va4 m c r else Va6 m c r

theorem outs_2 (r : Ref sig .tc) (c : Dev nD) : outs m 2 r c = Va2 m c r := by
  unfold outs; rw [if_pos rfl]
theorem outs_4 (r : Ref sig .tc) (c : Dev nD) : outs m 4 r c = Va4 m c r := by
  unfold outs; rw [if_neg (by decide), if_pos rfl]
theorem outs_6 (r : Ref sig .tc) (c : Dev nD) : outs m 6 r c = Va6 m c r := by
  unfold outs; rw [if_neg (by decide), if_neg (by decide)]

/-- With those results the host side's valuations are the ones above. -/
theorem V2_eq (c : Dev nD) : Gen.V2 m (outs m) c = Va2 m c := by
  show Function.update (Gen.V1 m c) (Proc.devRef .tc main_v7) (outs m 2 main_v7 c) = Va2 m c
  rw [outs_2]
  show Function.update (Va1 m c) (Proc.devRef .tc main_v7) (Function.update (Va1 m c) (Proc.devRef .tc main_v7) (o2 m c) (Proc.devRef .tc main_v7)) = _
  rw [Function.update_self]
theorem V3_eq (c : Dev nD) : Gen.V3 m (outs m) c = Va3 m c := by
  show StableHlo.after hostOps1 (Gen.V2 m (outs m) c) = _
  rw [V2_eq]
theorem V4_eq (c : Dev nD) : Gen.V4 m (outs m) c = Va4 m c := by
  show Function.update (Gen.V3 m (outs m) c) (Proc.devRef .tc main_v20) (outs m 4 main_v20 c) = Va4 m c
  rw [outs_4, V3_eq]
  show Function.update (Va3 m c) (Proc.devRef .tc main_v20) (Function.update (Va3 m c) (Proc.devRef .tc main_v20) (o4 m c) (Proc.devRef .tc main_v20)) = _
  rw [Function.update_self]
theorem V5_eq (c : Dev nD) : Gen.V5 m (outs m) c = Va5 m c := by
  show StableHlo.after hostOps2 (Gen.V4 m (outs m) c) = _
  rw [V4_eq]
theorem V6_eq (c : Dev nD) : Gen.V6 m (outs m) c = Va6 m c := by
  show Function.update (Gen.V5 m (outs m) c) (Proc.devRef .tc main_v28) (outs m 6 main_v28 c) = Va6 m c
  rw [outs_6, V5_eq]
  show Function.update (Va5 m c) (Proc.devRef .tc main_v28) (Function.update (Va5 m c) (Proc.devRef .tc main_v28) (o6 m c) (Proc.devRef .tc main_v28)) = _
  rw [Function.update_self]
theorem V7_eq (c : Dev nD) : Gen.V7 m (outs m) c = Va7 m c := by
  show StableHlo.after hostOps3 (Gen.V6 m (outs m) c) = _
  rw [V6_eq]

/-! ## The proof data family and what rides beside the buffers -/

/-- Every call's proof data, each at its call's entry contents. -/
def pdats : (p : Fin 3) → (c : Dev nD) → Dat τ (Elt F) Unit ℕ (UR sig nD τ) ℕ (cfgs p) c
  | ⟨0, _⟩ => fun c => dat0 (Vr (Va1 m)) c
  | ⟨1, _⟩ => fun c => dat1 (Vr (Va3 m)) c
  | ⟨2, _⟩ => fun c => dat2 (Vr (Va5 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-! ## Each call's arrays at its exit

At a call's exit each of its arrays holds what the exit valuation says: an input array is as entered — no write-back
touches it, and it is not the result array —, the result array is the write-backs' fold; off the call's arrays the exit
valuation is the entry one. -/

theorem arr_ne0 : ∀ w : Fin 8, w ≠ 7 → Pipeline.arrRef spec0 w ≠ main_v7 := by decide
theorem isIn0 : ∀ w : Fin 8, w ≠ 7 → (cfg0.win w).isOut = false := by decide
theorem hF0 (c : Dev nD) (w : Fin cfg0.W) : (pdats m 0 c).arrAt w cfg0.N = Vr (Va2 m) c (Pipeline.arrRef spec0 w) := by
  show (dat0 (Vr (Va1 m)) c).arrAt w cfg0.N = Function.update (Va1 m c) (Proc.devRef .tc main_v7) (o2 m c) (Proc.devRef .tc (Pipeline.arrRef spec0 w))
  by_cases hw : w = 7
  · subst hw; rw [Function.update_self]; rfl
  · rw [Function.update_of_ne (StableHlo.devRef_ne_of_ne (arr_ne0 w hw))]
    exact ((dat0 (Vr (Va1 m)) c).arrAt_in w (isIn0 w hw) _).trans (A_eq0 (Vr (Va1 m)) c w)
theorem hrest0 (c : Dev nD) : ∀ b, b ∉ Finset.univ.image (Pipeline.arrRef spec0) → Vr (Va2 m) c b = Vr (Va1 m) c b := fun b hb => by
  show Function.update (Va1 m c) (Proc.devRef .tc main_v7) (o2 m c) (Proc.devRef .tc b) = _
  rw [Function.update_of_ne (StableHlo.devRef_ne_of_ne fun e => hb (Finset.mem_image.mpr ⟨7, Finset.mem_univ _, e.symm⟩))]

theorem arr_ne1 : ∀ w : Fin 4, w ≠ 3 → Pipeline.arrRef spec1 w ≠ main_v20 := by decide
theorem isIn1 : ∀ w : Fin 4, w ≠ 3 → (cfg1.win w).isOut = false := by decide
theorem hF1 (c : Dev nD) (w : Fin cfg1.W) : (pdats m 1 c).arrAt w cfg1.N = Vr (Va4 m) c (Pipeline.arrRef spec1 w) := by
  show (dat1 (Vr (Va3 m)) c).arrAt w cfg1.N = Function.update (Va3 m c) (Proc.devRef .tc main_v20) (o4 m c) (Proc.devRef .tc (Pipeline.arrRef spec1 w))
  by_cases hw : w = 3
  · subst hw; rw [Function.update_self]; rfl
  · rw [Function.update_of_ne (StableHlo.devRef_ne_of_ne (arr_ne1 w hw))]
    exact ((dat1 (Vr (Va3 m)) c).arrAt_in w (isIn1 w hw) _).trans (A_eq1 (Vr (Va3 m)) c w)
theorem hrest1 (c : Dev nD) : ∀ b, b ∉ Finset.univ.image (Pipeline.arrRef spec1) → Vr (Va4 m) c b = Vr (Va3 m) c b := fun b hb => by
  show Function.update (Va3 m c) (Proc.devRef .tc main_v20) (o4 m c) (Proc.devRef .tc b) = _
  rw [Function.update_of_ne (StableHlo.devRef_ne_of_ne fun e => hb (Finset.mem_image.mpr ⟨3, Finset.mem_univ _, e.symm⟩))]

theorem arr_ne2 : ∀ w : Fin 8, w ≠ 7 → Pipeline.arrRef spec2 w ≠ main_v28 := by decide
theorem isIn2 : ∀ w : Fin 8, w ≠ 7 → (cfg2.win w).isOut = false := by decide
theorem hF2 (c : Dev nD) (w : Fin cfg2.W) : (pdats m 2 c).arrAt w cfg2.N = Vr (Va6 m) c (Pipeline.arrRef spec2 w) := by
  show (dat2 (Vr (Va5 m)) c).arrAt w cfg2.N = Function.update (Va5 m c) (Proc.devRef .tc main_v28) (o6 m c) (Proc.devRef .tc (Pipeline.arrRef spec2 w))
  by_cases hw : w = 7
  · subst hw; rw [Function.update_self]; rfl
  · rw [Function.update_of_ne (StableHlo.devRef_ne_of_ne (arr_ne2 w hw))]
    exact ((dat2 (Vr (Va5 m)) c).arrAt_in w (isIn2 w hw) _).trans (A_eq2 (Vr (Va5 m)) c w)
theorem hrest2 (c : Dev nD) : ∀ b, b ∉ Finset.univ.image (Pipeline.arrRef spec2) → Vr (Va6 m) c b = Vr (Va5 m) c b := fun b hb => by
  show Function.update (Va5 m c) (Proc.devRef .tc main_v28) (o6 m c) (Proc.devRef .tc b) = _
  rw [Function.update_of_ne (StableHlo.devRef_ne_of_ne fun e => hb (Finset.mem_image.mpr ⟨7, Finset.mem_univ _, e.symm⟩))]

-- a library lemma stated over the pinned configuration unifies with the printed one only when unification may unfold
-- plain definitions in a metavariable's type
set_option backward.isDefEq.respectTransparency.types false in
/-- Call 0 over the thread state: entered with every unscoped buffer at `Va1`, left with them at `Va2`. Its
    arrays are split out of the unscoped buffers at entry and put back at the exit contents; the generator register goes
    into the pipeline's invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr (Va1 m)) c).loose
  hwaits := Pipeline.hwaits_of_owed_zero _ _ _ _ L lv 0 fun _ _ => rfl
  pre c := iprop(StableHlo.held (c : Thread nD τ) (Pipeline.ucRefs τ sig) (Va1 m c) ∗ R c)
  post c := iprop(StableHlo.held (c : Thread nD τ) (Pipeline.ucRefs τ sig) (Va2 m c) ∗ R c)
  X c := iprop(∃ r, prngReg c r)
  Y c := iprop(∃ r, prngReg c r)
  Z c := Pipeline.unscopedRest (Ix := Unit) (Name := ℕ) (U := UR sig nD τ) (Lvl := ℕ) spec0 c (Vr (Va1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vr (Va1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr (Va1 m) c) (Vr (Va2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 over the thread state: entered with every unscoped buffer at `Va3`, left with them at `Va4`. Its
    arrays are split out of the unscoped buffers at entry and put back at the exit contents; the generator register goes
    into the pipeline's invariant and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr (Va3 m)) c).loose
  hwaits := Pipeline.hwaits_of_owed_zero _ _ _ _ L lv 1 fun _ _ => rfl
  pre c := iprop(StableHlo.held (c : Thread nD τ) (Pipeline.ucRefs τ sig) (Va3 m c) ∗ R c)
  post c := iprop(StableHlo.held (c : Thread nD τ) (Pipeline.ucRefs τ sig) (Va4 m c) ∗ R c)
  X c := iprop(∃ r, prngReg c r)
  Y c := iprop(∃ r, prngReg c r)
  Z c := Pipeline.unscopedRest (Ix := Unit) (Name := ℕ) (U := UR sig nD τ) (Lvl := ℕ) spec1 c (Vr (Va3 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vr (Va3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vr (Va3 m) c) (Vr (Va4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 2 over the thread state: entered with every unscoped buffer at `Va5`, left with them at `Va6`. Its
    arrays are split out of the unscoped buffers at entry and put back at the exit contents; the generator register goes
    into the pipeline's invariant and comes back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr (Va5 m)) c).loose
  hwaits := Pipeline.hwaits_of_owed_zero _ _ _ _ L lv 2 fun _ _ => rfl
  pre c := iprop(StableHlo.held (c : Thread nD τ) (Pipeline.ucRefs τ sig) (Va5 m c) ∗ R c)
  post c := iprop(StableHlo.held (c : Thread nD τ) (Pipeline.ucRefs τ sig) (Va6 m c) ∗ R c)
  X c := iprop(∃ r, prngReg c r)
  Y c := iprop(∃ r, prngReg c r)
  Z c := Pipeline.unscopedRest (Ix := Unit) (Name := ℕ) (U := UR sig nD τ) (Lvl := ℕ) spec2 c (Vr (Va5 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Vr (Va5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Vr (Va5 m) c) (Vr (Va6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The rest states: the same at every boundary. -/
abbrev Es : Fin 4 → Dev nD → sProp 𝕄 := fun _ c => R c

-- the conditional frame's implicit arguments are found by unifying its conclusion with this one, which takes unfolding
-- plain definitions in a metavariable's type
set_option backward.isDefEq.respectTransparency.types false in
/-- From any memory with zero counters every weakly fair execution of the program terminates, nothing faulting, and
    every final memory holds the thirteen argument arrays as launched: the program's host side, given the three calls'
    records above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Gen.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    Es
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)

/-! ## The run, with the result array's contents -/

/-- The launch: every core's unscoped buffers are held at the launch contents, and whatever makes the first rest
    state on every core at once rides along. -/
theorem hinit_of (O₀ : Dev nD → CellTallies nD τ sig Unit) (G E0 : Dev nD → sProp 𝕄)
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ E0 : sProp 𝕄)) :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (Gen.V0 m c) ∗ E0 c) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (Gen.V0 m c))
          ∗ bigSep Finset.univ fun c : Dev nD => iprop(unscopedSems0 c ∗ owes (c : Thread nD τ) (O₀ c) ∅ ∗ Pipeline.launchCred O₀ c ∗ prngReg c (ρ c) ∗ G c))
          : sProp 𝕄) := by
    rw [← bigSep_sep']
    exact bigSep_mono fun c _ => by rw [← Pipeline.unscopedBufs_held (Ix := Unit) (Name := ℕ) (U := UR sig nD τ) (Lvl := ℕ) c (Gen.V0 m c)]; exact BI.Entails.refl _
  iintro ⟨H, Hla⟩
  ihave H' := hsplit $$ H
  icases H' with ⟨Hh, Hr⟩
  imod hE0 $$ [Hr Hla] with HE
  · isplitl [Hr]; · iexact Hr
    iexact Hla
  imodintro
  rw [bigSep_sep']
  isplitl [Hh]; · iexact Hh
  iexact HE

/-- The first rest state, on every core at once: the generator register as launched, nothing owed. -/
theorem hEs0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (Es (F := F) 0) : sProp 𝕄) := by
  refine Pipeline.initEach L lv fun c => ?_
  iintro ⟨⟨-, HO, -, Hp, -⟩, -⟩
  imodintro
  isplitl [Hp]; · iexists _; iexact Hp
  iexists ∅; iexact HO

-- the launch theorem's implicit arguments are found by unifying its conclusion with this one, which takes unfolding
-- plain definitions in a metavariable's type
set_option backward.isDefEq.respectTransparency.types false in
/-- The same run read once more at its end: every final memory also holds, in the program's result array, what the last
    valuation says — the last stretch applied to what the second Tversky call left. -/
theorem run_valued : θ_run defs (onTc (τ := τ) (main (F := F))) ⟨m, fun _ => 0, ρ⟩ (fun r => ∀ c : Dev nD,
      r.2.mem ((c.tc : Thread nD τ).loc main_v29) = Va7 m c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  have hE3 : ∀ c : Dev nD, Es (F := F) 3 c ⊢ (iprop(∃ W, owes (c : Thread nD τ) (0 : CellTallies nD τ sig Unit) W) : sProp 𝕄) :=
    fun c => by iintro ⟨-, HO⟩; iexact HO
  have hpre0 : ∀ c : Dev nD, iprop(StableHlo.held (c : Thread nD τ) (Pipeline.ucRefs τ sig) (Gen.V1 m c) ∗ Es 0 c) ⊢ (reg0 m).pre c := fun c => .rfl
  have hpost0 : ∀ c : Dev nD, (reg0 m).post c ⊢ iprop(StableHlo.held (c : Thread nD τ) (Pipeline.ucRefs τ sig) (Gen.V2 m (outs m) c) ∗ Es 1 c) := fun c => by rw [V2_eq]; exact .rfl
  have hpre1 : ∀ c : Dev nD, iprop(StableHlo.held (c : Thread nD τ) (Pipeline.ucRefs τ sig) (Gen.V3 m (outs m) c) ∗ Es 1 c) ⊢ (reg1 m).pre c := fun c => by rw [V3_eq]; exact .rfl
  have hpost1 : ∀ c : Dev nD, (reg1 m).post c ⊢ iprop(StableHlo.held (c : Thread nD τ) (Pipeline.ucRefs τ sig) (Gen.V4 m (outs m) c) ∗ Es 2 c) := fun c => by rw [V4_eq]; exact .rfl
  have hpre2 : ∀ c : Dev nD, iprop(StableHlo.held (c : Thread nD τ) (Pipeline.ucRefs τ sig) (Gen.V5 m (outs m) c) ∗ Es 2 c) ⊢ (reg2 m).pre c := fun c => by rw [V5_eq]; exact .rfl
  have hpost2 : ∀ c : Dev nD, (reg2 m).post c ⊢ iprop(StableHlo.held (c : Thread nD τ) (Pipeline.ucRefs τ sig) (Gen.V6 m (outs m) c) ∗ Es 3 c) := fun c => by rw [V6_eq]; exact .rfl
  refine Pipeline.θ_run_regions_kit_dev (pcfgs (F := F)) Gen.adm (pdats m) () cellOf_inj emb₁ defs₀ 𝒱₀ L lv m ρ main
    (Gen.segs m (outs m) 𝒱₀ L lv Es () (pdats m) (reg0 m) (reg1 m) (reg2 m))
    (fun c Q => by
      rewrite [main_chain c, Seg.run_eq_chain,
        show (Gen.segs m (outs m) 𝒱₀ L lv Es () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Es 0 c))
    (Tₙ := fun c => StableHlo.held (c : Thread nD τ) (Pipeline.ucRefs τ sig) (Gen.V7 m (outs m) c))
    (hch := fun c => ⟨.rfl, hpre0 c, hpost0 c, hpre1 c, hpost1 c, hpre2 c, hpost2 c, sep_mono .rfl (hE3 c)⟩)
    (hinit := hinit_of m ρ 0 (fun _ => iprop(emp)) (Es 0) (hEs0 ρ))
    (QY := fun c s => s.mem ((c.tc : Thread nD τ).loc main_v29) = Va7 m c main_v29 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  -- the end: the result array and each argument's buffer read off the last valuation
  unfold StableHlo.held
  iintro ⟨Hh, HSI⟩
  ihave Hr := (pointsTo_read_all (Pipeline.ucRefs τ sig) (fun b => ((c : Thread nD τ).1, b)) (Gen.V7 m (outs m) c) s') $$ [Hh HSI]
  · isplitl [Hh] <;> iassumption
  icases Hr with ⟨%h, HSI⟩
  imodintro
  isplitr
  · ipureintro
    exact ⟨(h (Proc.devRef .tc main_v29) (Finset.mem_filter.mpr ⟨StableHlo.devRef_mem_tcRefs main_v29, by decide⟩)).trans (congrFun (V7_eq m c) _),
      (h (Proc.devRef .tc main_arg0) (Finset.mem_filter.mpr ⟨StableHlo.devRef_mem_tcRefs main_arg0, by decide⟩)).trans (Gen.V7_main_arg0 m (outs m) c),
      (h (Proc.devRef .tc main_arg1) (Finset.mem_filter.mpr ⟨StableHlo.devRef_mem_tcRefs main_arg1, by decide⟩)).trans (Gen.V7_main_arg1 m (outs m) c),
      (h (Proc.devRef .tc main_arg2) (Finset.mem_filter.mpr ⟨StableHlo.devRef_mem_tcRefs main_arg2, by decide⟩)).trans (Gen.V7_main_arg2 m (outs m) c),
      (h (Proc.devRef .tc main_arg3) (Finset.mem_filter.mpr ⟨StableHlo.devRef_mem_tcRefs main_arg3, by decide⟩)).trans (Gen.V7_main_arg3 m (outs m) c),
      (h (Proc.devRef .tc main_arg4) (Finset.mem_filter.mpr ⟨StableHlo.devRef_mem_tcRefs main_arg4, by decide⟩)).trans (Gen.V7_main_arg4 m (outs m) c),
      (h (Proc.devRef .tc main_arg5) (Finset.mem_filter.mpr ⟨StableHlo.devRef_mem_tcRefs main_arg5, by decide⟩)).trans (Gen.V7_main_arg5 m (outs m) c),
      (h (Proc.devRef .tc main_arg6) (Finset.mem_filter.mpr ⟨StableHlo.devRef_mem_tcRefs main_arg6, by decide⟩)).trans (Gen.V7_main_arg6 m (outs m) c),
      (h (Proc.devRef .tc main_arg7) (Finset.mem_filter.mpr ⟨StableHlo.devRef_mem_tcRefs main_arg7, by decide⟩)).trans (Gen.V7_main_arg7 m (outs m) c),
      (h (Proc.devRef .tc main_arg8) (Finset.mem_filter.mpr ⟨StableHlo.devRef_mem_tcRefs main_arg8, by decide⟩)).trans (Gen.V7_main_arg8 m (outs m) c),
      (h (Proc.devRef .tc main_arg9) (Finset.mem_filter.mpr ⟨StableHlo.devRef_mem_tcRefs main_arg9, by decide⟩)).trans (Gen.V7_main_arg9 m (outs m) c),
      (h (Proc.devRef .tc main_arg10) (Finset.mem_filter.mpr ⟨StableHlo.devRef_mem_tcRefs main_arg10, by decide⟩)).trans (Gen.V7_main_arg10 m (outs m) c),
      (h (Proc.devRef .tc main_arg11) (Finset.mem_filter.mpr ⟨StableHlo.devRef_mem_tcRefs main_arg11, by decide⟩)).trans (Gen.V7_main_arg11 m (outs m) c),
      (h (Proc.devRef .tc main_arg12) (Finset.mem_filter.mpr ⟨StableHlo.devRef_mem_tcRefs main_arg12, by decide⟩)).trans (Gen.V7_main_arg12 m (outs m) c)⟩
  · iexact HSI

end Cert.KernelIdeal.Hand

end
-- ==== Proof.Spec.lean ====
/-
  The specification both programs are compared with: one Tversky attention block on the extended reals, written over
  plain coordinates. Nothing here mentions a program.

  A Tversky projection of rows `x n ·` against prototypes `p m ·` through a shared feature matrix `f` is
  `γ·c / (γ·c + |α|·(Σ_d xf n d − c) + |β|·(Σ_d pf m d − c) + ε) + bias m`, where `xf = relu (x · f)`, `pf = relu (p · f)` and
  `c = Σ_d min (xf n d) (pf m d)` is the mass the two rows share. The entry (n, m) depends on row `n` of `x` and row `m`
  of `p` only, so the definitions take the rows over ANY index types: a block of 128 rows and the whole array are
  instances of one definition. Queries, keys and values are three such projections of the same rows; attention is taken
  head by head (8 heads of 64 columns) with the scores scaled by 1/8 and a softmax over the keys, spelled the way both
  programs compute it (subtract the row's maximum, exponentiate, divide by the row's sum); a fourth projection of the
  merged heads gives the result.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A 512 × 512 array of extended reals, by coordinates. -/
abbrev Mat : Type := Fin 512 → Fin 512 → EReal
/-- A vector of 512 extended reals. -/
abbrev Vc : Type := Fin 512 → EReal

/-- The denominator's guard: the float word of 1e-8. -/
def eps : EReal := Ideal.ofBits .f32 0x322BCC77#32
/-- The scores' scale: the float word of 1/8. -/
def eighth : EReal := Ideal.ofBits .f32 0x3E000000#32

/-- `max x 0`. -/
def relu (x : EReal) : EReal := max x 0

/-- Rows (over any index type) through the feature matrix, clipped at zero: `relu (Σ_k x n k · f k d)`. -/
def proj {ι : Type} (x : ι → Fin 512 → EReal) (f : Mat) : ι → Fin 512 → EReal :=
  fun n d => relu (∑ k : Fin 512, x n k * f k d)

/-- The mass row `n` of `xf` and row `m` of `pf` share: `Σ_d min (xf n d) (pf m d)`. -/
def common {ι κ : Type} (xf : ι → Fin 512 → EReal) (pf : κ → Fin 512 → EReal) (n : ι) (m : κ) : EReal :=
  ∑ d : Fin 512, min (xf n d) (pf m d)

/-- The Tversky ratio of projected rows against projected prototypes, plus the prototype's bias. -/
def ratio {ι κ : Type} (xf : ι → Fin 512 → EReal) (pf : κ → Fin 512 → EReal) (bias : κ → EReal) (α β γ : EReal) :
    ι → κ → EReal := fun n m =>
  Ideal.div (γ * common xf pf n m)
    (γ * common xf pf n m + max α (-α) * ((∑ d : Fin 512, xf n d) - common xf pf n m)
      + max β (-β) * ((∑ d : Fin 512, pf m d) - common xf pf n m) + eps)
    + bias m

/-- One Tversky projection layer: rows `x` against prototypes `p` through `f`. -/
def layer {ι κ : Type} (x : ι → Fin 512 → EReal) (p : κ → Fin 512 → EReal) (f : Mat) (bias : κ → EReal) (α β γ : EReal) :
    ι → κ → EReal := ratio (proj x f) (proj p f) bias α β γ

/-- The entry (n, m) of a layer reads row `n` of the rows, row `m` of the prototypes and entry `m` of the bias only. -/
theorem layer_congr {ι κ ι' κ' : Type} (x : ι → Fin 512 → EReal) (p : κ → Fin 512 → EReal) (x' : ι' → Fin 512 → EReal)
    (p' : κ' → Fin 512 → EReal) (f : Mat) (bias : κ → EReal) (bias' : κ' → EReal) (α β γ : EReal) (n : ι) (m : κ) (n' : ι') (m' : κ')
    (hx : x n = x' n') (hp : p m = p' m') (hb : bias m = bias' m') :
    layer x p f bias α β γ n m = layer x' p' f bias' α β γ n' m' := by
  simp only [layer, ratio, common, proj, hx, hp, hb]

/-- Column `e` of head `h`: heads are consecutive runs of 64 columns. -/
def col (h : Fin 8) (e : Fin 64) : Fin 512 := ⟨h.val * 64 + e.val, by have := h.isLt; have := e.isLt; omega⟩

/-- One head's queries, keys or values: 512 rows of 64 columns. -/
abbrev Head : Type := Fin 512 → Fin 64 → EReal

/-- The scaled score of query row `i` against key row `j` within one head. -/
def score (q k : Head) (i j : Fin 512) : EReal := (∑ e : Fin 64, q i e * k j e) * eighth

/-- A row's maximum, as a fold of `max` from −∞. -/
def rowMax (s : Fin 512 → EReal) : EReal := (Finset.univ : Finset (Fin 512)).fold max ⊥ s

/-- The unnormalised softmax weight. -/
def weight (q k : Head) (i j : Fin 512) : EReal := Ideal.exp (score q k i j - rowMax (score q k i))

/-- The softmax weight of key `j` for query `i`. -/
def prob (q k : Head) (i j : Fin 512) : EReal := Ideal.div (weight q k i j) (∑ j' : Fin 512, weight q k i j')

/-- One head's attended values. -/
def attend (q k v : Head) : Head := fun i e => ∑ j : Fin 512, prob q k i j * v j e

/-- Head `h` of a 512-column array. -/
def head (a : Mat) (h : Fin 8) : Head := fun i e => a i (col h e)

/-- The heads attended one by one and merged back into 512 columns. -/
def merged (q k v : Mat) : Mat := fun i c =>
  attend (head q ⟨c.val / 64, by have := c.isLt; omega⟩) (head k ⟨c.val / 64, by have := c.isLt; omega⟩)
    (head v ⟨c.val / 64, by have := c.isLt; omega⟩) i ⟨c.val % 64, Nat.mod_lt _ (by decide)⟩

/-- The whole block: three projections of the rows, attention over them, a fourth projection of the result. -/
def block (x f pq pk pv po : Mat) (bq bk bv bo : Vc) (α β γ : EReal) : Mat :=
  layer (merged (layer x pq f bq α β γ) (layer x pk f bk α β γ) (layer x pv f bv α β γ)) po f bo α β γ

/-- The block read off the thirteen argument arrays as the two programs hold them (argument 0 the rows with a leading
    unit axis, 1 the features, 2–4 the scalars α β γ, then prototype and bias of the query, key, value and output
    projections). -/
def ofArgs (a0 : (⟨3, ![1, 512, 512]⟩ : Shape).Idx → EReal) (a1 : (⟨2, ![512, 512]⟩ : Shape).Idx → EReal)
    (a2 a3 a4 : (⟨0, ![]⟩ : Shape).Idx → EReal)
    (a5 : (⟨2, ![512, 512]⟩ : Shape).Idx → EReal) (a6 : (⟨1, ![512]⟩ : Shape).Idx → EReal)
    (a7 : (⟨2, ![512, 512]⟩ : Shape).Idx → EReal) (a8 : (⟨1, ![512]⟩ : Shape).Idx → EReal)
    (a9 : (⟨2, ![512, 512]⟩ : Shape).Idx → EReal) (a10 : (⟨1, ![512]⟩ : Shape).Idx → EReal)
    (a11 : (⟨2, ![512, 512]⟩ : Shape).Idx → EReal) (a12 : (⟨1, ![512]⟩ : Shape).Idx → EReal) : Mat :=
  block (fun n d => a0 (ix3 (0 : Fin 1) n d)) (fun k d => a1 (ix2 k d))
    (fun m d => a5 (ix2 m d)) (fun m d => a7 (ix2 m d)) (fun m d => a9 (ix2 m d)) (fun m d => a11 (ix2 m d))
    (fun m => a6 (ix1 m)) (fun m => a8 (ix1 m)) (fun m => a10 (ix1 m)) (fun m => a12 (ix1 m))
    (a2 ix0) (a3 ix0) (a4 ix0)

end Cert.Spec

end
-- ==== Proof.KI.Reg0Val.lean ====
/-
  What the first Tversky call's body leaves in its output block, named: the block is the Tversky ratio of the shared mass
  that four trips of 128 feature columns accumulate from the two projections kept in scratch.

  The body's one store into the output block is the ratio's arithmetic over the value its counted loop carries out. One
  trip of the loop reads the same 128 columns of both scratch buffers and adds the row-by-row sums of their pairwise
  minima to the carried value; by induction over the trips the carried value is the accumulated mass. Each scratch buffer
  reads back as the one projection stored over the whole of it, and each input is read where it lies, over the whole of
  its block.
-/
import proofs.«150770_j35493609734446_2_alg».proof.Proof.KI.Reg0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- One trip of the loop, from the carried value `acc`: the sums of pairwise minima over the trip's 128 columns of what the
    two scratch buffers read, added to `acc`. -/
theorem tripR0_eq (𝒱 : Variants) (c : Dev nD) (bd : Option 𝒱.V) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (X10 : BufTy.Contents (Elt F) arg10.view.ty) (X11 : BufTy.Contents (Elt F) arg11.view.ty) (k : Fin k0_t1_loop.trips) (acc : FVec F S128x128 .f32) :
    tripR_k0_t1 (F := F) 𝒱 c bd i arg2 harg2 arg3 harg3 arg4 harg4 arg5 harg5 arg6 harg6 arg7 harg7 arg8 harg8 arg9 harg9 arg10 harg10 arg11 harg11 X10 X11 k acc
      = k0_pay8 acc (View.ld (arg10.view.read (Elt F) X10) (tripRect0 k)) (View.ld (arg11.view.read (Elt F) X11) (tripRect0 k)) := by
  unfold tripR_k0_t1 trip_k0_t1
  dsimp only
  exact congrArg₂ (k0_pay8 acc) rfl rfl

/-- The value carried into trip `n`, from zero, is the mass accumulated over the first `n` slices. -/
theorem st0_eq (𝒱 : Variants) (c : Dev nD) (bd : Option 𝒱.V) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (X10 : BufTy.Contents (Elt F) arg10.view.ty) (X11 : BufTy.Contents (Elt F) arg11.view.ty) (n : ℕ) (hn : n ≤ k0_t1_loop.trips) :
    st_k0_t1 (F := F) 𝒱 c bd i arg2 harg2 arg3 harg3 arg4 harg4 arg5 harg5 arg6 harg6 arg7 harg7 arg8 harg8 arg9 harg9 arg10 harg10 arg11 harg11 X10 X11 k0_pay7 n
      = tvAcc0 (arg10.view.read (Elt F) X10) (arg11.view.read (Elt F) X11) n := by
  induction n with
  | zero => rfl
  | succ n ih =>
    have hlt : n < k0_t1_loop.trips := hn
    have h1 : st_k0_t1 (F := F) 𝒱 c bd i arg2 harg2 arg3 harg3 arg4 harg4 arg5 harg5 arg6 harg6 arg7 harg7 arg8 harg8 arg9 harg9 arg10 harg10 arg11 harg11 X10 X11 k0_pay7 (n + 1)
        = tripR_k0_t1 (F := F) 𝒱 c bd i arg2 harg2 arg3 harg3 arg4 harg4 arg5 harg5 arg6 harg6 arg7 harg7 arg8 harg8 arg9 harg9 arg10 harg10 arg11 harg11 X10 X11 ⟨n, hlt⟩
            (st_k0_t1 (F := F) 𝒱 c bd i arg2 harg2 arg3 harg3 arg4 harg4 arg5 harg5 arg6 harg6 arg7 harg7 arg8 harg8 arg9 harg9 arg10 harg10 arg11 harg11 X10 X11 k0_pay7 n) :=
      st_k0_t1_succ (F := F) 𝒱 c bd i arg2 harg2 arg3 harg3 arg4 harg4 arg5 harg5 arg6 harg6 arg7 harg7 arg8 harg8 arg9 harg9 arg10 harg10 arg11 harg11 X10 X11 k0_pay7 ⟨n, hlt⟩
    rw [h1, tripR0_eq, ih (Nat.le_of_lt hlt), tvAcc0.eq_2, dif_pos hlt]

/-- A whole staging memref holding `x`, loaded over its whole block, reads `x`. -/
theorem readWhole0 {S : Shape} {e : EltTy} (m : Memref sig .tc .vmem S e) (h : m.IsWhole) (x : Vec F S e)
    {off : Fin S.rank → ℕ} (hz : off = fun _ => 0) (inb : ∀ a, off a + S.size a ≤ S.size a) :
    View.readAt (Elt F) m.view (Rect.unit off S.size inb).toLoadRect (h.unread x) = x := by
  rw [View.readAt_eq_ld, h.read_unread, View.ld_unit_zero hz]

/-- A buffer stored over the whole of its block reads back as what was stored. -/
theorem readStored0 {S : Shape} {e : EltTy} (m : Memref sig .tc .vmem S e) (f : m.view.ty.Contents (Elt F)) (p : Vec F S e)
    {off : Fin S.rank → ℕ} (hz : off = fun _ => 0) (inb : ∀ a, off a + S.size a ≤ S.size a) :
    m.view.read (Elt F) (m.view.writes (Elt F) f [⟨Rect.unit off S.size inb, p⟩]) = p := by
  rw [View.read_writes_eq_canon _ _ _ (fun y => ⟨_, List.mem_singleton_self _, View.mem_set_unit_zero hz inb y⟩),
    View.canon_unit_zero hz]

set_option maxHeartbeats 1000000 in
/-- What the run leaves in the output block, on any staging memrefs holding `x0 … x6`: the named block. -/
theorem out0_A_7_eq (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (x0 : Vec F S128x512 .f32) (x1 : Vec F S128x512 .f32) (x2 : Vec F S512x512 .f32) (x3 : Vec F S1x128 .f32) (x4 : Vec F S1x1 .f32) (x5 : Vec F S1x1 .f32) (x6 : Vec F S1x1 .f32) :
    out0_A_7 c i arg2 harg2 arg3 harg3 arg4 harg4 arg5 harg5 arg6 harg6 arg7 harg7 arg8 harg8 arg9 harg9 arg10 harg10 arg11 harg11 x0 x1 x2 x3 x4 x5 x6 = tvOut0 x0 x1 x2 x3 x4 x5 x6 := by
  have hz : (![0, 0] : Fin 2 → ℕ) = fun _ => 0 := by funext a; fin_cases a <;> rfl
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  rw [View.canon_unit_zero hz]
  simp only [readWhole0 arg2 harg2 x0 hz, readWhole0 arg3 harg3 x1 hz, readWhole0 arg4 harg4 x2 hz, readWhole0 arg5 harg5 x3 hz,
    readWhole0 arg6 harg6 x4 hz, readWhole0 arg7 harg7 x5 hz, readWhole0 arg8 harg8 x6 hz]
  rw [st0_eq Variants.none c none i arg2 harg2 arg3 harg3 arg4 harg4 arg5 harg5 arg6 harg6 arg7 harg7 arg8 harg8 arg9 harg9 arg10 harg10 arg11 harg11 _ _ _ (Nat.le_refl _)]
  rw [readStored0 arg10 _ _ hz, readStored0 arg11 _ _ hz]
  rfl

variable (V : (c : Dev nD) → (b : Ref sig .tc) → Buf (Elt F) ((c : Thread nD τ).loc b))

/-- What the output window's staging buffer holds after the body at point `t` is the named block of the seven input
    blocks at `t`. -/
theorem outsAt0_eq (c : Dev nD) (t : Fin cfg0.N) :
    outsAt0 V c t = tvOut0 (iblk0 V c 0 t) (iblk0 V c 1 t) (iblk0 V c 2 t) (iblk0 V c 3 t) (iblk0 V c 4 t) (iblk0 V c 5 t) (iblk0 V c 6 t) := by
  unfold outsAt0
  exact out0_A_7_eq c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t)

end Cert.KernelIdeal.Hand

end
-- ==== Proof.KI.Reg2Val.lean ====
/-
  What the second Tversky call's body leaves in its output block, named: the block is the Tversky ratio of the shared mass
  that four trips of 128 feature columns accumulate from the two projections kept in scratch.

  The body's one store into the output block is the ratio's arithmetic over the value its counted loop carries out. One
  trip of the loop reads the same 128 columns of both scratch buffers and adds the row-by-row sums of their pairwise
  minima to the carried value; by induction over the trips the carried value is the accumulated mass. Each scratch buffer
  reads back as the one projection stored over the whole of it, and each input is read where it lies, over the whole of
  its block.
-/
import proofs.«150770_j35493609734446_2_alg».proof.Proof.KI.Reg2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- One trip of the loop, from the carried value `acc`: the sums of pairwise minima over the trip's 128 columns of what the
    two scratch buffers read, added to `acc`. -/
theorem tripR2_eq (𝒱 : Variants) (c : Dev nD) (bd : Option 𝒱.V) (i : grid2.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (X10 : BufTy.Contents (Elt F) arg10.view.ty) (X11 : BufTy.Contents (Elt F) arg11.view.ty) (k : Fin k2_t1_loop.trips) (acc : FVec F S128x128 .f32) :
    tripR_k2_t1 (F := F) 𝒱 c bd i arg2 harg2 arg3 harg3 arg4 harg4 arg5 harg5 arg6 harg6 arg7 harg7 arg8 harg8 arg9 harg9 arg10 harg10 arg11 harg11 X10 X11 k acc
      = k2_pay8 acc (View.ld (arg10.view.read (Elt F) X10) (tripRect2 k)) (View.ld (arg11.view.read (Elt F) X11) (tripRect2 k)) := by
  unfold tripR_k2_t1 trip_k2_t1
  dsimp only
  exact congrArg₂ (k2_pay8 acc) rfl rfl

/-- The value carried into trip `n`, from zero, is the mass accumulated over the first `n` slices. -/
theorem st2_eq (𝒱 : Variants) (c : Dev nD) (bd : Option 𝒱.V) (i : grid2.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (X10 : BufTy.Contents (Elt F) arg10.view.ty) (X11 : BufTy.Contents (Elt F) arg11.view.ty) (n : ℕ) (hn : n ≤ k2_t1_loop.trips) :
    st_k2_t1 (F := F) 𝒱 c bd i arg2 harg2 arg3 harg3 arg4 harg4 arg5 harg5 arg6 harg6 arg7 harg7 arg8 harg8 arg9 harg9 arg10 harg10 arg11 harg11 X10 X11 k2_pay7 n
      = tvAcc2 (arg10.view.read (Elt F) X10) (arg11.view.read (Elt F) X11) n := by
  induction n with
  | zero => rfl
  | succ n ih =>
    have hlt : n < k2_t1_loop.trips := hn
    have h1 : st_k2_t1 (F := F) 𝒱 c bd i arg2 harg2 arg3 harg3 arg4 harg4 arg5 harg5 arg6 harg6 arg7 harg7 arg8 harg8 arg9 harg9 arg10 harg10 arg11 harg11 X10 X11 k2_pay7 (n + 1)
        = tripR_k2_t1 (F := F) 𝒱 c bd i arg2 harg2 arg3 harg3 arg4 harg4 arg5 harg5 arg6 harg6 arg7 harg7 arg8 harg8 arg9 harg9 arg10 harg10 arg11 harg11 X10 X11 ⟨n, hlt⟩
            (st_k2_t1 (F := F) 𝒱 c bd i arg2 harg2 arg3 harg3 arg4 harg4 arg5 harg5 arg6 harg6 arg7 harg7 arg8 harg8 arg9 harg9 arg10 harg10 arg11 harg11 X10 X11 k2_pay7 n) :=
      st_k2_t1_succ (F := F) 𝒱 c bd i arg2 harg2 arg3 harg3 arg4 harg4 arg5 harg5 arg6 harg6 arg7 harg7 arg8 harg8 arg9 harg9 arg10 harg10 arg11 harg11 X10 X11 k2_pay7 ⟨n, hlt⟩
    rw [h1, tripR2_eq, ih (Nat.le_of_lt hlt), tvAcc2.eq_2, dif_pos hlt]

/-- A whole staging memref holding `x`, loaded over its whole block, reads `x`. -/
theorem readWhole2 {S : Shape} {e : EltTy} (m : Memref sig .tc .vmem S e) (h : m.IsWhole) (x : Vec F S e)
    {off : Fin S.rank → ℕ} (hz : off = fun _ => 0) (inb : ∀ a, off a + S.size a ≤ S.size a) :
    View.readAt (Elt F) m.view (Rect.unit off S.size inb).toLoadRect (h.unread x) = x := by
  rw [View.readAt_eq_ld, h.read_unread, View.ld_unit_zero hz]

/-- A buffer stored over the whole of its block reads back as what was stored. -/
theorem readStored2 {S : Shape} {e : EltTy} (m : Memref sig .tc .vmem S e) (f : m.view.ty.Contents (Elt F)) (p : Vec F S e)
    {off : Fin S.rank → ℕ} (hz : off = fun _ => 0) (inb : ∀ a, off a + S.size a ≤ S.size a) :
    m.view.read (Elt F) (m.view.writes (Elt F) f [⟨Rect.unit off S.size inb, p⟩]) = p := by
  rw [View.read_writes_eq_canon _ _ _ (fun y => ⟨_, List.mem_singleton_self _, View.mem_set_unit_zero hz inb y⟩),
    View.canon_unit_zero hz]

set_option maxHeartbeats 1000000 in
/-- What the run leaves in the output block, on any staging memrefs holding `x0 … x6`: the named block. -/
theorem out2_A_7_eq (c : Dev nD) (i : grid2.Coords) (arg2 : Memref sig .tc .vmem S128x512 .f32) (harg2 : arg2.IsWhole) (arg3 : Memref sig .tc .vmem S128x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S128x128 .f32) (harg9 : arg9.IsWhole) (arg10 : Memref sig .tc .vmem S128x512 .bf16) (harg10 : arg10.IsWhole) (arg11 : Memref sig .tc .vmem S128x512 .bf16) (harg11 : arg11.IsWhole)
    (x0 : Vec F S128x512 .f32) (x1 : Vec F S128x512 .f32) (x2 : Vec F S512x512 .f32) (x3 : Vec F S1x128 .f32) (x4 : Vec F S1x1 .f32) (x5 : Vec F S1x1 .f32) (x6 : Vec F S1x1 .f32) :
    out2_A_7 c i arg2 harg2 arg3 harg3 arg4 harg4 arg5 harg5 arg6 harg6 arg7 harg7 arg8 harg8 arg9 harg9 arg10 harg10 arg11 harg11 x0 x1 x2 x3 x4 x5 x6 = tvOut2 x0 x1 x2 x3 x4 x5 x6 := by
  have hz : (![0, 0] : Fin 2 → ℕ) = fun _ => 0 := by funext a; fin_cases a <;> rfl
  unfold out2_A_7
  rw [View.read_writes_eq_canon _ _ _ (cover2_A_7 c i arg2 harg2 arg3 harg3 arg4 harg4 arg5 harg5 arg6 harg6 arg7 harg7 arg8 harg8 arg9 harg9 arg10 harg10 arg11 harg11 x0 x1 x2 x3 x4 x5 x6)]
  unfold kernelRun2_A
  dsimp only
  sl_unfold_words
  rw [View.canon_unit_zero hz]
  simp only [readWhole2 arg2 harg2 x0 hz, readWhole2 arg3 harg3 x1 hz, readWhole2 arg4 harg4 x2 hz, readWhole2 arg5 harg5 x3 hz,
    readWhole2 arg6 harg6 x4 hz, readWhole2 arg7 harg7 x5 hz, readWhole2 arg8 harg8 x6 hz]
  rw [st2_eq Variants.none c none i arg2 harg2 arg3 harg3 arg4 harg4 arg5 harg5 arg6 harg6 arg7 harg7 arg8 harg8 arg9 harg9 arg10 harg10 arg11 harg11 _ _ _ (Nat.le_refl _)]
  rw [readStored2 arg10 _ _ hz, readStored2 arg11 _ _ hz]
  rfl

variable (V : (c : Dev nD) → (b : Ref sig .tc) → Buf (Elt F) ((c : Thread nD τ).loc b))

/-- What the output window's staging buffer holds after the body at point `t` is the named block of the seven input
    blocks at `t`. -/
theorem outsAt2_eq (c : Dev nD) (t : Fin cfg2.N) :
    outsAt2 V c t = tvOut2 (iblk2 V c 0 t) (iblk2 V c 1 t) (iblk2 V c 2 t) (iblk2 V c 3 t) (iblk2 V c 4 t) (iblk2 V c 5 t) (iblk2 V c 6 t) := by
  unfold outsAt2
  exact out2_A_7_eq c (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t)

end Cert.KernelIdeal.Hand

end
-- ==== Proof.LibTileSums.lean ====
/-
  Sums over a tiled axis and over a rank-3 index set, in any additive commutative monoid; no program is mentioned.

  * A sum over an axis of length A · B is the double sum over the A tiles and the B positions inside a tile
    (`sum_tiles`): position j of tile k is the column k · B + j.
  * A sum over the K · L − 1 consecutive steps (t, t + 1) of an axis cut into K tiles of length L is the sum of the
    steps inside the K tiles plus the K − 1 steps that straddle two tiles (`sum_consecutive_split_gen`, stated with
    K + 1 tiles of length L = L' + 1 so that no subtraction appears).
  * A sum over a rank-3 index set is the triple sum over the coordinates (`sum_idx3`).
  Only commutativity and associativity of addition are used.
-/
import Idealize.ShloMosaic.Lib.ValueIdx

noncomputable section

open scoped BigOperators

namespace Cert.LibTileSums

open Idealize.ShloMosaic Idealize.ShloMosaic.ValueIdx

variable {M : Type*} [AddCommMonoid M]

/-! ## A tiled axis -/

/-- Column `j` of tile `k`, of `A` tiles of length `B`, is a column of the whole axis. -/
theorem tile_lt {A B : ℕ} (k : Fin A) (j : Fin B) : k.val * B + j.val < A * B :=
  calc k.val * B + j.val < k.val * B + B := Nat.add_lt_add_left j.isLt _
    _ = (k.val + 1) * B := (Nat.succ_mul _ _).symm
    _ ≤ A * B := Nat.mul_le_mul_right B k.isLt

/-- A sum over an axis of length `A * B` is the sum over the `A` tiles of the sums over each tile's `B` columns. -/
theorem sum_tiles (A B : ℕ) (f : Fin (A * B) → M) :
    ∑ t : Fin (A * B), f t = ∑ k : Fin A, ∑ j : Fin B, f ⟨k.val * B + j.val, tile_lt k j⟩ := by
  rw [← Equiv.sum_comp (finProdFinEquiv (m := A) (n := B)) f, Fintype.sum_prod_type]
  refine Finset.sum_congr rfl fun k _ => Finset.sum_congr rfl fun j _ => congrArg f (Fin.ext ?_)
  show j.val + B * k.val = k.val * B + j.val
  rw [Nat.mul_comm, Nat.add_comm]

/-- The consecutive pairs `(t, t + 1)` of an axis cut into `K + 1` tiles of length `L = L' + 1`: the pair starting at
    `t = k * L + j` lies inside tile `k` when `j < L'`, and straddles tiles `k` and `k + 1` when `j = L'`. So a sum
    over all `K * L + L'` pairs is the sum of the inside ones, tile by tile, plus the `K` straddling ones. By induction
    on the number of tiles: one more tile adds one straddling pair and then `L'` inside ones. -/
theorem sum_consecutive_split_gen (f : ℕ → M) (L L' : ℕ) (hL : L = L' + 1) (K : ℕ) :
    ∑ t ∈ Finset.range (K * L + L'), f t
      = (∑ k ∈ Finset.range (K + 1), ∑ j ∈ Finset.range L', f (k * L + j)) + ∑ k ∈ Finset.range K, f (k * L + L') := by
  induction K with
  | zero =>
    rw [Nat.zero_mul, Nat.zero_add, Finset.sum_range_one, Finset.range_zero, Finset.sum_empty, add_zero]
    exact Finset.sum_congr rfl fun j _ => by rw [Nat.zero_mul, Nat.zero_add]
  | succ K ih =>
    have h1 : (K + 1) * L + L' = (K * L + L') + (L' + 1) := by rw [Nat.succ_mul, hL]; omega
    have h2 : ∑ x ∈ Finset.range (L' + 1), f (K * L + L' + x)
        = (∑ j ∈ Finset.range L', f ((K + 1) * L + j)) + f (K * L + L') := by
      rw [Finset.sum_range_succ', Nat.add_zero]
      refine congrArg (· + _) (Finset.sum_congr rfl fun j _ => congrArg f ?_)
      rw [Nat.succ_mul, hL]; omega
    rw [h1, Finset.sum_range_add, ih, h2,
      Finset.sum_range_succ (fun k => ∑ j ∈ Finset.range L', f (k * L + j)) (K + 1),
      Finset.sum_range_succ (fun k => f (k * L + L')) K, add_add_add_comm]

/-! ## A rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibTileSums

end
-- ==== Proof.Val.TvSum.lean ====
/-
  The shared mass of two projected rows is a sum over the 512 feature columns. One arrangement adds the columns in
  one sweep; the other walks four consecutive chunks of 128 columns and adds each chunk's subtotal to a running
  value. Both are the same element of any additive commutative monoid: only regrouping of a finite sum is used, so
  the law holds on the extended reals with no finiteness assumption.
-/
import proofs.«150770_j35493609734446_2_alg».proof.Proof.LibTileSums

open scoped BigOperators

namespace Cert.Spec

variable {M : Type*} [AddCommMonoid M]

/-- Column `d` of chunk `k` (four chunks of 128 columns) is one of the 512 columns. -/
theorem chunk_lt (k : Fin 4) (d : Fin 128) : 128 * k.val + d.val < 512 := by
  have := k.isLt; have := d.isLt; omega

/-- Column `d` of chunk `k`. -/
def chunkCol (k : Fin 4) (d : Fin 128) : Fin 512 := ⟨128 * k.val + d.val, chunk_lt k d⟩

/-- A sum over the 512 columns is the sum over the four chunks of each chunk's 128 columns. -/
theorem sum512_chunks (g : Fin 512 → M) :
    ∑ d : Fin 512, g d = ∑ k : Fin 4, ∑ d : Fin 128, g (chunkCol k d) :=
  (Cert.LibTileSums.sum_tiles 4 128 g).trans
    (Finset.sum_congr rfl fun k _ => Finset.sum_congr rfl fun d _ =>
      congrArg g (Fin.ext (show k.val * 128 + d.val = 128 * k.val + d.val by rw [Nat.mul_comm])))

/-- The same with the four chunks written out as a running value that starts at zero and takes one chunk's
    subtotal at a time. -/
theorem sum512_running (g : Fin 512 → M) :
    ∑ d : Fin 512, g d
      = ((((0 + ∑ d : Fin 128, g (chunkCol 0 d)) + ∑ d : Fin 128, g (chunkCol 1 d))
          + ∑ d : Fin 128, g (chunkCol 2 d)) + ∑ d : Fin 128, g (chunkCol 3 d)) := by
  rw [sum512_chunks, Fin.sum_univ_four, zero_add]

end Cert.Spec
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.LibLayoutMid.lean ====
/-
  Three more layout operations on small arrays, read at an index.

  Casting `[A, B]` to `[A, 1, B]` inserts a unit axis in the middle: entry `(a, u, b)` is entry `(a, b)`, both at
  row-major position `a * B + b`. Broadcasting `[A, 1, C]` to `[A, B, C]` copies entry `(a, u, c)` along the middle
  axis. Casting `[1, 1, 1]` to `[1, 1]` keeps the one entry.
-/
import Idealize.ShloMosaic.Lib.Pipeline.Value
import Idealize.ShloMosaic.Lib.ValueIdx

namespace Cert.LayoutMid

open Idealize.ShloMosaic Idealize.ShloMosaic.ValueIdx

variable {α : Type}

/-- `[A, B]` cast to `[A, 1, B]`: at `(a, u, b)`, the operand at `(a, b)`, whatever the unit coordinate `u`. -/
theorem shapeCast_ab_a1b_apply {A B : ℕ} (x : (⟨2, ![A, B]⟩ : Shape).Idx → α)
    (h : (⟨2, ![A, B]⟩ : Shape).ShapeCasts ⟨3, ![A, 1, B]⟩) (a : Fin A) (u : Fin 1) (b : Fin B) :
    shapeCast ⟨3, ![A, 1, B]⟩ x h (ix3 a u b) = x (ix2 a b) :=
  shapeCast_apply x h _ _ (by
    have hu : u.val = 0 := by omega
    rw [Shape.rowMajor_val_two, Shape.rowMajor_val_three]
    show a.val * B + b.val = (a.val * 1 + u.val) * B + b.val
    rw [hu, Nat.mul_one, Nat.add_zero])

/-- `[A, 1, C]` broadcast to `[A, B, C]`: at `(a, b, c)`, the operand at `(a, u, c)`. -/
theorem broadcastTo_a1c_abc_apply {A B C : ℕ} (v : (⟨3, ![A, 1, C]⟩ : Shape).Idx → α)
    (h : (⟨3, ![A, 1, C]⟩ : Shape).Broadcasts ⟨3, ![A, B, C]⟩) (a : Fin A) (b : Fin B) (c : Fin C) (u : Fin 1) :
    broadcastTo ⟨3, ![A, B, C]⟩ v h (ix3 a b c) = v (ix3 a u c) := by
  refine broadcastTo_apply v h (ix3 a b c) (ix3 a u c) fun ax => ?_
  match ax with
  | ⟨0, _⟩ =>
    show a.val = if A = 1 then 0 else a.val
    split
    · have := a.isLt; omega
    · rfl
  | ⟨1, _⟩ =>
    show u.val = if (1 : ℕ) = 1 then 0 else b.val
    rw [if_pos rfl]; omega
  | ⟨2, _⟩ =>
    show c.val = if C = 1 then 0 else c.val
    split
    · have := c.isLt; omega
    · rfl

/-- `[1, 1, 1]` cast to `[1, 1]`: the one entry. -/
theorem shapeCast_111_11_apply (x : (⟨3, ![1, 1, 1]⟩ : Shape).Idx → α)
    (h : (⟨3, ![1, 1, 1]⟩ : Shape).ShapeCasts ⟨2, ![1, 1]⟩) (a b : Fin 1) (a' b' c' : Fin 1) :
    shapeCast ⟨2, ![1, 1]⟩ x h (ix2 a b) = x (ix3 a' b' c') :=
  shapeCast_apply x h _ _ (by
    rw [Shape.rowMajor_val_three, Shape.rowMajor_val_two]
    show (a'.val * 1 + b'.val) * 1 + c'.val = a.val * 1 + b.val
    omega)

end Cert.LayoutMid
-- ==== Proof.LibLayoutUnit.lean ====
/-
  Unit axes put in front of a vector or a matrix and copied along, read at an index.

  Casting `[C]` to `[1, 1, C]` puts two unit axes in front: entry `(0, 0, c)` is entry `c`, both having row-major
  position `c`. Broadcasting `[1, 1, C]` to `[A, B, C]` copies entry `(0, 0, c)` to every `(a, b, c)`, and broadcasting
  `[1, B, C]` to `[A, B, C]` copies entry `(0, b, c)` to every `(a, b, c)`.
-/
import Idealize.ShloMosaic.Lib.Pipeline.Value
import Idealize.ShloMosaic.Lib.ValueIdx

namespace Cert.LayoutUnit

open Idealize.ShloMosaic Idealize.ShloMosaic.ValueIdx

variable {α : Type}

/-- `[C]` cast to `[1, 1, C]`: at `(u, v, c)`, the operand at `c`, whatever the unit coordinates `u` and `v`. -/
theorem shapeCast_c_11c_apply {C : ℕ} (x : (⟨1, ![C]⟩ : Shape).Idx → α)
    (h : (⟨1, ![C]⟩ : Shape).ShapeCasts ⟨3, ![1, 1, C]⟩) (u v : Fin 1) (c : Fin C) :
    shapeCast ⟨3, ![1, 1, C]⟩ x h (ix3 u v c) = x (ix1 c) :=
  shapeCast_apply x h _ _ (by
    have hu : u.val = 0 := by omega
    have hv : v.val = 0 := by omega
    rw [Shape.rowMajor_val_one, Shape.rowMajor_val_three]
    show c.val = (u.val * 1 + v.val) * C + c.val
    rw [hu, hv]
    simp)

/-- `[1, 1, C]` broadcast to `[A, B, C]`: at `(a, b, c)`, the operand at `(0, 0, c)`. -/
theorem broadcastTo_11c_abc_apply {A B C : ℕ} (v : (⟨3, ![1, 1, C]⟩ : Shape).Idx → α)
    (h : (⟨3, ![1, 1, C]⟩ : Shape).Broadcasts ⟨3, ![A, B, C]⟩) (a : Fin A) (b : Fin B) (c : Fin C) :
    broadcastTo ⟨3, ![A, B, C]⟩ v h (ix3 a b c) = v (ix3 (0 : Fin 1) (0 : Fin 1) c) := by
  refine broadcastTo_apply v h (ix3 a b c) (ix3 (0 : Fin 1) (0 : Fin 1) c) fun ax => ?_
  match ax with
  | ⟨0, _⟩ => rfl
  | ⟨1, _⟩ => rfl
  | ⟨2, _⟩ =>
    show c.val = if C = 1 then 0 else c.val
    split
    · have := c.isLt; omega
    · rfl

/-- `[1, B, C]` broadcast to `[A, B, C]`: at `(a, b, c)`, the operand at `(0, b, c)`. -/
theorem broadcastTo_1bc_abc_apply {A B C : ℕ} (v : (⟨3, ![1, B, C]⟩ : Shape).Idx → α)
    (h : (⟨3, ![1, B, C]⟩ : Shape).Broadcasts ⟨3, ![A, B, C]⟩) (a : Fin A) (b : Fin B) (c : Fin C) :
    broadcastTo ⟨3, ![A, B, C]⟩ v h (ix3 a b c) = v (ix3 (0 : Fin 1) b c) := by
  refine broadcastTo_apply v h (ix3 a b c) (ix3 (0 : Fin 1) b c) fun ax => ?_
  match ax with
  | ⟨0, _⟩ => rfl
  | ⟨1, _⟩ =>
    show b.val = if B = 1 then 0 else b.val
    split
    · have := b.isLt; omega
    · rfl
  | ⟨2, _⟩ =>
    show c.val = if C = 1 then 0 else c.val
    split
    · have := c.isLt; omega
    · rfl

end Cert.LayoutUnit
-- ==== Proof.LibRowReduce.lean ====
/-
  Reductions of a matrix of extended reals along its rows.  For `x` of shape [A, B], a reduction over axis 1 read at
  row `a` runs over the row's entries `x (a, b)`, `b < B`: a maximum started from minus infinity is the supremum of
  the row, a sum started from zero is the row's sum; the host's reductions start from a scalar initial value instead,
  and give the maximum of that value and the row's supremum, and that value plus the row's sum.  The order in which
  the entries are folded does not matter, since `max` and `+` on the extended reals commute and associate.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.LibRowReduce

open Idealize.ShloMosaic Idealize.ShloMosaic.ValueIdx

/-- The index of the matrix over row `a` of the reduced vector, with column `b` inserted on the reduced axis,
    is `(a, b)`. -/
theorem lift_ix1 {A B : Nat} (h : (⟨2, ![A, B]⟩ : Shape).Reduces [1] ⟨1, ![A]⟩) (a : Fin A) (b : Fin B) :
    h.lift (ix1 a) b = ix2 a b := by
  funext c
  match c with
  | ⟨0, _⟩ => rfl
  | ⟨1, _⟩ => rfl

/-- A fold of `max` from `c` over finitely many extended reals is the maximum of `c` and their supremum. -/
theorem fold_max_eq_max_sup {ι : Type*} (s : Finset ι) (f : ι → EReal) (c : EReal) :
    s.fold max c f = max c (s.sup f) := by
  classical
  induction s using Finset.induction_on with
  | empty => rw [Finset.fold_empty, Finset.sup_empty, max_bot_right]
  | insert i s hi ih => rw [Finset.fold_insert hi, ih, Finset.sup_insert]; exact max_left_comm _ _ _

/-- The single-precision word of minus infinity denotes the bottom of the extended reals. -/
theorem ofBits_neg_inf_f32 : Ideal.ofBits .f32 0xFF800000#32 = ⊥ := by
  simp [Ideal.ofBits, Ideal.ieee]

/-- A host's reduction fact into a vector is also a kernel's (the vector has an axis). -/
theorem reduces_of_reducesTo {A B : Nat} (h' : (⟨2, ![A, B]⟩ : Shape).ReducesTo [1] ⟨1, ![A]⟩) :
    (⟨2, ![A, B]⟩ : Shape).Reduces [1] ⟨1, ![A]⟩ := by
  obtain ⟨h1, h2⟩ := h'
  exact ⟨h1, Nat.one_pos, h2⟩

/-- (1) The kernel's row maximum: a `maximumf` reduction along axis 1 from minus infinity, read at row `a`, is the
    supremum of that row. -/
theorem multiReduction_maximumf_row {A B : Nat} (x : FVec Ideal ⟨2, ![A, B]⟩ .f32)
    (h : (⟨2, ![A, B]⟩ : Shape).Reduces [1] ⟨1, ![A]⟩) (hφ : FKind.Formats .f32)
    (hacc : (0xFF800000#32 : BitVec 32) = 0xFF800000#32) (a : Fin A) :
    multiReduction .maximumf [1] ⟨1, ![A]⟩ x 0xFF800000#32 h hφ hacc (ix1 a)
      = Finset.univ.sup fun b : Fin B => x (ix2 a b) := by
  refine (Ideal.multiReduction_maximumf_single x _ h hφ hacc (ix1 a)).trans ?_
  refine (fold_max_eq_max_sup _ _ _).trans ?_
  rw [show FloatOps.ofBits (F := Ideal) .f32 0xFF800000#32 = (⊥ : EReal) from ofBits_neg_inf_f32, max_bot_left]
  exact congrArg (Finset.univ.sup) (funext fun b : Fin B => congrArg x (lift_ix1 h a b))

/-- (2) The kernel's row sum: an `add` reduction along axis 1, read at row `a`, is the sum of that row. -/
theorem multiReduction_add_row {A B : Nat} (x : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ x 0x00000000#32 h hφ hacc (ix1 a) = ∑ b : Fin B, x (ix2 a b) := by
  refine (Ideal.multiReduction_add_single x _ h hφ hacc (ix1 a)).trans ?_
  exact Finset.sum_congr rfl fun b _ => congrArg x (lift_ix1 h a b)

/-- (3) The host's row maximum: a one-operand reduction by `maximumf` along axis 1 from the scalar `v`, read at row
    `a`, is the maximum of `v` and the supremum of that row. -/
theorem hostReduce_maximumf_row {A B : Nat} (x : (⟨2, ![A, B]⟩ : Shape).Idx → EReal)
    (v : (⟨0, ![]⟩ : Shape).Idx → EReal) (h' : (⟨2, ![A, B]⟩ : Shape).ReducesTo [1] ⟨1, ![A]⟩)
    (hu : 0 < (⟨0, ![]⟩ : Shape).numel) (a : Fin A) :
    Host.reduce (FloatOps.maximumf (F := Ideal) (φ := .f32)) x v h' hu (ix1 a)
      = max (v ix0) (Finset.univ.sup fun b : Fin B => x (ix2 a b)) := by
  have h := reduces_of_reducesTo h'
  refine (Host.reduce_eq_fold_single (FloatOps.maximumf (F := Ideal) (φ := .f32)) x v h' h hu (ix1 a)).trans ?_
  refine (fold_max_eq_max_sup _ _ _).trans ?_
  rw [eq_ix0 (Shape.Idx.first hu)]
  exact congrArg (fun f => max (v ix0) (Finset.univ.sup f)) (funext fun b : Fin B => congrArg x (lift_ix1 h a b))

/-- (4) The host's row sum: a one-operand reduction by addition along axis 1 from the scalar `v`, read at row `a`,
    is `v` plus the sum of that row. -/
theorem hostReduceAdd_row {A B : Nat} (x : FVec Ideal ⟨2, ![A, B]⟩ .f32)
    (v : (⟨0, ![]⟩ : Shape).Idx → EReal) (h' : (⟨2, ![A, B]⟩ : Shape).ReducesTo [1] ⟨1, ![A]⟩)
    (hu : 0 < (⟨0, ![]⟩ : Shape).numel) (a : Fin A) :
    Host.reduceAdd (F := Ideal) (φ := .f32) x v h' hu (ix1 a) = v ix0 + ∑ b : Fin B, x (ix2 a b) := by
  have h := reduces_of_reducesTo h'
  refine (Ideal.hostReduceAdd_single h' h x (v (Shape.Idx.first hu)) (ix1 a)).trans ?_
  rw [eq_ix0 (Shape.Idx.first hu)]
  exact congrArg (fun r => v ix0 + r) (Finset.sum_congr rfl fun b _ => congrArg x (lift_ix1 h a b))

end Cert.LibRowReduce

end
-- ==== Proof.Val.TvBlock.lean ====
/-
  What a Tversky body leaves in its output block, entry by entry, at the ideal values.

  The body is handed 128 rows, 128 prototypes, the 512 × 512 feature matrix, 128 biases and three scalars. Entry
  (p, q) of its result is the Tversky ratio of row p against prototype q plus the bias of q: both are sent through
  the features and clipped at zero; their shared mass is the sum over the 512 feature columns of the smaller of
  the two projected entries, gathered in four trips of 128 columns; each one's own mass is its row sum less the
  shared mass. Every step below reads one operation of the body at one entry; the four trips' subtotals are put
  back into one sum over the 512 columns by regrouping a finite sum.
-/
import proofs.«150770_j35493609734446_2_alg».proof.Proof.KI.Outs
import proofs.«150770_j35493609734446_2_alg».proof.Proof.Spec
import proofs.«150770_j35493609734446_2_alg».proof.Proof.Val.TvSum
import proofs.«150770_j35493609734446_2_alg».proof.Proof.LibKeepdims
import proofs.«150770_j35493609734446_2_alg».proof.Proof.LibMatmul
import proofs.«150770_j35493609734446_2_alg».proof.Proof.LibLayoutMid
import proofs.«150770_j35493609734446_2_alg».proof.Proof.LibLayoutUnit
import proofs.«150770_j35493609734446_2_alg».proof.Proof.LibRowReduce
import Idealize.ShloMosaic.Lib.ValueLayout

noncomputable section

open scoped BigOperators

namespace Cert.KernelIdeal.Hand

open Idealize.ShloMosaic Idealize.ShloMosaic.ValueIdx Idealize.SL.Sem Cert.KernelIdeal Cert.KernelIdeal.Gen

/-! ## Small readings shared by the steps -/

/-- The loop makes four trips. -/
theorem trips0 : k0_t1_loop.trips = 4 := by decide

/-- The one entry of a 1 × 1 block. -/
theorem extractAt_unit0 (x : Vec Ideal S1x1 .f32) (h : ∀ a, (![0, 0] : Fin 2 → Nat) a < S1x1.size a) :
    extractAt ![0, 0] x h = x (ix2 (0 : Fin 1) (0 : Fin 1)) := by
  refine congrArg x (funext fun a => ?_)
  match a with
  | ⟨0, _⟩ => rfl
  | ⟨1, _⟩ => rfl

/-- Above entry `(p, q)` of a reduced 128 × 128 array, position `d` of the reduced last axis is `(p, q, d)`. -/
theorem lift_last0 (h : S128x128x128.Reduces [2] S128x128) (p q d : Fin 128) :
    h.lift (ix2 p q) d = ix3 p q d := by
  funext c
  match c with
  | ⟨0, _⟩ => rfl
  | ⟨1, _⟩ => rfl
  | ⟨2, _⟩ => rfl

/-! ## The two projections: rows, and prototypes, through the features, clipped at zero -/

theorem pay3_0_apply (x0 : Vec Ideal S128x512 .f32) (x2 : Vec Ideal S512x512 .f32) (p : Fin 128) (d : Fin 512) :
    k0_pay3 (F := Ideal) x0 x2 (ix2 p d)
      = Cert.Spec.proj (fun (p : Fin 128) k => x0 (ix2 p k)) (fun k d => x2 (ix2 k d)) p d := by
  have hc : shapeCast S128x512 x0 shapeCasts_S128x512_S128x512 = x0 := shapeCast_self _ _
  unfold k0_pay3 k0_pay2
  try dsimp only
  rw [hc]
  show max (matmul (F := Ideal) (DotDims.plain 128 512 512) none _ _ (constant ⟨2, ![128, 512]⟩ .f32 0x00000000#32) (ix2 p d))
      (Ideal.ofBits .f32 0x00000000#32) = _
  rw [Cert.MatOps.matmul_plain_zero_apply, Ideal.ofBits_zero_f32]
  rfl

theorem pay4_0_apply (x1 : Vec Ideal S128x512 .f32) (x2 : Vec Ideal S512x512 .f32) (q : Fin 128) (d : Fin 512) :
    k0_pay4 (F := Ideal) x1 x2 (ix2 q d)
      = Cert.Spec.proj (fun (q : Fin 128) k => x1 (ix2 q k)) (fun k d => x2 (ix2 k d)) q d := by
  have hc : shapeCast S128x512 x1 shapeCasts_S128x512_S128x512 = x1 := shapeCast_self _ _
  unfold k0_pay4 k0_pay2
  try dsimp only
  rw [hc]
  show max (matmul (F := Ideal) (DotDims.plain 128 512 512) none _ _ (constant ⟨2, ![128, 512]⟩ .f32 0x00000000#32) (ix2 q d))
      (Ideal.ofBits .f32 0x00000000#32) = _
  rw [Cert.MatOps.matmul_plain_zero_apply, Ideal.ofBits_zero_f32]
  rfl

/-- What is kept in scratch of the rows' projection is the projection (a change of format is the identity). -/
theorem pay5_0_apply (x0 : Vec Ideal S128x512 .f32) (x2 : Vec Ideal S512x512 .f32) (p : Fin 128) (d : Fin 512) :
    k0_pay5 (F := Ideal) x0 x2 (ix2 p d)
      = Cert.Spec.proj (fun (p : Fin 128) k => x0 (ix2 p k)) (fun k d => x2 (ix2 k d)) p d := by
  unfold k0_pay5
  try dsimp only
  rw [shapeCast_self]
  exact pay3_0_apply x0 x2 p d

theorem pay6_0_apply (x1 : Vec Ideal S128x512 .f32) (x2 : Vec Ideal S512x512 .f32) (q : Fin 128) (d : Fin 512) :
    k0_pay6 (F := Ideal) x1 x2 (ix2 q d)
      = Cert.Spec.proj (fun (q : Fin 128) k => x1 (ix2 q k)) (fun k d => x2 (ix2 k d)) q d := by
  unfold k0_pay6
  try dsimp only
  rw [shapeCast_self]
  exact pay4_0_apply x1 x2 q d

/-! ## One trip: the carried value plus the minima over the trip's 128 columns -/

theorem pay8_0_apply (acc : FVec Ideal S128x128 .f32) (a b : Vec Ideal S128x128 .bf16) (p q : Fin 128) :
    k0_pay8 (F := Ideal) acc a b (ix2 p q) = acc (ix2 p q) + ∑ d : Fin 128, min (a (ix2 p d)) (b (ix2 q d)) := by
  unfold k0_pay8
  try dsimp only
  rw [addf_apply]
  refine congrArg (fun t => acc (ix2 p q) + t) ?_
  refine (Ideal.multiReduction_add_single _ 0x00000000#32 reduces_S128x128x128_S128x128 (.inl rfl) rfl (ix2 p q)).trans ?_
  refine Finset.sum_congr rfl fun (d : Fin 128) _ => ?_
  have hl : reduces_S128x128x128_S128x128.lift (ix2 p q) d = ix3 p q d := lift_last0 _ p q d
  rw [hl, extf_apply, minimumf_apply,
    Cert.LayoutMid.broadcastTo_a1c_abc_apply _ _ p q d (0 : Fin 1), Cert.LayoutMid.shapeCast_ab_a1b_apply,
    Cert.LayoutUnit.broadcastTo_1bc_abc_apply, shapeCast_ab_1ab_apply]

/-- Trip `k` reads columns `128 k … 128 k + 127` of a scratch buffer. -/
theorem ld_trip0 (A : Vec Ideal S128x512 .bf16) (k : Fin k0_t1_loop.trips) (p d : Fin 128) (c : Fin 512)
    (hc : c.val = 128 * k.val + d.val) :
    View.ld (Val := Elt Ideal) A (tripRect0 k) (ix2 p d) = A (ix2 p c) := by
  show A ((tripRect0 k).idx (ix2 p d)) = A (ix2 p c)
  refine congrArg A (funext fun a => Fin.ext ?_)
  match a with
  | ⟨0, _⟩ =>
    show k0_off1 k 0 + 1 * p.val = p.val
    rw [Gen.k0_off1_eq k]
    show 0 + 1 * p.val = p.val
    omega
  | ⟨1, _⟩ =>
    show k0_off1 k 1 + 1 * d.val = c.val
    rw [Gen.k0_off1_eq k, hc]
    show 128 * k.val + 1 * d.val = 128 * k.val + d.val
    omega

/-- A trip's subtotal, over the columns of chunk `k'`. -/
theorem trip_sum0 (A B : Vec Ideal S128x512 .bf16) (k : Fin k0_t1_loop.trips) (k' : Fin 4) (hk : k'.val = k.val)
    (p q : Fin 128) :
    ∑ d : Fin 128, min (View.ld (Val := Elt Ideal) A (tripRect0 k) (ix2 p d)) (View.ld (Val := Elt Ideal) B (tripRect0 k) (ix2 q d))
      = ∑ d : Fin 128, min (A (ix2 p (Cert.Spec.chunkCol k' d))) (B (ix2 q (Cert.Spec.chunkCol k' d))) :=
  Finset.sum_congr rfl fun d _ => by
    have hc : (Cert.Spec.chunkCol k' d).val = 128 * k.val + d.val := by
      show 128 * k'.val + d.val = 128 * k.val + d.val
      rw [hk]
    rw [ld_trip0 A k p d _ hc, ld_trip0 B k q d _ hc]

/-! ## The four trips together: the shared mass -/

theorem tvAcc0_succ (A B : Vec Ideal S128x512 .bf16) (k : ℕ) (h : k < k0_t1_loop.trips) :
    tvAcc0 A B (k + 1)
      = k0_pay8 (tvAcc0 A B k) (View.ld A (tripRect0 ⟨k, h⟩)) (View.ld B (tripRect0 ⟨k, h⟩)) := by
  rw [tvAcc0, dif_pos h]

/-- One more trip: if the carried value at `(p, q)` is `t` before trip `n`, after it it is `t` plus the subtotal of chunk `n`. -/
theorem tvAcc0_step (A B : Vec Ideal S128x512 .bf16) (p q : Fin 128) (n : ℕ) (h : n < k0_t1_loop.trips) (k' : Fin 4)
    (hk : k'.val = n) (t : EReal) (ht : tvAcc0 (F := Ideal) A B n (ix2 p q) = t) :
    tvAcc0 (F := Ideal) A B (n + 1) (ix2 p q)
      = t + ∑ d : Fin 128, min (A (ix2 p (Cert.Spec.chunkCol k' d))) (B (ix2 q (Cert.Spec.chunkCol k' d))) :=
  (congrFun (tvAcc0_succ A B n h) (ix2 p q)).trans
    ((pay8_0_apply _ _ _ p q).trans
      (congrArg₂ (fun x y : EReal => x + y) ht (trip_sum0 A B ⟨n, h⟩ k' hk p q)))

/-- After the four trips the carried value is the sum over all 512 columns of the pairwise minima. -/
theorem tvAcc0_four (A B : Vec Ideal S128x512 .bf16) (p q : Fin 128) :
    tvAcc0 (F := Ideal) A B 4 (ix2 p q) = ∑ c : Fin 512, min (A (ix2 p c)) (B (ix2 q c)) := by
  have h0 : 0 < k0_t1_loop.trips := by rw [trips0]; omega
  have h1 : 1 < k0_t1_loop.trips := by rw [trips0]; omega
  have h2 : 2 < k0_t1_loop.trips := by rw [trips0]; omega
  have h3 : 3 < k0_t1_loop.trips := by rw [trips0]; omega
  have z : tvAcc0 (F := Ideal) A B 0 (ix2 p q) = 0 := Ideal.ofBits_zero_f32
  have a1 := tvAcc0_step A B p q 0 h0 0 rfl _ z
  have a2 := tvAcc0_step A B p q 1 h1 1 rfl _ a1
  have a3 := tvAcc0_step A B p q 2 h2 2 rfl _ a2
  have a4 := tvAcc0_step A B p q 3 h3 3 rfl _ a3
  exact a4.trans (Cert.Spec.sum512_running fun c => min (A (ix2 p c)) (B (ix2 q c))).symm

theorem tvCommon0_apply (x0 x1 : Vec Ideal S128x512 .f32) (x2 : Vec Ideal S512x512 .f32) (p q : Fin 128) :
    tvCommon0 (F := Ideal) x0 x1 x2 (ix2 p q)
      = Cert.Spec.common (Cert.Spec.proj (fun (p : Fin 128) k => x0 (ix2 p k)) (fun k d => x2 (ix2 k d)))
          (Cert.Spec.proj (fun (q : Fin 128) k => x1 (ix2 q k)) (fun k d => x2 (ix2 k d))) p q := by
  unfold tvCommon0
  rw [trips0, tvAcc0_four]
  unfold Cert.Spec.common
  refine Finset.sum_congr rfl fun c _ => ?_
  rw [pay5_0_apply, pay6_0_apply]

/-! ## Each side's own mass: its row sum less the shared mass -/

theorem pay9_0_apply (x0 : Vec Ideal S128x512 .f32) (x2 : Vec Ideal S512x512 .f32) (acc : FVec Ideal S128x128 .f32)
    (p q : Fin 128) :
    k0_pay9 (F := Ideal) x0 x2 acc (ix2 p q)
      = (∑ d : Fin 512, Cert.Spec.proj (fun (p : Fin 128) k => x0 (ix2 p k)) (fun k d => x2 (ix2 k d)) p d) - acc (ix2 p q) := by
  unfold k0_pay9
  try dsimp only
  rw [subf_apply, Keepdims.broadcastTo_a1_ab_apply _ _ p q (0 : Fin 1), Keepdims.shapeCast_a_a1_apply,
    Cert.LibRowReduce.multiReduction_add_row]
  refine congrArg (fun t => t - acc (ix2 p q)) (Finset.sum_congr rfl fun d _ => ?_)
  exact pay3_0_apply x0 x2 p d

theorem pay10_0_apply (x1 : Vec Ideal S128x512 .f32) (x2 : Vec Ideal S512x512 .f32) (acc : FVec Ideal S128x128 .f32)
    (p q : Fin 128) :
    k0_pay10 (F := Ideal) x1 x2 acc (ix2 p q)
      = (∑ d : Fin 512, Cert.Spec.proj (fun (q : Fin 128) k => x1 (ix2 q k)) (fun k d => x2 (ix2 k d)) q d) - acc (ix2 p q) := by
  unfold k0_pay10
  try dsimp only
  rw [subf_apply, broadcastTo_1b_ab_apply, shapeCast_a_1a_apply, Cert.LibRowReduce.multiReduction_add_row]
  refine congrArg (fun t => t - acc (ix2 p q)) (Finset.sum_congr rfl fun d _ => ?_)
  exact pay4_0_apply x1 x2 q d

/-! ## The ratio and the bias -/

theorem pay1_0_apply (c dx dp : FVec Ideal S128x128 .f32) (a b g : Vec Ideal S1x1 .f32) (bias : Vec Ideal S1x128 .f32)
    (p q : Fin 128) :
    k0_pay1 (F := Ideal) c dx dp a b g bias (ix2 p q)
      = Ideal.div (g (ix2 (0 : Fin 1) (0 : Fin 1)) * c (ix2 p q))
          (g (ix2 (0 : Fin 1) (0 : Fin 1)) * c (ix2 p q)
            + max (a (ix2 (0 : Fin 1) (0 : Fin 1))) (-(a (ix2 (0 : Fin 1) (0 : Fin 1)))) * dx (ix2 p q)
            + max (b (ix2 (0 : Fin 1) (0 : Fin 1))) (-(b (ix2 (0 : Fin 1) (0 : Fin 1)))) * dp (ix2 p q) + Cert.Spec.eps)
        + bias (ix2 (0 : Fin 1) q) := by
  unfold k0_pay1
  try dsimp only
  rw [addf_apply, broadcastTo_1b_ab_apply, shapeCast_self, extractAt_unit0 a, extractAt_unit0 b, extractAt_unit0 g]
  rfl

/-! ## The block -/

theorem tvOut0_apply (x0 x1 : Vec Ideal S128x512 .f32) (x2 : Vec Ideal S512x512 .f32) (x3 : Vec Ideal S1x128 .f32)
    (x4 x5 x6 : Vec Ideal S1x1 .f32) (p q : Fin 128) :
    tvOut0 (F := Ideal) x0 x1 x2 x3 x4 x5 x6 (ValueIdx.ix2 p q)
      = Cert.Spec.layer (fun (p : Fin 128) k => x0 (ValueIdx.ix2 p k)) (fun (q : Fin 128) k => x1 (ValueIdx.ix2 q k))
          (fun k d => x2 (ValueIdx.ix2 k d)) (fun (q : Fin 128) => x3 (ValueIdx.ix2 (0 : Fin 1) q))
          (x4 (ValueIdx.ix2 (0 : Fin 1) (0 : Fin 1))) (x5 (ValueIdx.ix2 (0 : Fin 1) (0 : Fin 1)))
          (x6 (ValueIdx.ix2 (0 : Fin 1) (0 : Fin 1))) p q := by
  unfold tvOut0
  rw [pay1_0_apply, pay9_0_apply, pay10_0_apply, tvCommon0_apply]
  rfl

end Cert.KernelIdeal.Hand

end
-- ==== Proof.Val.TvBlock2.lean ====
/-
  What the second Tversky body (the attended rows against the output prototypes) leaves in its output block, entry by
  entry, at the ideal values. The body is the first one's, operation for operation, except that the prototypes reach
  their product with the features without a cast to their own shape; the steps below are the same steps.

  The body is handed 128 rows, 128 prototypes, the 512 × 512 feature matrix, 128 biases and three scalars. Entry
  (p, q) of its result is the Tversky ratio of row p against prototype q plus the bias of q: both are sent through
  the features and clipped at zero; their shared mass is the sum over the 512 feature columns of the smaller of
  the two projected entries, gathered in four trips of 128 columns; each one's own mass is its row sum less the
  shared mass. Every step below reads one operation of the body at one entry; the four trips' subtotals are put
  back into one sum over the 512 columns by regrouping a finite sum.
-/
import proofs.«150770_j35493609734446_2_alg».proof.Proof.KI.Outs
import proofs.«150770_j35493609734446_2_alg».proof.Proof.Spec
import proofs.«150770_j35493609734446_2_alg».proof.Proof.Val.TvSum
import proofs.«150770_j35493609734446_2_alg».proof.Proof.LibKeepdims
import proofs.«150770_j35493609734446_2_alg».proof.Proof.LibMatmul
import proofs.«150770_j35493609734446_2_alg».proof.Proof.LibLayoutMid
import proofs.«150770_j35493609734446_2_alg».proof.Proof.LibLayoutUnit
import proofs.«150770_j35493609734446_2_alg».proof.Proof.LibRowReduce
import Idealize.ShloMosaic.Lib.ValueLayout

noncomputable section

open scoped BigOperators

namespace Cert.KernelIdeal.Hand

open Idealize.ShloMosaic Idealize.ShloMosaic.ValueIdx Idealize.SL.Sem Cert.KernelIdeal Cert.KernelIdeal.Gen

/-! ## Small readings shared by the steps -/

/-- The loop makes four trips. -/
theorem trips2 : k2_t1_loop.trips = 4 := by decide

/-- The one entry of a 1 × 1 block. -/
theorem extractAt_unit2 (x : Vec Ideal S1x1 .f32) (h : ∀ a, (![0, 0] : Fin 2 → Nat) a < S1x1.size a) :
    extractAt ![0, 0] x h = x (ix2 (0 : Fin 1) (0 : Fin 1)) := by
  refine congrArg x (funext fun a => ?_)
  match a with
  | ⟨0, _⟩ => rfl
  | ⟨1, _⟩ => rfl

/-- Above entry `(p, q)` of a reduced 128 × 128 array, position `d` of the reduced last axis is `(p, q, d)`. -/
theorem lift_last2 (h : S128x128x128.Reduces [2] S128x128) (p q d : Fin 128) :
    h.lift (ix2 p q) d = ix3 p q d := by
  funext c
  match c with
  | ⟨0, _⟩ => rfl
  | ⟨1, _⟩ => rfl
  | ⟨2, _⟩ => rfl

/-! ## The two projections: rows, and prototypes, through the features, clipped at zero -/

theorem pay3_2_apply (x0 : Vec Ideal S128x512 .f32) (x2 : Vec Ideal S512x512 .f32) (p : Fin 128) (d : Fin 512) :
    k2_pay3 (F := Ideal) x0 x2 (ix2 p d)
      = Cert.Spec.proj (fun (p : Fin 128) k => x0 (ix2 p k)) (fun k d => x2 (ix2 k d)) p d := by
  have hc : shapeCast S128x512 x0 shapeCasts_S128x512_S128x512 = x0 := shapeCast_self _ _
  unfold k2_pay3 k2_pay2
  try dsimp only
  rw [hc]
  show max (matmul (F := Ideal) (DotDims.plain 128 512 512) none _ _ (constant ⟨2, ![128, 512]⟩ .f32 0x00000000#32) (ix2 p d))
      (Ideal.ofBits .f32 0x00000000#32) = _
  rw [Cert.MatOps.matmul_plain_zero_apply, Ideal.ofBits_zero_f32]
  rfl

theorem pay4_2_apply (x1 : Vec Ideal S128x512 .f32) (x2 : Vec Ideal S512x512 .f32) (q : Fin 128) (d : Fin 512) :
    k2_pay4 (F := Ideal) x1 x2 (ix2 q d)
      = Cert.Spec.proj (fun (q : Fin 128) k => x1 (ix2 q k)) (fun k d => x2 (ix2 k d)) q d := by
  unfold k2_pay4 k2_pay2
  try dsimp only
  show max (matmul (F := Ideal) (DotDims.plain 128 512 512) none _ _ (constant ⟨2, ![128, 512]⟩ .f32 0x00000000#32) (ix2 q d))
      (Ideal.ofBits .f32 0x00000000#32) = _
  rw [Cert.MatOps.matmul_plain_zero_apply, Ideal.ofBits_zero_f32]
  rfl

/-- What is kept in scratch of the rows' projection is the projection (a change of format is the identity). -/
theorem pay5_2_apply (x0 : Vec Ideal S128x512 .f32) (x2 : Vec Ideal S512x512 .f32) (p : Fin 128) (d : Fin 512) :
    k2_pay5 (F := Ideal) x0 x2 (ix2 p d)
      = Cert.Spec.proj (fun (p : Fin 128) k => x0 (ix2 p k)) (fun k d => x2 (ix2 k d)) p d := by
  unfold k2_pay5
  try dsimp only
  rw [shapeCast_self]
  exact pay3_2_apply x0 x2 p d

theorem pay6_2_apply (x1 : Vec Ideal S128x512 .f32) (x2 : Vec Ideal S512x512 .f32) (q : Fin 128) (d : Fin 512) :
    k2_pay6 (F := Ideal) x1 x2 (ix2 q d)
      = Cert.Spec.proj (fun (q : Fin 128) k => x1 (ix2 q k)) (fun k d => x2 (ix2 k d)) q d := by
  unfold k2_pay6
  try dsimp only
  rw [shapeCast_self]
  exact pay4_2_apply x1 x2 q d

/-! ## One trip: the carried value plus the minima over the trip's 128 columns -/

theorem pay8_2_apply (acc : FVec Ideal S128x128 .f32) (a b : Vec Ideal S128x128 .bf16) (p q : Fin 128) :
    k2_pay8 (F := Ideal) acc a b (ix2 p q) = acc (ix2 p q) + ∑ d : Fin 128, min (a (ix2 p d)) (b (ix2 q d)) := by
  unfold k2_pay8
  try dsimp only
  rw [addf_apply]
  refine congrArg (fun t => acc (ix2 p q) + t) ?_
  refine (Ideal.multiReduction_add_single _ 0x00000000#32 reduces_S128x128x128_S128x128 (.inl rfl) rfl (ix2 p q)).trans ?_
  refine Finset.sum_congr rfl fun (d : Fin 128) _ => ?_
  have hl : reduces_S128x128x128_S128x128.lift (ix2 p q) d = ix3 p q d := lift_last2 _ p q d
  rw [hl, extf_apply, minimumf_apply,
    Cert.LayoutMid.broadcastTo_a1c_abc_apply _ _ p q d (0 : Fin 1), Cert.LayoutMid.shapeCast_ab_a1b_apply,
    Cert.LayoutUnit.broadcastTo_1bc_abc_apply, shapeCast_ab_1ab_apply]

/-- Trip `k` reads columns `128 k … 128 k + 127` of a scratch buffer. -/
theorem ld_trip2 (A : Vec Ideal S128x512 .bf16) (k : Fin k2_t1_loop.trips) (p d : Fin 128) (c : Fin 512)
    (hc : c.val = 128 * k.val + d.val) :
    View.ld (Val := Elt Ideal) A (tripRect2 k) (ix2 p d) = A (ix2 p c) := by
  show A ((tripRect2 k).idx (ix2 p d)) = A (ix2 p c)
  refine congrArg A (funext fun a => Fin.ext ?_)
  match a with
  | ⟨0, _⟩ =>
    show k2_off1 k 0 + 1 * p.val = p.val
    rw [Gen.k2_off1_eq k]
    show 0 + 1 * p.val = p.val
    omega
  | ⟨1, _⟩ =>
    show k2_off1 k 1 + 1 * d.val = c.val
    rw [Gen.k2_off1_eq k, hc]
    show 128 * k.val + 1 * d.val = 128 * k.val + d.val
    omega

/-- A trip's subtotal, over the columns of chunk `k'`. -/
theorem trip_sum2 (A B : Vec Ideal S128x512 .bf16) (k : Fin k2_t1_loop.trips) (k' : Fin 4) (hk : k'.val = k.val)
    (p q : Fin 128) :
    ∑ d : Fin 128, min (View.ld (Val := Elt Ideal) A (tripRect2 k) (ix2 p d)) (View.ld (Val := Elt Ideal) B (tripRect2 k) (ix2 q d))
      = ∑ d : Fin 128, min (A (ix2 p (Cert.Spec.chunkCol k' d))) (B (ix2 q (Cert.Spec.chunkCol k' d))) :=
  Finset.sum_congr rfl fun d _ => by
    have hc : (Cert.Spec.chunkCol k' d).val = 128 * k.val + d.val := by
      show 128 * k'.val + d.val = 128 * k.val + d.val
      rw [hk]
    rw [ld_trip2 A k p d _ hc, ld_trip2 B k q d _ hc]

/-! ## The four trips together: the shared mass -/

theorem tvAcc2_succ (A B : Vec Ideal S128x512 .bf16) (k : ℕ) (h : k < k2_t1_loop.trips) :
    tvAcc2 A B (k + 1)
      = k2_pay8 (tvAcc2 A B k) (View.ld A (tripRect2 ⟨k, h⟩)) (View.ld B (tripRect2 ⟨k, h⟩)) := by
  rw [tvAcc2, dif_pos h]

/-- One more trip: if the carried value at `(p, q)` is `t` before trip `n`, after it it is `t` plus the subtotal of chunk `n`. -/
theorem tvAcc2_step (A B : Vec Ideal S128x512 .bf16) (p q : Fin 128) (n : ℕ) (h : n < k2_t1_loop.trips) (k' : Fin 4)
    (hk : k'.val = n) (t : EReal) (ht : tvAcc2 (F := Ideal) A B n (ix2 p q) = t) :
    tvAcc2 (F := Ideal) A B (n + 1) (ix2 p q)
      = t + ∑ d : Fin 128, min (A (ix2 p (Cert.Spec.chunkCol k' d))) (B (ix2 q (Cert.Spec.chunkCol k' d))) :=
  (congrFun (tvAcc2_succ A B n h) (ix2 p q)).trans
    ((pay8_2_apply _ _ _ p q).trans
      (congrArg₂ (fun x y : EReal => x + y) ht (trip_sum2 A B ⟨n, h⟩ k' hk p q)))

/-- After the four trips the carried value is the sum over all 512 columns of the pairwise minima. -/
theorem tvAcc2_four (A B : Vec Ideal S128x512 .bf16) (p q : Fin 128) :
    tvAcc2 (F := Ideal) A B 4 (ix2 p q) = ∑ c : Fin 512, min (A (ix2 p c)) (B (ix2 q c)) := by
  have h0 : 0 < k2_t1_loop.trips := by rw [trips2]; omega
  have h1 : 1 < k2_t1_loop.trips := by rw [trips2]; omega
  have h2 : 2 < k2_t1_loop.trips := by rw [trips2]; omega
  have h3 : 3 < k2_t1_loop.trips := by rw [trips2]; omega
  have z : tvAcc2 (F := Ideal) A B 0 (ix2 p q) = 0 := Ideal.ofBits_zero_f32
  have a1 := tvAcc2_step A B p q 0 h0 0 rfl _ z
  have a2 := tvAcc2_step A B p q 1 h1 1 rfl _ a1
  have a3 := tvAcc2_step A B p q 2 h2 2 rfl _ a2
  have a4 := tvAcc2_step A B p q 3 h3 3 rfl _ a3
  exact a4.trans (Cert.Spec.sum512_running fun c => min (A (ix2 p c)) (B (ix2 q c))).symm

theorem tvCommon2_apply (x0 x1 : Vec Ideal S128x512 .f32) (x2 : Vec Ideal S512x512 .f32) (p q : Fin 128) :
    tvCommon2 (F := Ideal) x0 x1 x2 (ix2 p q)
      = Cert.Spec.common (Cert.Spec.proj (fun (p : Fin 128) k => x0 (ix2 p k)) (fun k d => x2 (ix2 k d)))
          (Cert.Spec.proj (fun (q : Fin 128) k => x1 (ix2 q k)) (fun k d => x2 (ix2 k d))) p q := by
  unfold tvCommon2
  rw [trips2, tvAcc2_four]
  unfold Cert.Spec.common
  refine Finset.sum_congr rfl fun c _ => ?_
  rw [pay5_2_apply, pay6_2_apply]

/-! ## Each side's own mass: its row sum less the shared mass -/

theorem pay9_2_apply (x0 : Vec Ideal S128x512 .f32) (x2 : Vec Ideal S512x512 .f32) (acc : FVec Ideal S128x128 .f32)
    (p q : Fin 128) :
    k2_pay9 (F := Ideal) x0 x2 acc (ix2 p q)
      = (∑ d : Fin 512, Cert.Spec.proj (fun (p : Fin 128) k => x0 (ix2 p k)) (fun k d => x2 (ix2 k d)) p d) - acc (ix2 p q) := by
  unfold k2_pay9
  try dsimp only
  rw [subf_apply, Keepdims.broadcastTo_a1_ab_apply _ _ p q (0 : Fin 1), Keepdims.shapeCast_a_a1_apply,
    Cert.LibRowReduce.multiReduction_add_row]
  refine congrArg (fun t => t - acc (ix2 p q)) (Finset.sum_congr rfl fun d _ => ?_)
  exact pay3_2_apply x0 x2 p d

theorem pay10_2_apply (x1 : Vec Ideal S128x512 .f32) (x2 : Vec Ideal S512x512 .f32) (acc : FVec Ideal S128x128 .f32)
    (p q : Fin 128) :
    k2_pay10 (F := Ideal) x1 x2 acc (ix2 p q)
      = (∑ d : Fin 512, Cert.Spec.proj (fun (q : Fin 128) k => x1 (ix2 q k)) (fun k d => x2 (ix2 k d)) q d) - acc (ix2 p q) := by
  unfold k2_pay10
  try dsimp only
  rw [subf_apply, broadcastTo_1b_ab_apply, shapeCast_a_1a_apply, Cert.LibRowReduce.multiReduction_add_row]
  refine congrArg (fun t => t - acc (ix2 p q)) (Finset.sum_congr rfl fun d _ => ?_)
  exact pay4_2_apply x1 x2 q d

/-! ## The ratio and the bias -/

theorem pay1_2_apply (c dx dp : FVec Ideal S128x128 .f32) (a b g : Vec Ideal S1x1 .f32) (bias : Vec Ideal S1x128 .f32)
    (p q : Fin 128) :
    k2_pay1 (F := Ideal) c dx dp a b g bias (ix2 p q)
      = Ideal.div (g (ix2 (0 : Fin 1) (0 : Fin 1)) * c (ix2 p q))
          (g (ix2 (0 : Fin 1) (0 : Fin 1)) * c (ix2 p q)
            + max (a (ix2 (0 : Fin 1) (0 : Fin 1))) (-(a (ix2 (0 : Fin 1) (0 : Fin 1)))) * dx (ix2 p q)
            + max (b (ix2 (0 : Fin 1) (0 : Fin 1))) (-(b (ix2 (0 : Fin 1) (0 : Fin 1)))) * dp (ix2 p q) + Cert.Spec.eps)
        + bias (ix2 (0 : Fin 1) q) := by
  unfold k2_pay1
  try dsimp only
  rw [addf_apply, broadcastTo_1b_ab_apply, shapeCast_self, extractAt_unit2 a, extractAt_unit2 b, extractAt_unit2 g]
  rfl

/-! ## The block -/

theorem tvOut2_apply (x0 x1 : Vec Ideal S128x512 .f32) (x2 : Vec Ideal S512x512 .f32) (x3 : Vec Ideal S1x128 .f32)
    (x4 x5 x6 : Vec Ideal S1x1 .f32) (p q : Fin 128) :
    tvOut2 (F := Ideal) x0 x1 x2 x3 x4 x5 x6 (ValueIdx.ix2 p q)
      = Cert.Spec.layer (fun (p : Fin 128) k => x0 (ValueIdx.ix2 p k)) (fun (q : Fin 128) k => x1 (ValueIdx.ix2 q k))
          (fun k d => x2 (ValueIdx.ix2 k d)) (fun (q : Fin 128) => x3 (ValueIdx.ix2 (0 : Fin 1) q))
          (x4 (ValueIdx.ix2 (0 : Fin 1) (0 : Fin 1))) (x5 (ValueIdx.ix2 (0 : Fin 1) (0 : Fin 1)))
          (x6 (ValueIdx.ix2 (0 : Fin 1) (0 : Fin 1))) p q := by
  unfold tvOut2
  rw [pay1_2_apply, pay9_2_apply, pay10_2_apply, tvCommon2_apply]
  rfl

end Cert.KernelIdeal.Hand

end
-- ==== Proof.Val.AtBlock.lean ====
/-
  What the attention body leaves in its output block, entry by entry, at the ideal values.

  The body is handed two heads' queries, keys and values, each 512 rows of 64 columns. For head g, entry (i, e) of
  the result is the softmax-weighted sum over the keys j of the values' entry (j, e): the score of query i against
  key j is their inner product over the 64 columns times one eighth; the row's maximum is subtracted, the
  exponential taken, and the result divided by the row's sum. The two contractions run over one axis each and keep
  the head axis; reading them at an entry re-indexes the contraction's own index set by its one coordinate.
-/
import proofs.«150770_j35493609734446_2_alg».proof.Proof.KI.Outs
import proofs.«150770_j35493609734446_2_alg».proof.Proof.Spec
import proofs.«150770_j35493609734446_2_alg».proof.Proof.LibRowReduce
import Idealize.ShloMosaic.Lib.ValueLayout

noncomputable section

open scoped BigOperators

namespace Cert.KernelIdeal.Hand

open Idealize.ShloMosaic Idealize.ShloMosaic.ValueIdx Idealize.SL.Sem Cert.KernelIdeal Cert.KernelIdeal.Gen

/-! ## Layout: a reduced last axis kept as a unit axis and copied back along it -/

section Layout
variable {α : Type}

/-- `[A, B]` cast to `[A, B, 1]`: at `(a, b, u)`, the operand at `(a, b)`, whatever the unit coordinate `u`. -/
theorem shapeCast_ab_ab1_apply {A B : ℕ} (x : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ x h (ix3 a b u) = x (ix2 a b) :=
  shapeCast_apply x h _ _ (by
    have hu : u.val = 0 := by omega
    rw [Shape.rowMajor_val_two, Shape.rowMajor_val_three]
    show a.val * B + b.val = (a.val * B + b.val) * 1 + u.val
    rw [hu, Nat.mul_one, Nat.add_zero])

/-- `[A, B, 1]` broadcast to `[A, B, C]`: at `(a, b, c)`, the operand at `(a, b, u)`. -/
theorem broadcastTo_ab1_abc_apply {A B C : ℕ} (v : (⟨3, ![A, B, 1]⟩ : Shape).Idx → α)
    (h : (⟨3, ![A, B, 1]⟩ : Shape).Broadcasts ⟨3, ![A, B, C]⟩) (a : Fin A) (b : Fin B) (c : Fin C) (u : Fin 1) :
    broadcastTo ⟨3, ![A, B, C]⟩ v h (ix3 a b c) = v (ix3 a b u) := by
  refine broadcastTo_apply v h (ix3 a b c) (ix3 a b u) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show u.val = if (1 : ℕ) = 1 then 0 else c.val
    rw [if_pos rfl]; omega

/-- Above entry `(a, b)` of an array reduced along its last axis, position `c` of that axis is `(a, b, c)`. -/
theorem lift_last3 {A B C : ℕ} (h : (⟨3, ![A, B, C]⟩ : Shape).Reduces [2] ⟨2, ![A, B]⟩) (a : Fin A) (b : Fin B) (c : Fin C) :
    h.lift (ix2 a b) c = ix3 a b c := by
  funext d
  match d with
  | ⟨0, _⟩ => rfl
  | ⟨1, _⟩ => rfl
  | ⟨2, _⟩ => rfl

end Layout

/-! ## The scores' contraction: queries against keys over the 64 columns, head by head -/

theorem scoreDot_lhs0 (i : S2x512x512.Idx) (q : dot_S2x512x64_S2x512x64_S2x512x512_2_2_1_1_0_0.contr.Idx) :
    (dot_S2x512x64_S2x512x64_S2x512x512_2_2_1_1_0_0.lhsIdx i q 0).val = (i 0).val := by
  unfold DotDims.lhsIdx
  rw [dif_pos (show (0 : Fin S2x512x64.rank) ∈ dot_S2x512x64_S2x512x64_S2x512x512_2_2_1_1_0_0.lhsBatch by decide)]
  rfl
theorem scoreDot_lhs1 (i : S2x512x512.Idx) (q : dot_S2x512x64_S2x512x64_S2x512x512_2_2_1_1_0_0.contr.Idx) :
    (dot_S2x512x64_S2x512x64_S2x512x512_2_2_1_1_0_0.lhsIdx i q 1).val = (i 1).val := by
  unfold DotDims.lhsIdx
  rw [dif_neg (show ¬(1 : Fin S2x512x64.rank) ∈ dot_S2x512x64_S2x512x64_S2x512x512_2_2_1_1_0_0.lhsBatch by decide),
    dif_pos (show (1 : Fin S2x512x64.rank) ∈ dot_S2x512x64_S2x512x64_S2x512x512_2_2_1_1_0_0.lhsNonContracting by decide)]
  rfl
theorem scoreDot_lhs2 (i : S2x512x512.Idx) (q : dot_S2x512x64_S2x512x64_S2x512x512_2_2_1_1_0_0.contr.Idx) :
    (dot_S2x512x64_S2x512x64_S2x512x512_2_2_1_1_0_0.lhsIdx i q 2).val = (q ⟨0, by decide⟩).val :=
  dot_S2x512x64_S2x512x64_S2x512x512_2_2_1_1_0_0.lhsIdx_val_of_single rfl i q
theorem scoreDot_rhs0 (i : S2x512x512.Idx) (q : dot_S2x512x64_S2x512x64_S2x512x512_2_2_1_1_0_0.contr.Idx) :
    (dot_S2x512x64_S2x512x64_S2x512x512_2_2_1_1_0_0.rhsIdx i q 0).val = (i 0).val := by
  unfold DotDims.rhsIdx
  rw [dif_pos (show (0 : Fin S2x512x64.rank) ∈ dot_S2x512x64_S2x512x64_S2x512x512_2_2_1_1_0_0.rhsBatch by decide)]
  rfl
theorem scoreDot_rhs1 (i : S2x512x512.Idx) (q : dot_S2x512x64_S2x512x64_S2x512x512_2_2_1_1_0_0.contr.Idx) :
    (dot_S2x512x64_S2x512x64_S2x512x512_2_2_1_1_0_0.rhsIdx i q 1).val = (i 2).val := by
  unfold DotDims.rhsIdx
  rw [dif_neg (show ¬(1 : Fin S2x512x64.rank) ∈ dot_S2x512x64_S2x512x64_S2x512x512_2_2_1_1_0_0.rhsBatch by decide),
    dif_pos (show (1 : Fin S2x512x64.rank) ∈ dot_S2x512x64_S2x512x64_S2x512x512_2_2_1_1_0_0.rhsNonContracting by decide)]
  rfl
theorem scoreDot_rhs2 (i : S2x512x512.Idx) (q : dot_S2x512x64_S2x512x64_S2x512x512_2_2_1_1_0_0.contr.Idx) :
    (dot_S2x512x64_S2x512x64_S2x512x512_2_2_1_1_0_0.rhsIdx i q 2).val = (q ⟨0, by decide⟩).val :=
  dot_S2x512x64_S2x512x64_S2x512x512_2_2_1_1_0_0.rhsIdx_val_of_single rfl i q

/-- Into the zero block, at `(g, i, j)`: the inner product of row `i` of the left operand's head `g` and row `j` of the
    right operand's. -/
theorem scoreDot_zero_apply {φ₁ φ₂ : FTy} (l : FVec Ideal S2x512x64 φ₁) (r : FVec Ideal S2x512x64 φ₂) (g : Fin 2) (i j : Fin 512) :
    matmul (F := Ideal) dot_S2x512x64_S2x512x64_S2x512x512_2_2_1_1_0_0 none l r (constant S2x512x512 .f32 0x00000000#32) (ix3 g i j)
      = ∑ e : Fin 64, l (ix3 g i e) * r (ix3 g j e) := by
  simp only [matmul]
  rw [Ideal.matmul_constant_zero_apply, ← Equiv.sum_comp (contrEquiv1 dot_S2x512x64_S2x512x64_S2x512x512_2_2_1_1_0_0 64 rfl rfl).symm]
  refine Finset.sum_congr rfl fun k _ => ?_
  have hk := contrEquiv1_symm_val dot_S2x512x64_S2x512x64_S2x512x512_2_2_1_1_0_0 64 rfl rfl k
  have el : dot_S2x512x64_S2x512x64_S2x512x512_2_2_1_1_0_0.lhsIdx (ix3 g i j) ((contrEquiv1 dot_S2x512x64_S2x512x64_S2x512x512_2_2_1_1_0_0 64 rfl rfl).symm k) = ix3 g i k := funext fun a => Fin.ext (by
    match a with
    | ⟨0, _⟩ => exact scoreDot_lhs0 _ _
    | ⟨1, _⟩ => exact scoreDot_lhs1 _ _
    | ⟨2, _⟩ => exact (scoreDot_lhs2 _ _).trans hk)
  have er : dot_S2x512x64_S2x512x64_S2x512x512_2_2_1_1_0_0.rhsIdx (ix3 g i j) ((contrEquiv1 dot_S2x512x64_S2x512x64_S2x512x512_2_2_1_1_0_0 64 rfl rfl).symm k) = ix3 g j k := funext fun a => Fin.ext (by
    match a with
    | ⟨0, _⟩ => exact scoreDot_rhs0 _ _
    | ⟨1, _⟩ => exact scoreDot_rhs1 _ _
    | ⟨2, _⟩ => exact (scoreDot_rhs2 _ _).trans hk)
  rw [el, er]

/-! ## The values' contraction: weights against values over the 512 keys, head by head -/

theorem valueDot_lhs0 (i : S2x512x64.Idx) (q : dot_S2x512x512_S2x512x64_S2x512x64_2_1_1_2_0_0.contr.Idx) :
    (dot_S2x512x512_S2x512x64_S2x512x64_2_1_1_2_0_0.lhsIdx i q 0).val = (i 0).val := by
  unfold DotDims.lhsIdx
  rw [dif_pos (show (0 : Fin S2x512x512.rank) ∈ dot_S2x512x512_S2x512x64_S2x512x64_2_1_1_2_0_0.lhsBatch by decide)]
  rfl
theorem valueDot_lhs1 (i : S2x512x64.Idx) (q : dot_S2x512x512_S2x512x64_S2x512x64_2_1_1_2_0_0.contr.Idx) :
    (dot_S2x512x512_S2x512x64_S2x512x64_2_1_1_2_0_0.lhsIdx i q 1).val = (i 1).val := by
  unfold DotDims.lhsIdx
  rw [dif_neg (show ¬(1 : Fin S2x512x512.rank) ∈ dot_S2x512x512_S2x512x64_S2x512x64_2_1_1_2_0_0.lhsBatch by decide),
    dif_pos (show (1 : Fin S2x512x512.rank) ∈ dot_S2x512x512_S2x512x64_S2x512x64_2_1_1_2_0_0.lhsNonContracting by decide)]
  rfl
theorem valueDot_lhs2 (i : S2x512x64.Idx) (q : dot_S2x512x512_S2x512x64_S2x512x64_2_1_1_2_0_0.contr.Idx) :
    (dot_S2x512x512_S2x512x64_S2x512x64_2_1_1_2_0_0.lhsIdx i q 2).val = (q ⟨0, by decide⟩).val :=
  dot_S2x512x512_S2x512x64_S2x512x64_2_1_1_2_0_0.lhsIdx_val_of_single rfl i q
theorem valueDot_rhs0 (i : S2x512x64.Idx) (q : dot_S2x512x512_S2x512x64_S2x512x64_2_1_1_2_0_0.contr.Idx) :
    (dot_S2x512x512_S2x512x64_S2x512x64_2_1_1_2_0_0.rhsIdx i q 0).val = (i 0).val := by
  unfold DotDims.rhsIdx
  rw [dif_pos (show (0 : Fin S2x512x64.rank) ∈ dot_S2x512x512_S2x512x64_S2x512x64_2_1_1_2_0_0.rhsBatch by decide)]
  rfl
theorem valueDot_rhs1 (i : S2x512x64.Idx) (q : dot_S2x512x512_S2x512x64_S2x512x64_2_1_1_2_0_0.contr.Idx) :
    (dot_S2x512x512_S2x512x64_S2x512x64_2_1_1_2_0_0.rhsIdx i q 1).val = (q ⟨0, by decide⟩).val :=
  dot_S2x512x512_S2x512x64_S2x512x64_2_1_1_2_0_0.rhsIdx_val_of_single rfl i q
theorem valueDot_rhs2 (i : S2x512x64.Idx) (q : dot_S2x512x512_S2x512x64_S2x512x64_2_1_1_2_0_0.contr.Idx) :
    (dot_S2x512x512_S2x512x64_S2x512x64_2_1_1_2_0_0.rhsIdx i q 2).val = (i 2).val := by
  unfold DotDims.rhsIdx
  rw [dif_neg (show ¬(2 : Fin S2x512x64.rank) ∈ dot_S2x512x512_S2x512x64_S2x512x64_2_1_1_2_0_0.rhsBatch by decide),
    dif_pos (show (2 : Fin S2x512x64.rank) ∈ dot_S2x512x512_S2x512x64_S2x512x64_2_1_1_2_0_0.rhsNonContracting by decide)]
  rfl

/-- Into the zero block, at `(g, i, e)`: the sum over the keys `j` of the left operand at `(g, i, j)` times the right
    operand at `(g, j, e)`. -/
theorem valueDot_zero_apply {φ₁ φ₂ : FTy} (l : FVec Ideal S2x512x512 φ₁) (r : FVec Ideal S2x512x64 φ₂) (g : Fin 2) (i : Fin 512) (e : Fin 64) :
    matmul (F := Ideal) dot_S2x512x512_S2x512x64_S2x512x64_2_1_1_2_0_0 none l r (constant S2x512x64 .f32 0x00000000#32) (ix3 g i e)
      = ∑ j : Fin 512, l (ix3 g i j) * r (ix3 g j e) := by
  simp only [matmul]
  rw [Ideal.matmul_constant_zero_apply, ← Equiv.sum_comp (contrEquiv1 dot_S2x512x512_S2x512x64_S2x512x64_2_1_1_2_0_0 512 rfl rfl).symm]
  refine Finset.sum_congr rfl fun k _ => ?_
  have hk := contrEquiv1_symm_val dot_S2x512x512_S2x512x64_S2x512x64_2_1_1_2_0_0 512 rfl rfl k
  have el : dot_S2x512x512_S2x512x64_S2x512x64_2_1_1_2_0_0.lhsIdx (ix3 g i e) ((contrEquiv1 dot_S2x512x512_S2x512x64_S2x512x64_2_1_1_2_0_0 512 rfl rfl).symm k) = ix3 g i k := funext fun a => Fin.ext (by
    match a with
    | ⟨0, _⟩ => exact valueDot_lhs0 _ _
    | ⟨1, _⟩ => exact valueDot_lhs1 _ _
    | ⟨2, _⟩ => exact (valueDot_lhs2 _ _).trans hk)
  have er : dot_S2x512x512_S2x512x64_S2x512x64_2_1_1_2_0_0.rhsIdx (ix3 g i e) ((contrEquiv1 dot_S2x512x512_S2x512x64_S2x512x64_2_1_1_2_0_0 512 rfl rfl).symm k) = ix3 g k e := funext fun a => Fin.ext (by
    match a with
    | ⟨0, _⟩ => exact valueDot_rhs0 _ _
    | ⟨1, _⟩ => exact (valueDot_rhs1 _ _).trans hk
    | ⟨2, _⟩ => exact valueDot_rhs2 _ _)
  rw [el, er]

/-! ## The body's three stages, named -/

/-- The scaled scores of two heads' queries against their keys. -/
def atScores (x0 x1 : FVec Ideal S2x512x64 .f32) : FVec Ideal S2x512x512 .f32 :=
  mulf (matmul dot_S2x512x64_S2x512x64_S2x512x512_2_2_1_1_0_0 none (truncf .bf16 x0 bitsLt_bf16_f32) (truncf .bf16 x1 bitsLt_bf16_f32)
      (constant S2x512x512 .f32 0x00000000#32))
    (broadcast S2x512x512 (Scalar.ofBits .f32 0x3E000000#32))

/-- The exponentials of the scores less their row's maximum. -/
def atWeights (s : FVec Ideal S2x512x512 .f32) : FVec Ideal S2x512x512 .f32 :=
  exp (subf s (broadcastTo S2x512x512
    (shapeCast S2x512x1 (multiReduction .maximumf [2] S2x512 s 0xFF800000#32 reduces_S2x512x512_S2x512 (.inl rfl) rfl)
      shapeCasts_S2x512_S2x512x1) broadcasts_S2x512x1_S2x512x512))

/-- The weights divided by their row's sum. -/
def atProbs (w : FVec Ideal S2x512x512 .f32) : FVec Ideal S2x512x512 .f32 :=
  divf w (broadcastTo S2x512x512
    (shapeCast S2x512x1 (multiReduction .add [2] S2x512 w 0x00000000#32 reduces_S2x512x512_S2x512 (.inl rfl) rfl)
      shapeCasts_S2x512_S2x512x1) broadcasts_S2x512x1_S2x512x512)

/-- The body's result is the values' contraction of these stages (the casts of a block to its own shape left in). -/
theorem k1_pay1_eq (x0 x1 x2 : Vec Ideal S2x512x64 .f32) :
    k1_pay1 (F := Ideal) x0 x1 x2
      = matmul dot_S2x512x512_S2x512x64_S2x512x64_2_1_1_2_0_0 none
          (truncf .bf16 (atProbs (atWeights (atScores (shapeCast S2x512x64 x0 shapeCasts_S2x512x64_S2x512x64)
            (shapeCast S2x512x64 x1 shapeCasts_S2x512x64_S2x512x64)))) bitsLt_bf16_f32)
          (truncf .bf16 (shapeCast S2x512x64 x2 shapeCasts_S2x512x64_S2x512x64) bitsLt_bf16_f32)
          (constant S2x512x64 .f32 0x00000000#32) := rfl

theorem atScores_apply (x0 x1 : FVec Ideal S2x512x64 .f32) (g : Fin 2) (i j : Fin 512) :
    atScores x0 x1 (ix3 g i j)
      = Cert.Spec.score (fun i e => x0 (ix3 g i e)) (fun j e => x1 (ix3 g j e)) i j := by
  unfold atScores
  rw [mulf_apply, scoreDot_zero_apply]
  rfl

/-- A row's maximum from minus infinity, kept as a unit axis and copied back along the row. -/
theorem rowMax_keep_apply (s : FVec Ideal S2x512x512 .f32) (g : Fin 2) (i j : Fin 512) :
    broadcastTo S2x512x512
        (shapeCast S2x512x1 (multiReduction .maximumf [2] S2x512 s 0xFF800000#32 reduces_S2x512x512_S2x512 (.inl rfl) rfl)
          shapeCasts_S2x512_S2x512x1) broadcasts_S2x512x1_S2x512x512 (ix3 g i j)
      = Cert.Spec.rowMax fun j' : Fin 512 => s (ix3 g i j') := by
  rw [broadcastTo_ab1_abc_apply _ _ g i j (0 : Fin 1), shapeCast_ab_ab1_apply]
  refine (Ideal.multiReduction_maximumf_single s 0xFF800000#32 reduces_S2x512x512_S2x512 (.inl rfl) rfl (ix2 g i)).trans ?_
  unfold Cert.Spec.rowMax
  rw [show FloatOps.ofBits (F := Ideal) .f32 0xFF800000#32 = (⊥ : EReal) from Cert.LibRowReduce.ofBits_neg_inf_f32]
  exact congrArg (Finset.univ.fold max ⊥) (funext fun j' : Fin 512 => congrArg s (lift_last3 _ g i j'))

/-- A row's sum, kept as a unit axis and copied back along the row. -/
theorem rowSum_keep_apply (w : FVec Ideal S2x512x512 .f32) (g : Fin 2) (i j : Fin 512) :
    broadcastTo S2x512x512
        (shapeCast S2x512x1 (multiReduction .add [2] S2x512 w 0x00000000#32 reduces_S2x512x512_S2x512 (.inl rfl) rfl)
          shapeCasts_S2x512_S2x512x1) broadcasts_S2x512x1_S2x512x512 (ix3 g i j)
      = ∑ j' : Fin 512, w (ix3 g i j') := by
  rw [broadcastTo_ab1_abc_apply _ _ g i j (0 : Fin 1), shapeCast_ab_ab1_apply]
  refine (Ideal.multiReduction_add_single w 0x00000000#32 reduces_S2x512x512_S2x512 (.inl rfl) rfl (ix2 g i)).trans ?_
  exact Finset.sum_congr rfl fun j' _ => congrArg w (lift_last3 _ g i j')

theorem atWeights_apply (s : FVec Ideal S2x512x512 .f32) (g : Fin 2) (i j : Fin 512) :
    atWeights s (ix3 g i j) = Ideal.exp (s (ix3 g i j) - Cert.Spec.rowMax fun j' : Fin 512 => s (ix3 g i j')) := by
  unfold atWeights
  show Ideal.exp (s (ix3 g i j) - _) = _
  rw [rowMax_keep_apply]

theorem atProbs_apply (w : FVec Ideal S2x512x512 .f32) (g : Fin 2) (i j : Fin 512) :
    atProbs w (ix3 g i j) = Ideal.div (w (ix3 g i j)) (∑ j' : Fin 512, w (ix3 g i j')) := by
  unfold atProbs
  rw [divf_apply, rowSum_keep_apply]

/-! ## The stages against the specification -/

theorem weights_eq (x0 x1 : FVec Ideal S2x512x64 .f32) (g : Fin 2) (i j : Fin 512) :
    atWeights (atScores x0 x1) (ix3 g i j)
      = Cert.Spec.weight (fun i e => x0 (ix3 g i e)) (fun j e => x1 (ix3 g j e)) i j := by
  rw [atWeights_apply, atScores_apply,
    show (fun j' : Fin 512 => atScores x0 x1 (ix3 g i j'))
        = Cert.Spec.score (fun i e => x0 (ix3 g i e)) (fun j e => x1 (ix3 g j e)) i
      from funext fun j' => atScores_apply x0 x1 g i j']
  rfl

theorem probs_eq (x0 x1 : FVec Ideal S2x512x64 .f32) (g : Fin 2) (i j : Fin 512) :
    atProbs (atWeights (atScores x0 x1)) (ix3 g i j)
      = Cert.Spec.prob (fun i e => x0 (ix3 g i e)) (fun j e => x1 (ix3 g j e)) i j := by
  rw [atProbs_apply, weights_eq, Finset.sum_congr rfl fun j' _ => weights_eq x0 x1 g i j']
  rfl

/-! ## The block -/

theorem atOut1_apply (x0 x1 x2 : Vec Ideal S2x512x64 .f32) (g : Fin 2) (i : Fin 512) (e : Fin 64) :
    atOut1 (F := Ideal) x0 x1 x2 (ValueIdx.ix3 g i e)
      = Cert.Spec.attend (fun i e => x0 (ValueIdx.ix3 g i e)) (fun j e => x1 (ValueIdx.ix3 g j e))
          (fun j e => x2 (ValueIdx.ix3 g j e)) i e := by
  unfold atOut1
  rw [k1_pay1_eq, shapeCast_self x0, shapeCast_self x1, shapeCast_self x2]
  refine (valueDot_zero_apply _ _ g i e).trans ?_
  unfold Cert.Spec.attend
  refine Finset.sum_congr rfl fun j _ => ?_
  exact congrArg (fun t => t * x2 (ix3 g j e)) (probs_eq x0 x1 g i j)

end Cert.KernelIdeal.Hand

end
-- ==== Proof.Val.Arr0.lean ====
/-
  The first Tversky call's arrays, from its blocks. The call visits a 4 × 12 grid, point `t` being row block `t / 12` and
  column block `t % 12`: its rows' block is rows `128 (t / 12) …` of the rows' array, its prototypes' block is prototypes
  `128 (t % 12) …`, with the matching 128 biases; the features and the three scalars are whole. The 48 output blocks of
  128 × 128 tile the [512, 1536] result, which therefore ends holding, entry by entry, what the body computed there.
-/
import proofs.«150770_j35493609734446_2_alg».proof.Proof.KI.Reg0
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable {F : FTy → Type} [FloatOps F]

/-- The call has 48 grid points. -/
theorem N0_eq : cfg0.N = 48 := N_0

/-- The printed index maps, decided over the grid. -/
theorem idx_facts0 : ∀ t : Fin cfg0.N,
    win0_0.index t (0 : Fin 2) = t.val / 12 ∧ win0_0.index t (1 : Fin 2) = 0
    ∧ win0_1.index t (0 : Fin 2) = t.val % 12 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val % 12
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 12 ∧ win0_7.index t (1 : Fin 2) = t.val % 12 :=
  (by decide +kernel : ∀ t : Fin grid0.N, _)

/-- Row `128 (t / 12) + p` is one of the 512. -/
theorem row_lt0 (t : Fin cfg0.N) (p : Fin 128) : 128 * (t.val / 12) + p.val < 512 := by
  have h := t.isLt; have hN : cfg0.N = 48 := N0_eq; have := p.isLt; omega
/-- Column `128 (t % 12) + q` is one of the 1536. -/
theorem col_lt0 (t : Fin cfg0.N) (q : Fin 128) : 128 * (t.val % 12) + q.val < 1536 := by
  have := q.isLt; omega

/-- A function of the two coordinates as a function of an index of the result array. -/
def ofCoords0 {α : Type} (G : Fin 512 → Fin 1536 → α) : S512x1536.Idx → α :=
  fun j => G ⟨(j 0).val, (j 0).isLt⟩ ⟨(j 1).val, (j 1).isLt⟩

theorem ofCoords0_ix2 {α : Type} (G : Fin 512 → Fin 1536 → α) (a : Fin 512) (b : Fin 1536) : ofCoords0 G (ix2 a b) = G a b := rfl

section Region0

variable (V : (c : Dev nD) → (b : Ref sig .tc) → Buf (Elt F) ((c : Thread nD τ).loc b))

/-- The rows' block at point `t`. -/
theorem iblk0_0_at (c : Dev nD) (t : Fin cfg0.N) (p : Fin 128) (k : Fin 512) :
    iblk0 V c 0 t (ix2 p k) = (V c main_v0 : S512x512.Idx → Elt F .f32) (ix2 (⟨128 * (t.val / 12) + p.val, row_lt0 t p⟩ : Fin 512) k) := by
  obtain ⟨h0, h1, -⟩ := idx_facts0 t
  show (V c main_v0 : S512x512.Idx → Elt F .f32) (((cfg0.win 0).blk t).view.emb (ix2 p k)) = _
  refine congrArg _ (funext fun a => Fin.ext ?_)
  match a with
  | ⟨0, _⟩ => show win0_0.index t (0 : Fin 2) * 128 + 1 * p.val = 128 * (t.val / 12) + p.val; omega
  | ⟨1, _⟩ => show win0_0.index t (1 : Fin 2) * 512 + 1 * k.val = k.val; omega

/-- The prototypes' block. -/
theorem iblk0_1_at (c : Dev nD) (t : Fin cfg0.N) (q : Fin 128) (k : Fin 512) :
    iblk0 V c 1 t (ix2 q k) = (V c main_v1 : S1536x512.Idx → Elt F .f32) (ix2 (⟨128 * (t.val % 12) + q.val, col_lt0 t q⟩ : Fin 1536) k) := by
  obtain ⟨-, -, h0, h1, -⟩ := idx_facts0 t
  show (V c main_v1 : S1536x512.Idx → Elt F .f32) (((cfg0.win 1).blk t).view.emb (ix2 q k)) = _
  refine congrArg _ (funext fun a => Fin.ext ?_)
  match a with
  | ⟨0, _⟩ => show win0_1.index t (0 : Fin 2) * 128 + 1 * q.val = 128 * (t.val % 12) + q.val; omega
  | ⟨1, _⟩ => show win0_1.index t (1 : Fin 2) * 512 + 1 * k.val = k.val; omega

/-- The features, whole. -/
theorem iblk0_2_at (c : Dev nD) (t : Fin cfg0.N) (k d : Fin 512) :
    iblk0 V c 2 t (ix2 k d) = (V c main_arg1 : S512x512.Idx → Elt F .f32) (ix2 k d) := by
  obtain ⟨-, -, -, -, h0, h1, -⟩ := idx_facts0 t
  show (V c main_arg1 : S512x512.Idx → Elt F .f32) (((cfg0.win 2).blk t).view.emb (ix2 k d)) = _
  refine congrArg _ (funext fun a => Fin.ext ?_)
  match a with
  | ⟨0, _⟩ => show win0_2.index t (0 : Fin 2) * 512 + 1 * k.val = k.val; omega
  | ⟨1, _⟩ => show win0_2.index t (1 : Fin 2) * 512 + 1 * d.val = d.val; omega

/-- The prototypes' biases. -/
theorem iblk0_3_at (c : Dev nD) (t : Fin cfg0.N) (u : Fin 1) (q : Fin 128) :
    iblk0 V c 3 t (ix2 u q) = (V c main_v3 : S1x1536.Idx → Elt F .f32) (ix2 u (⟨128 * (t.val % 12) + q.val, col_lt0 t q⟩ : Fin 1536)) := by
  obtain ⟨-, -, -, -, -, -, h0, h1, -⟩ := idx_facts0 t
  show (V c main_v3 : S1x1536.Idx → Elt F .f32) (((cfg0.win 3).blk t).view.emb (ix2 u q)) = _
  refine congrArg _ (funext fun a => Fin.ext ?_)
  match a with
  | ⟨0, _⟩ => show win0_3.index t (0 : Fin 2) * 1 + 1 * u.val = u.val; omega
  | ⟨1, _⟩ => show win0_3.index t (1 : Fin 2) * 128 + 1 * q.val = 128 * (t.val % 12) + q.val; omega

/-- The three scalars. -/
theorem iblk0_4_at (c : Dev nD) (t : Fin cfg0.N) (u v : Fin 1) :
    iblk0 V c 4 t (ix2 u v) = (V c main_v4 : S1x1.Idx → Elt F .f32) (ix2 u v) := by
  obtain ⟨-, -, -, -, -, -, -, -, h0, h1, -⟩ := idx_facts0 t
  show (V c main_v4 : S1x1.Idx → Elt F .f32) (((cfg0.win 4).blk t).view.emb (ix2 u v)) = _
  refine congrArg _ (funext fun a => Fin.ext ?_)
  match a with
  | ⟨0, _⟩ => show win0_4.index t (0 : Fin 2) * 1 + 1 * u.val = u.val; omega
  | ⟨1, _⟩ => show win0_4.index t (1 : Fin 2) * 1 + 1 * v.val = v.val; omega
theorem iblk0_5_at (c : Dev nD) (t : Fin cfg0.N) (u v : Fin 1) :
    iblk0 V c 5 t (ix2 u v) = (V c main_v5 : S1x1.Idx → Elt F .f32) (ix2 u v) := by
  obtain ⟨-, -, -, -, -, -, -, -, -, -, h0, h1, -⟩ := idx_facts0 t
  show (V c main_v5 : S1x1.Idx → Elt F .f32) (((cfg0.win 5).blk t).view.emb (ix2 u v)) = _
  refine congrArg _ (funext fun a => Fin.ext ?_)
  match a with
  | ⟨0, _⟩ => show win0_5.index t (0 : Fin 2) * 1 + 1 * u.val = u.val; omega
  | ⟨1, _⟩ => show win0_5.index t (1 : Fin 2) * 1 + 1 * v.val = v.val; omega
theorem iblk0_6_at (c : Dev nD) (t : Fin cfg0.N) (u v : Fin 1) :
    iblk0 V c 6 t (ix2 u v) = (V c main_v6 : S1x1.Idx → Elt F .f32) (ix2 u v) := by
  obtain ⟨-, -, -, -, -, -, -, -, -, -, -, -, h0, h1, -⟩ := idx_facts0 t
  show (V c main_v6 : S1x1.Idx → Elt F .f32) (((cfg0.win 6).blk t).view.emb (ix2 u v)) = _
  refine congrArg _ (funext fun a => Fin.ext ?_)
  match a with
  | ⟨0, _⟩ => show win0_6.index t (0 : Fin 2) * 1 + 1 * u.val = u.val; omega
  | ⟨1, _⟩ => show win0_6.index t (1 : Fin 2) * 1 + 1 * v.val = v.val; omega

/-- An entry of the result array lies in point `t`'s output block iff each coordinate is in the block's range. -/
theorem mem_blk0 (t : Fin cfg0.N) (j : S512x1536.Idx) :
    j ∈ ((cfg0.win 7).blk t).view.set ↔ ∀ a : Fin 2, win0_7.index t a * S128x128.size a ≤ (j a).val
      ∧ (j a).val < win0_7.index t a * S128x128.size a + S128x128.size a := by
  show j ∈ ((View.whole main_v7).slice (win0_7.rect t)).set ↔ _
  rw [View.set_slice_whole, Rect.mem_set_unit]
  exact Iff.rfl

/-- Point `t`'s output block of ANY contents `X` of the result array. -/
theorem read_blk0_7 (t : Fin cfg0.N) (X : S512x1536.Idx → Elt F .f32) (p q : Fin 128) :
    ((cfg0.win 7).blk t).view.read (Elt F) X (ix2 p q)
      = X (ix2 (⟨128 * (t.val / 12) + p.val, row_lt0 t p⟩ : Fin 512) (⟨128 * (t.val % 12) + q.val, col_lt0 t q⟩ : Fin 1536)) := by
  obtain ⟨-, -, -, -, -, -, -, -, -, -, -, -, -, -, h0, h1⟩ := idx_facts0 t
  show X (((cfg0.win 7).blk t).view.emb (ix2 p q)) = _
  refine congrArg _ (funext fun a => Fin.ext ?_)
  match a with
  | ⟨0, _⟩ => show win0_7.index t (0 : Fin 2) * 128 + 1 * p.val = 128 * (t.val / 12) + p.val; omega
  | ⟨1, _⟩ => show win0_7.index t (1 : Fin 2) * 128 + 1 * q.val = 128 * (t.val % 12) + q.val; omega

/-- What point `t` writes back is what the body left in the output window's buffer there. -/
theorem flushed0_7_at (c : Dev nD) (t : Fin cfg0.N) (y : S128x128.Idx) :
    (dat0 V c).flushed 7 t y = outsAt0 V c t y := by
  show (cfg0.win 7).cut (grid0.coords t) ((dat0 V c).after 7 t) y = _
  rw [after0_7]
  rfl

/-- So, for ANY pointwise description `G` of what the body leaves, point `t` writes back its block of `G`. -/
theorem flushed0_eq (c : Dev nD) (G : Fin 512 → Fin 1536 → Elt F .f32)
    (hG : ∀ (t : Fin cfg0.N) (p q : Fin 128),
      outsAt0 V c t (ix2 p q) = G ⟨128 * (t.val / 12) + p.val, row_lt0 t p⟩ ⟨128 * (t.val % 12) + q.val, col_lt0 t q⟩)
    (t : Fin cfg0.N) :
    (dat0 V c).flushed 7 t = ((cfg0.win 7).blk t).view.read (Elt F) (ofCoords0 G) := by
  have key : ∀ y' : S128x128.Idx, outsAt0 V c t y' = ((cfg0.win 7).blk t).view.read (Elt F) (ofCoords0 G) y' := by
    intro y'
    obtain ⟨p, q, rfl⟩ : ∃ (p q : Fin 128), y' = ix2 p q := ⟨y' 0, y' 1, eq_ix2 y'⟩
    rw [hG t p q, read_blk0_7 t (ofCoords0 G) p q, ofCoords0_ix2]
  funext y
  exact (flushed0_7_at V c t y).trans (key y)

/-- The output blocks cover the result array: entry `(n, r)` is in the block of point `12 (n / 128) + r / 128`. -/
theorem cover0 (j : S512x1536.Idx) : ∃ t : Fin cfg0.N, (cfg0.win 7).flush t = true ∧ j ∈ ((cfg0.win 7).blk t).view.set := by
  have hj0 : (j 0).val < 512 := (j 0).isLt
  have hj1 : (j 1).val < 1536 := (j 1).isLt
  have hN : cfg0.N = 48 := N0_eq
  obtain ⟨t, ht⟩ : ∃ t : Fin cfg0.N, t.val = 12 * ((j 0).val / 128) + (j 1).val / 128 := ⟨⟨12 * ((j 0).val / 128) + (j 1).val / 128, by omega⟩, rfl⟩
  obtain ⟨-, -, -, -, -, -, -, -, -, -, -, -, -, -, h0, h1⟩ := idx_facts0 t
  refine ⟨t, flush0_7 t, ?_⟩
  rw [mem_blk0]
  intro a
  match a with
  | ⟨0, _⟩ => show win0_7.index t (0 : Fin 2) * 128 ≤ (j 0).val ∧ (j 0).val < win0_7.index t (0 : Fin 2) * 128 + 128; omega
  | ⟨1, _⟩ => show win0_7.index t (1 : Fin 2) * 128 ≤ (j 1).val ∧ (j 1).val < win0_7.index t (1 : Fin 2) * 128 + 128; omega

/-- THE RESULT ARRAY of the call, from ANY pointwise description `G` of what the body leaves: if at every point the
    body's block is `G` at the point's rows and columns, the array ends holding `G`. -/
theorem arr0_of_blocks (c : Dev nD) (G : Fin 512 → Fin 1536 → Elt F .f32)
    (hG : ∀ (t : Fin cfg0.N) (p q : Fin 128),
      outsAt0 V c t (ix2 p q) = G ⟨128 * (t.val / 12) + p.val, row_lt0 t p⟩ ⟨128 * (t.val % 12) + q.val, col_lt0 t q⟩)
    (n : Fin 512) (r : Fin 1536) :
    ((dat0 V c).arrAt 7 cfg0.N : S512x1536.Idx → Elt F .f32) (ix2 n r) = G n r := by
  have key := (dat0 V c).arrAt_eq_of_cover 7 (ofCoords0 G) (fun t _ => flushed0_eq V c G hG t) cover0
  exact (congrFun key (ix2 n r)).trans (ofCoords0_ix2 G n r)

end Region0

end Cert.KernelIdeal.Hand

end
-- ==== Proof.Val.Arr1.lean ====
/-
  The attention call's arrays, from its blocks. The call visits four grid points; at point `t` every window's block is the
  pair of heads `2t, 2t + 1` (all 512 rows, all 64 columns). So entry `(g, i, e)` of a block at point `t` is entry
  `(2t + g, i, e)` of its array, the four output blocks tile the [8, 512, 64] result, and the result array ends holding,
  at each entry, what the body computed there from the point's three input blocks.
-/
import proofs.«150770_j35493609734446_2_alg».proof.Proof.KI.Reg1
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable {F : FTy → Type} [FloatOps F]

/-- The attention call has four grid points. -/
theorem N1_eq : cfg1.N = 4 := N_1

/-- The printed index maps, decided over the four points: every window's block index is `(t, 0, 0)`. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- Head `2t + g` is one of the eight. -/
theorem head_lt (t : Fin cfg1.N) (g : Fin 2) : 2 * t.val + g.val < 8 := by
  have h := t.isLt; have hN : cfg1.N = 4 := N1_eq; have := g.isLt; omega

/-- A function of the three coordinates as a function of an index of the [8, 512, 64] array. -/
def ofCoords3 {α : Type} (G : Fin 8 → Fin 512 → Fin 64 → α) : S8x512x64.Idx → α :=
  fun j => G ⟨(j 0).val, (j 0).isLt⟩ ⟨(j 1).val, (j 1).isLt⟩ ⟨(j 2).val, (j 2).isLt⟩

theorem ofCoords3_ix3 {α : Type} (G : Fin 8 → Fin 512 → Fin 64 → α) (a : Fin 8) (b : Fin 512) (c : Fin 64) :
    ofCoords3 G (ix3 a b c) = G a b c := rfl

section Region1

variable (V : (c : Dev nD) → (b : Ref sig .tc) → Buf (Elt F) ((c : Thread nD τ).loc b))

/-- The queries' block at point `t`: heads `2t, 2t + 1` of the array the call finds. -/
theorem iblk1_0_at (c : Dev nD) (t : Fin cfg1.N) (g : Fin 2) (i : Fin 512) (e : Fin 64) :
    iblk1 V c 0 t (ix3 g i e) = (V c main_v13 : S8x512x64.Idx → Elt F .f32) (ix3 (⟨2 * t.val + g.val, head_lt t g⟩ : Fin 8) i e) := by
  obtain ⟨h0, h1, h2, -⟩ := idx_facts1 t
  show (V c main_v13 : S8x512x64.Idx → Elt F .f32) (((cfg1.win 0).blk t).view.emb (ix3 g i e)) = _
  refine congrArg _ (funext fun a => Fin.ext ?_)
  match a with
  | ⟨0, _⟩ => show win1_0.index t (0 : Fin 3) * 2 + 1 * g.val = 2 * t.val + g.val; omega
  | ⟨1, _⟩ => show win1_0.index t (1 : Fin 3) * 512 + 1 * i.val = i.val; omega
  | ⟨2, _⟩ => show win1_0.index t (2 : Fin 3) * 64 + 1 * e.val = e.val; omega

/-- The keys' block. -/
theorem iblk1_1_at (c : Dev nD) (t : Fin cfg1.N) (g : Fin 2) (i : Fin 512) (e : Fin 64) :
    iblk1 V c 1 t (ix3 g i e) = (V c main_v16 : S8x512x64.Idx → Elt F .f32) (ix3 (⟨2 * t.val + g.val, head_lt t g⟩ : Fin 8) i e) := by
  obtain ⟨-, -, -, h0, h1, h2, -⟩ := idx_facts1 t
  show (V c main_v16 : S8x512x64.Idx → Elt F .f32) (((cfg1.win 1).blk t).view.emb (ix3 g i e)) = _
  refine congrArg _ (funext fun a => Fin.ext ?_)
  match a with
  | ⟨0, _⟩ => show win1_1.index t (0 : Fin 3) * 2 + 1 * g.val = 2 * t.val + g.val; omega
  | ⟨1, _⟩ => show win1_1.index t (1 : Fin 3) * 512 + 1 * i.val = i.val; omega
  | ⟨2, _⟩ => show win1_1.index t (2 : Fin 3) * 64 + 1 * e.val = e.val; omega

/-- The values' block. -/
theorem iblk1_2_at (c : Dev nD) (t : Fin cfg1.N) (g : Fin 2) (i : Fin 512) (e : Fin 64) :
    iblk1 V c 2 t (ix3 g i e) = (V c main_v19 : S8x512x64.Idx → Elt F .f32) (ix3 (⟨2 * t.val + g.val, head_lt t g⟩ : Fin 8) i e) := by
  obtain ⟨-, -, -, -, -, -, h0, h1, h2, -⟩ := idx_facts1 t
  show (V c main_v19 : S8x512x64.Idx → Elt F .f32) (((cfg1.win 2).blk t).view.emb (ix3 g i e)) = _
  refine congrArg _ (funext fun a => Fin.ext ?_)
  match a with
  | ⟨0, _⟩ => show win1_2.index t (0 : Fin 3) * 2 + 1 * g.val = 2 * t.val + g.val; omega
  | ⟨1, _⟩ => show win1_2.index t (1 : Fin 3) * 512 + 1 * i.val = i.val; omega
  | ⟨2, _⟩ => show win1_2.index t (2 : Fin 3) * 64 + 1 * e.val = e.val; omega

/-- An entry of the result array lies in point `t`'s output block iff each coordinate is in the block's range. -/
theorem mem_blk1 (t : Fin cfg1.N) (j : S8x512x64.Idx) :
    j ∈ ((cfg1.win 3).blk t).view.set ↔ ∀ a : Fin 3, win1_3.index t a * S2x512x64.size a ≤ (j a).val
      ∧ (j a).val < win1_3.index t a * S2x512x64.size a + S2x512x64.size a := by
  show j ∈ ((View.whole main_v20).slice (win1_3.rect t)).set ↔ _
  rw [View.set_slice_whole, Rect.mem_set_unit]
  exact Iff.rfl

/-- Point `t`'s output block of ANY contents `X` of the result array: heads `2t, 2t + 1`. -/
theorem read_blk1_3 (t : Fin cfg1.N) (X : S8x512x64.Idx → Elt F .f32) (g : Fin 2) (i : Fin 512) (e : Fin 64) :
    ((cfg1.win 3).blk t).view.read (Elt F) X (ix3 g i e) = X (ix3 (⟨2 * t.val + g.val, head_lt t g⟩ : Fin 8) i e) := by
  obtain ⟨-, -, -, -, -, -, -, -, -, h0, h1, h2⟩ := idx_facts1 t
  show X (((cfg1.win 3).blk t).view.emb (ix3 g i e)) = _
  refine congrArg _ (funext fun a => Fin.ext ?_)
  match a with
  | ⟨0, _⟩ => show win1_3.index t (0 : Fin 3) * 2 + 1 * g.val = 2 * t.val + g.val; omega
  | ⟨1, _⟩ => show win1_3.index t (1 : Fin 3) * 512 + 1 * i.val = i.val; omega
  | ⟨2, _⟩ => show win1_3.index t (2 : Fin 3) * 64 + 1 * e.val = e.val; omega

/-- What point `t` writes back, entry by entry: the body's block of the point's three input blocks. -/
theorem flushed1_3_at (c : Dev nD) (t : Fin cfg1.N) (y : S2x512x64.Idx) :
    (dat1 V c).flushed 3 t y = atOut1 (iblk1 V c 0 t) (iblk1 V c 1 t) (iblk1 V c 2 t) y := by
  show (cfg1.win 3).cut (grid1.coords t) ((dat1 V c).after 3 t) y = _
  rw [after1_3, out1_3_eq]
  rfl

/-- So, for ANY pointwise description `G` of what the body leaves (at heads `2t, 2t + 1`), point `t` writes back its
    block of `G`. -/
theorem flushed1_eq (c : Dev nD) (G : Fin 8 → Fin 512 → Fin 64 → Elt F .f32)
    (hG : ∀ (t : Fin cfg1.N) (g : Fin 2) (i : Fin 512) (e : Fin 64),
      atOut1 (iblk1 V c 0 t) (iblk1 V c 1 t) (iblk1 V c 2 t) (ix3 g i e) = G ⟨2 * t.val + g.val, head_lt t g⟩ i e)
    (t : Fin cfg1.N) :
    (dat1 V c).flushed 3 t = ((cfg1.win 3).blk t).view.read (Elt F) (ofCoords3 G) := by
  have key : ∀ y' : S2x512x64.Idx, atOut1 (iblk1 V c 0 t) (iblk1 V c 1 t) (iblk1 V c 2 t) y'
      = ((cfg1.win 3).blk t).view.read (Elt F) (ofCoords3 G) y' := by
    intro y'
    obtain ⟨g, i, e, rfl⟩ : ∃ (g : Fin 2) (i : Fin 512) (e : Fin 64), y' = ix3 g i e := ⟨y' 0, y' 1, y' 2, eq_ix3 y'⟩
    rw [hG t g i e, read_blk1_3 t (ofCoords3 G) g i e, ofCoords3_ix3]
  funext y
  exact (flushed1_3_at V c t y).trans (key y)

/-- The four output blocks cover the result array: entry `(h, i, e)` is in point `h / 2`'s. -/
theorem cover1 (j : S8x512x64.Idx) : ∃ t : Fin cfg1.N, (cfg1.win 3).flush t = true ∧ j ∈ ((cfg1.win 3).blk t).view.set := by
  have hj0 : (j 0).val < 8 := (j 0).isLt
  have hj1 : (j 1).val < 512 := (j 1).isLt
  have hj2 : (j 2).val < 64 := (j 2).isLt
  have hN : cfg1.N = 4 := N1_eq
  obtain ⟨t, ht⟩ : ∃ t : Fin cfg1.N, t.val = (j 0).val / 2 := ⟨⟨(j 0).val / 2, by omega⟩, rfl⟩
  obtain ⟨-, -, -, -, -, -, -, -, -, h0, h1, h2⟩ := idx_facts1 t
  refine ⟨t, flush1_3 t, ?_⟩
  rw [mem_blk1]
  intro a
  match a with
  | ⟨0, _⟩ => show win1_3.index t (0 : Fin 3) * 2 ≤ (j 0).val ∧ (j 0).val < win1_3.index t (0 : Fin 3) * 2 + 2; omega
  | ⟨1, _⟩ => show win1_3.index t (1 : Fin 3) * 512 ≤ (j 1).val ∧ (j 1).val < win1_3.index t (1 : Fin 3) * 512 + 512; omega
  | ⟨2, _⟩ => show win1_3.index t (2 : Fin 3) * 64 ≤ (j 2).val ∧ (j 2).val < win1_3.index t (2 : Fin 3) * 64 + 64; omega

/-- THE RESULT ARRAY of the attention call, from ANY pointwise description `G` of what the body leaves: if at every
    point the body's block is `G` at heads `2t, 2t + 1`, the array ends holding `G`. -/
theorem arr1_of_blocks (c : Dev nD) (G : Fin 8 → Fin 512 → Fin 64 → Elt F .f32)
    (hG : ∀ (t : Fin cfg1.N) (g : Fin 2) (i : Fin 512) (e : Fin 64),
      atOut1 (iblk1 V c 0 t) (iblk1 V c 1 t) (iblk1 V c 2 t) (ix3 g i e) = G ⟨2 * t.val + g.val, head_lt t g⟩ i e)
    (hd : Fin 8) (i : Fin 512) (e : Fin 64) :
    ((dat1 V c).arrAt 3 cfg1.N : S8x512x64.Idx → Elt F .f32) (ix3 hd i e) = G hd i e := by
  have key := (dat1 V c).arrAt_eq_of_cover 3 (ofCoords3 G) (fun t _ => flushed1_eq V c G hG t) cover1
  exact (congrFun key (ix3 hd i e)).trans (ofCoords3_ix3 G hd i e)

end Region1

end Cert.KernelIdeal.Hand

end
-- ==== Proof.Val.Arr2.lean ====
/-
  The second Tversky call's arrays, from its blocks. The call visits a 4 × 4 grid, point `t` being row block `t / 4` and
  column block `t % 4`: its rows' block is rows `128 (t / 4) …` of the rows' array, its prototypes' block is prototypes
  `128 (t % 4) …`, with the matching 128 biases; the features and the three scalars are whole. The 16 output blocks of
  128 × 128 tile the [512, 512] result, which therefore ends holding, entry by entry, what the body computed there.
-/
import proofs.«150770_j35493609734446_2_alg».proof.Proof.KI.Reg2
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable {F : FTy → Type} [FloatOps F]

/-- The call has 16 grid points. -/
theorem N2_eq : cfg2.N = 16 := N_2

/-- The printed index maps, decided over the grid. -/
theorem idx_facts2 : ∀ t : Fin cfg2.N,
    win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = t.val % 4
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val / 4 ∧ win2_7.index t (1 : Fin 2) = t.val % 4 :=
  (by decide +kernel : ∀ t : Fin grid2.N, _)

/-- Row `128 (t / 4) + p` is one of the 512. -/
theorem row_lt2 (t : Fin cfg2.N) (p : Fin 128) : 128 * (t.val / 4) + p.val < 512 := by
  have h := t.isLt; have hN : cfg2.N = 16 := N2_eq; have := p.isLt; omega
/-- Column `128 (t % 4) + q` is one of the 512. -/
theorem col_lt2 (t : Fin cfg2.N) (q : Fin 128) : 128 * (t.val % 4) + q.val < 512 := by
  have := q.isLt; omega

/-- A function of the two coordinates as a function of an index of the result array. -/
def ofCoords2 {α : Type} (G : Fin 512 → Fin 512 → α) : S512x512.Idx → α :=
  fun j => G ⟨(j 0).val, (j 0).isLt⟩ ⟨(j 1).val, (j 1).isLt⟩

theorem ofCoords2_ix2 {α : Type} (G : Fin 512 → Fin 512 → α) (a : Fin 512) (b : Fin 512) : ofCoords2 G (ix2 a b) = G a b := rfl

section Region2

variable (V : (c : Dev nD) → (b : Ref sig .tc) → Buf (Elt F) ((c : Thread nD τ).loc b))

/-- The rows' block at point `t`. -/
theorem iblk2_0_at (c : Dev nD) (t : Fin cfg2.N) (p : Fin 128) (k : Fin 512) :
    iblk2 V c 0 t (ix2 p k) = (V c main_v23 : S512x512.Idx → Elt F .f32) (ix2 (⟨128 * (t.val / 4) + p.val, row_lt2 t p⟩ : Fin 512) k) := by
  obtain ⟨h0, h1, -⟩ := idx_facts2 t
  show (V c main_v23 : S512x512.Idx → Elt F .f32) (((cfg2.win 0).blk t).view.emb (ix2 p k)) = _
  refine congrArg _ (funext fun a => Fin.ext ?_)
  match a with
  | ⟨0, _⟩ => show win2_0.index t (0 : Fin 2) * 128 + 1 * p.val = 128 * (t.val / 4) + p.val; omega
  | ⟨1, _⟩ => show win2_0.index t (1 : Fin 2) * 512 + 1 * k.val = k.val; omega

/-- The prototypes' block. -/
theorem iblk2_1_at (c : Dev nD) (t : Fin cfg2.N) (q : Fin 128) (k : Fin 512) :
    iblk2 V c 1 t (ix2 q k) = (V c main_arg11 : S512x512.Idx → Elt F .f32) (ix2 (⟨128 * (t.val % 4) + q.val, col_lt2 t q⟩ : Fin 512) k) := by
  obtain ⟨-, -, h0, h1, -⟩ := idx_facts2 t
  show (V c main_arg11 : S512x512.Idx → Elt F .f32) (((cfg2.win 1).blk t).view.emb (ix2 q k)) = _
  refine congrArg _ (funext fun a => Fin.ext ?_)
  match a with
  | ⟨0, _⟩ => show win2_1.index t (0 : Fin 2) * 128 + 1 * q.val = 128 * (t.val % 4) + q.val; omega
  | ⟨1, _⟩ => show win2_1.index t (1 : Fin 2) * 512 + 1 * k.val = k.val; omega

/-- The features, whole. -/
theorem iblk2_2_at (c : Dev nD) (t : Fin cfg2.N) (k d : Fin 512) :
    iblk2 V c 2 t (ix2 k d) = (V c main_arg1 : S512x512.Idx → Elt F .f32) (ix2 k d) := by
  obtain ⟨-, -, -, -, h0, h1, -⟩ := idx_facts2 t
  show (V c main_arg1 : S512x512.Idx → Elt F .f32) (((cfg2.win 2).blk t).view.emb (ix2 k d)) = _
  refine congrArg _ (funext fun a => Fin.ext ?_)
  match a with
  | ⟨0, _⟩ => show win2_2.index t (0 : Fin 2) * 512 + 1 * k.val = k.val; omega
  | ⟨1, _⟩ => show win2_2.index t (1 : Fin 2) * 512 + 1 * d.val = d.val; omega

/-- The prototypes' biases. -/
theorem iblk2_3_at (c : Dev nD) (t : Fin cfg2.N) (u : Fin 1) (q : Fin 128) :
    iblk2 V c 3 t (ix2 u q) = (V c main_v24 : S1x512.Idx → Elt F .f32) (ix2 u (⟨128 * (t.val % 4) + q.val, col_lt2 t q⟩ : Fin 512)) := by
  obtain ⟨-, -, -, -, -, -, h0, h1, -⟩ := idx_facts2 t
  show (V c main_v24 : S1x512.Idx → Elt F .f32) (((cfg2.win 3).blk t).view.emb (ix2 u q)) = _
  refine congrArg _ (funext fun a => Fin.ext ?_)
  match a with
  | ⟨0, _⟩ => show win2_3.index t (0 : Fin 2) * 1 + 1 * u.val = u.val; omega
  | ⟨1, _⟩ => show win2_3.index t (1 : Fin 2) * 128 + 1 * q.val = 128 * (t.val % 4) + q.val; omega

/-- The three scalars. -/
theorem iblk2_4_at (c : Dev nD) (t : Fin cfg2.N) (u v : Fin 1) :
    iblk2 V c 4 t (ix2 u v) = (V c main_v25 : S1x1.Idx → Elt F .f32) (ix2 u v) := by
  obtain ⟨-, -, -, -, -, -, -, -, h0, h1, -⟩ := idx_facts2 t
  show (V c main_v25 : S1x1.Idx → Elt F .f32) (((cfg2.win 4).blk t).view.emb (ix2 u v)) = _
  refine congrArg _ (funext fun a => Fin.ext ?_)
  match a with
  | ⟨0, _⟩ => show win2_4.index t (0 : Fin 2) * 1 + 1 * u.val = u.val; omega
  | ⟨1, _⟩ => show win2_4.index t (1 : Fin 2) * 1 + 1 * v.val = v.val; omega
theorem iblk2_5_at (c : Dev nD) (t : Fin cfg2.N) (u v : Fin 1) :
    iblk2 V c 5 t (ix2 u v) = (V c main_v26 : S1x1.Idx → Elt F .f32) (ix2 u v) := by
  obtain ⟨-, -, -, -, -, -, -, -, -, -, h0, h1, -⟩ := idx_facts2 t
  show (V c main_v26 : S1x1.Idx → Elt F .f32) (((cfg2.win 5).blk t).view.emb (ix2 u v)) = _
  refine congrArg _ (funext fun a => Fin.ext ?_)
  match a with
  | ⟨0, _⟩ => show win2_5.index t (0 : Fin 2) * 1 + 1 * u.val = u.val; omega
  | ⟨1, _⟩ => show win2_5.index t (1 : Fin 2) * 1 + 1 * v.val = v.val; omega
theorem iblk2_6_at (c : Dev nD) (t : Fin cfg2.N) (u v : Fin 1) :
    iblk2 V c 6 t (ix2 u v) = (V c main_v27 : S1x1.Idx → Elt F .f32) (ix2 u v) := by
  obtain ⟨-, -, -, -, -, -, -, -, -, -, -, -, h0, h1, -⟩ := idx_facts2 t
  show (V c main_v27 : S1x1.Idx → Elt F .f32) (((cfg2.win 6).blk t).view.emb (ix2 u v)) = _
  refine congrArg _ (funext fun a => Fin.ext ?_)
  match a with
  | ⟨0, _⟩ => show win2_6.index t (0 : Fin 2) * 1 + 1 * u.val = u.val; omega
  | ⟨1, _⟩ => show win2_6.index t (1 : Fin 2) * 1 + 1 * v.val = v.val; omega

/-- An entry of the result array lies in point `t`'s output block iff each coordinate is in the block's range. -/
theorem mem_blk2 (t : Fin cfg2.N) (j : S512x512.Idx) :
    j ∈ ((cfg2.win 7).blk t).view.set ↔ ∀ a : Fin 2, win2_7.index t a * S128x128.size a ≤ (j a).val
      ∧ (j a).val < win2_7.index t a * S128x128.size a + S128x128.size a := by
  show j ∈ ((View.whole main_v28).slice (win2_7.rect t)).set ↔ _
  rw [View.set_slice_whole, Rect.mem_set_unit]
  exact Iff.rfl

/-- Point `t`'s output block of ANY contents `X` of the result array. -/
theorem read_blk2_7 (t : Fin cfg2.N) (X : S512x512.Idx → Elt F .f32) (p q : Fin 128) :
    ((cfg2.win 7).blk t).view.read (Elt F) X (ix2 p q)
      = X (ix2 (⟨128 * (t.val / 4) + p.val, row_lt2 t p⟩ : Fin 512) (⟨128 * (t.val % 4) + q.val, col_lt2 t q⟩ : Fin 512)) := by
  obtain ⟨-, -, -, -, -, -, -, -, -, -, -, -, -, -, h0, h1⟩ := idx_facts2 t
  show X (((cfg2.win 7).blk t).view.emb (ix2 p q)) = _
  refine congrArg _ (funext fun a => Fin.ext ?_)
  match a with
  | ⟨0, _⟩ => show win2_7.index t (0 : Fin 2) * 128 + 1 * p.val = 128 * (t.val / 4) + p.val; omega
  | ⟨1, _⟩ => show win2_7.index t (1 : Fin 2) * 128 + 1 * q.val = 128 * (t.val % 4) + q.val; omega

/-- What point `t` writes back is what the body left in the output window's buffer there. -/
theorem flushed2_7_at (c : Dev nD) (t : Fin cfg2.N) (y : S128x128.Idx) :
    (dat2 V c).flushed 7 t y = outsAt2 V c t y := by
  show (cfg2.win 7).cut (grid2.coords t) ((dat2 V c).after 7 t) y = _
  rw [after2_7]
  rfl

/-- So, for ANY pointwise description `G` of what the body leaves, point `t` writes back its block of `G`. -/
theorem flushed2_eq (c : Dev nD) (G : Fin 512 → Fin 512 → Elt F .f32)
    (hG : ∀ (t : Fin cfg2.N) (p q : Fin 128),
      outsAt2 V c t (ix2 p q) = G ⟨128 * (t.val / 4) + p.val, row_lt2 t p⟩ ⟨128 * (t.val % 4) + q.val, col_lt2 t q⟩)
    (t : Fin cfg2.N) :
    (dat2 V c).flushed 7 t = ((cfg2.win 7).blk t).view.read (Elt F) (ofCoords2 G) := by
  have key : ∀ y' : S128x128.Idx, outsAt2 V c t y' = ((cfg2.win 7).blk t).view.read (Elt F) (ofCoords2 G) y' := by
    intro y'
    obtain ⟨p, q, rfl⟩ : ∃ (p q : Fin 128), y' = ix2 p q := ⟨y' 0, y' 1, eq_ix2 y'⟩
    rw [hG t p q, read_blk2_7 t (ofCoords2 G) p q, ofCoords2_ix2]
  funext y
  exact (flushed2_7_at V c t y).trans (key y)

/-- The output blocks cover the result array: entry `(n, r)` is in the block of point `4 (n / 128) + r / 128`. -/
theorem cover2 (j : S512x512.Idx) : ∃ t : Fin cfg2.N, (cfg2.win 7).flush t = true ∧ j ∈ ((cfg2.win 7).blk t).view.set := by
  have hj0 : (j 0).val < 512 := (j 0).isLt
  have hj1 : (j 1).val < 512 := (j 1).isLt
  have hN : cfg2.N = 16 := N2_eq
  obtain ⟨t, ht⟩ : ∃ t : Fin cfg2.N, t.val = 4 * ((j 0).val / 128) + (j 1).val / 128 := ⟨⟨4 * ((j 0).val / 128) + (j 1).val / 128, by omega⟩, rfl⟩
  obtain ⟨-, -, -, -, -, -, -, -, -, -, -, -, -, -, h0, h1⟩ := idx_facts2 t
  refine ⟨t, flush2_7 t, ?_⟩
  rw [mem_blk2]
  intro a
  match a with
  | ⟨0, _⟩ => show win2_7.index t (0 : Fin 2) * 128 ≤ (j 0).val ∧ (j 0).val < win2_7.index t (0 : Fin 2) * 128 + 128; omega
  | ⟨1, _⟩ => show win2_7.index t (1 : Fin 2) * 128 ≤ (j 1).val ∧ (j 1).val < win2_7.index t (1 : Fin 2) * 128 + 128; omega

/-- THE RESULT ARRAY of the call, from ANY pointwise description `G` of what the body leaves: if at every point the
    body's block is `G` at the point's rows and columns, the array ends holding `G`. -/
theorem arr2_of_blocks (c : Dev nD) (G : Fin 512 → Fin 512 → Elt F .f32)
    (hG : ∀ (t : Fin cfg2.N) (p q : Fin 128),
      outsAt2 V c t (ix2 p q) = G ⟨128 * (t.val / 4) + p.val, row_lt2 t p⟩ ⟨128 * (t.val % 4) + q.val, col_lt2 t q⟩)
    (n : Fin 512) (r : Fin 512) :
    ((dat2 V c).arrAt 7 cfg2.N : S512x512.Idx → Elt F .f32) (ix2 n r) = G n r := by
  have key := (dat2 V c).arrAt_eq_of_cover 7 (ofCoords2 G) (fun t _ => flushed2_eq V c G hG t) cover2
  exact (congrFun key (ix2 n r)).trans (ofCoords2_ix2 G n r)

end Region2

end Cert.KernelIdeal.Hand

end
-- ==== Proof.Val.Host.lean ====
/-
  The host operations around the three kernel calls, read at an index, from ANY contents `W` of the buffers before the
  stretch. None of them computes: they re-lay arrays.

  Before the first call: the rows lose their leading unit axis; the query, key and value prototypes are stacked into one
  1536-row array (rows 0–511 the first, 512–1023 the second, 1024–1535 the third) and their biases likewise into one
  vector, laid as a single row; each scalar becomes a 1 × 1 array. Between the first and second call: the 1536 result
  columns are cut into three 512-column arrays and each is split into 8 heads of 64 columns — column `h·64 + e` of row
  `i` becomes entry `(h, i, e)`. Between the second and third: the heads are merged back, entry `(h, i, e)` to column
  `h·64 + e` of row `i`. After the third: the result gains a leading unit axis.
-/
import proofs.«150770_j35493609734446_2_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Idealize.ShloMosaic Idealize.ShloMosaic.TcCoe Idealize.SL.Sem Cert.KernelIdeal Cert.KernelIdeal.Gen
open Idealize.ShloMosaic.ValueIdx

variable {F : FTy → Type} [FloatOps F]

/-! ## Three arrays stacked along the rows, three vectors laid end to end -/

/-- Row `r` of three 512-row arrays stacked: the first for `r < 512`, the second for `512 ≤ r < 1024`, else the third. -/
def stack3 {α : Type} (a b c : (⟨2, ![512, 512]⟩ : Shape).Idx → α) (r : Fin 1536) (d : Fin 512) : α :=
  if h : r.val < 512 then a (ix2 (⟨r.val, h⟩ : Fin 512) d)
  else if h' : r.val < 1024 then b (ix2 (⟨r.val - 512, by omega⟩ : Fin 512) d)
  else c (ix2 (⟨r.val - 1024, by have := r.isLt; omega⟩ : Fin 512) d)

/-- Entry `r` of three 512-entry vectors laid end to end. -/
def join3 {α : Type} (a b c : (⟨1, ![512]⟩ : Shape).Idx → α) (r : Fin 1536) : α :=
  if h : r.val < 512 then a (ix1 (⟨r.val, h⟩ : Fin 512))
  else if h' : r.val < 1024 then b (ix1 (⟨r.val - 512, by omega⟩ : Fin 512))
  else c (ix1 (⟨r.val - 1024, by have := r.isLt; omega⟩ : Fin 512))

/-- A concatenation of three 512 × 512 arrays along the rows, read at an index. -/
theorem concat3_rows_apply {α : Type} (a b c : (⟨2, ![512, 512]⟩ : Shape).Idx → α)
    (h : Shape.Concatenates (([⟨⟨2, ![512, 512]⟩, a⟩, ⟨⟨2, ![512, 512]⟩, b⟩, ⟨⟨2, ![512, 512]⟩, c⟩] :
      List ((s : Shape) × (s.Idx → α))).map (·.1)) ⟨2, ![1536, 512]⟩ 0) (r : Fin 1536) (d : Fin 512) :
    concatenate ⟨2, ![1536, 512]⟩ 0 [⟨⟨2, ![512, 512]⟩, a⟩, ⟨⟨2, ![512, 512]⟩, b⟩, ⟨⟨2, ![512, 512]⟩, c⟩] h (ix2 r d)
      = stack3 a b c r d := by
  unfold stack3
  by_cases h0 : r.val < 512
  · rw [dif_pos h0]
    exact concatenate_apply_piece (0 : Fin 2) _ h (ix2 r d) 0 (by show (0 : ℕ) < 3; omega) ⟨2, ![512, 512]⟩ a rfl rfl 0 rfl
      (ix2 (⟨r.val, h0⟩ : Fin 512) d)
      (fun bb hb => by match bb with | ⟨0, _⟩ => exact absurd rfl hb | ⟨1, _⟩ => rfl)
      (by show 0 + r.val = r.val; omega)
  · rw [dif_neg h0]
    by_cases h1 : r.val < 1024
    · rw [dif_pos h1]
      exact concatenate_apply_piece (0 : Fin 2) _ h (ix2 r d) 1 (by show (1 : ℕ) < 3; omega) ⟨2, ![512, 512]⟩ b rfl rfl 512 rfl
        (ix2 (⟨r.val - 512, by omega⟩ : Fin 512) d)
        (fun bb hb => by match bb with | ⟨0, _⟩ => exact absurd rfl hb | ⟨1, _⟩ => rfl)
        (by show 512 + (r.val - 512) = r.val; omega)
    · rw [dif_neg h1]
      exact concatenate_apply_piece (0 : Fin 2) _ h (ix2 r d) 2 (by show (2 : ℕ) < 3; omega) ⟨2, ![512, 512]⟩ c rfl rfl 1024 rfl
        (ix2 (⟨r.val - 1024, by have := r.isLt; omega⟩ : Fin 512) d)
        (fun bb hb => by match bb with | ⟨0, _⟩ => exact absurd rfl hb | ⟨1, _⟩ => rfl)
        (by show 1024 + (r.val - 1024) = r.val; omega)

/-- A concatenation of three vectors of 512, read at an index. -/
theorem concat3_vec_apply {α : Type} (a b c : (⟨1, ![512]⟩ : Shape).Idx → α)
    (h : Shape.Concatenates (([⟨⟨1, ![512]⟩, a⟩, ⟨⟨1, ![512]⟩, b⟩, ⟨⟨1, ![512]⟩, c⟩] :
      List ((s : Shape) × (s.Idx → α))).map (·.1)) ⟨1, ![1536]⟩ 0) (r : Fin 1536) :
    concatenate ⟨1, ![1536]⟩ 0 [⟨⟨1, ![512]⟩, a⟩, ⟨⟨1, ![512]⟩, b⟩, ⟨⟨1, ![512]⟩, c⟩] h (ix1 r) = join3 a b c r := by
  unfold join3
  by_cases h0 : r.val < 512
  · rw [dif_pos h0]
    exact concatenate_apply_piece (0 : Fin 1) _ h (ix1 r) 0 (by show (0 : ℕ) < 3; omega) ⟨1, ![512]⟩ a rfl rfl 0 rfl
      (ix1 (⟨r.val, h0⟩ : Fin 512))
      (fun bb hb => by match bb with | ⟨0, _⟩ => exact absurd rfl hb)
      (by show 0 + r.val = r.val; omega)
  · rw [dif_neg h0]
    by_cases h1 : r.val < 1024
    · rw [dif_pos h1]
      exact concatenate_apply_piece (0 : Fin 1) _ h (ix1 r) 1 (by show (1 : ℕ) < 3; omega) ⟨1, ![512]⟩ b rfl rfl 512 rfl
        (ix1 (⟨r.val - 512, by omega⟩ : Fin 512))
        (fun bb hb => by match bb with | ⟨0, _⟩ => exact absurd rfl hb)
        (by show 512 + (r.val - 512) = r.val; omega)
    · rw [dif_neg h1]
      exact concatenate_apply_piece (0 : Fin 1) _ h (ix1 r) 2 (by show (2 : ℕ) < 3; omega) ⟨1, ![512]⟩ c rfl rfl 1024 rfl
        (ix1 (⟨r.val - 1024, by have := r.isLt; omega⟩ : Fin 512))
        (fun bb hb => by match bb with | ⟨0, _⟩ => exact absurd rfl hb)
        (by show 1024 + (r.val - 1024) = r.val; omega)

/-- A scalar laid as a 1 × 1 array holds the scalar. -/
theorem shapeCast_scalar_11_apply {α : Type} (x : (⟨0, ![]⟩ : Shape).Idx → α) (h : (⟨0, ![]⟩ : Shape).ShapeCasts ⟨2, ![1, 1]⟩)
    (u v : Fin 1) : shapeCast ⟨2, ![1, 1]⟩ x h (ix2 u v) = x ix0 :=
  shapeCast_apply x h _ _ (by
    have hu : u.val = 0 := by omega
    have hv : v.val = 0 := by omega
    rw [Shape.rowMajor_val_two]
    show ((⟨0, ![]⟩ : Shape).rowMajor ix0).val = u.val * 1 + v.val
    have : ((⟨0, ![]⟩ : Shape).rowMajor ix0).val < 1 := ((⟨0, ![]⟩ : Shape).rowMajor ix0).isLt
    omega)

/-! ## Heads split out of 512 columns, and merged back -/

/-- A 512 × 512 array viewed as [1, 512, 8, 64]: entry `(0, i, h, e)` is column `h·64 + e` of row `i`. -/
theorem shapeCast_split_heads_apply {α : Type} (x : (⟨2, ![512, 512]⟩ : Shape).Idx → α)
    (h : (⟨2, ![512, 512]⟩ : Shape).ShapeCasts ⟨4, ![1, 512, 8, 64]⟩) (u : Fin 1) (i : Fin 512) (hd : Fin 8) (e : Fin 64) :
    shapeCast ⟨4, ![1, 512, 8, 64]⟩ x h (ix4 u i hd e)
      = x (ix2 i (⟨hd.val * 64 + e.val, by have := hd.isLt; have := e.isLt; omega⟩ : Fin 512)) :=
  shapeCast_apply x h _ _ (by
    have hu : u.val = 0 := by omega
    rw [Shape.rowMajor_val_four, Shape.rowMajor_val_two]
    show i.val * 512 + (hd.val * 64 + e.val) = ((u.val * 512 + i.val) * 8 + hd.val) * 64 + e.val
    rw [hu]; omega)

/-- A [1, 512, 8, 64] array viewed as 512 × 512: column `h·64 + e` of row `i` is entry `(0, i, h, e)`. -/
theorem shapeCast_merge_heads_apply {α : Type} (x : (⟨4, ![1, 512, 8, 64]⟩ : Shape).Idx → α)
    (h : (⟨4, ![1, 512, 8, 64]⟩ : Shape).ShapeCasts ⟨2, ![512, 512]⟩) (i : Fin 512) (hd : Fin 8) (e : Fin 64) :
    shapeCast ⟨2, ![512, 512]⟩ x h (ix2 i (⟨hd.val * 64 + e.val, by have := hd.isLt; have := e.isLt; omega⟩ : Fin 512))
      = x (ix4 (0 : Fin 1) i hd e) :=
  shapeCast_apply x h _ _ (by
    rw [Shape.rowMajor_val_four, Shape.rowMajor_val_two]
    show ((0 * 512 + i.val) * 8 + hd.val) * 64 + e.val = i.val * 512 + (hd.val * 64 + e.val)
    omega)

/-- Rows and heads exchanged: entry `(0, h, i, e)` of the transpose is entry `(0, i, h, e)`. -/
theorem transpose_heads_apply {α : Type} (x : (⟨4, ![1, 512, 8, 64]⟩ : Shape).Idx → α)
    (h : (⟨4, ![1, 512, 8, 64]⟩ : Shape).Transposes [0, 2, 1, 3] ⟨4, ![1, 8, 512, 64]⟩) (u : Fin 1) (hd : Fin 8) (i : Fin 512) (e : Fin 64) :
    transpose ⟨4, ![1, 8, 512, 64]⟩ [0, 2, 1, 3] x h (ix4 u hd i e) = x (ix4 u i hd e) :=
  transpose_apply _ x h _ _ (fun b => by
    match b with
    | ⟨0, _⟩ => rfl
    | ⟨1, _⟩ => rfl
    | ⟨2, _⟩ => rfl
    | ⟨3, _⟩ => rfl)

/-- And back: entry `(0, i, h, e)` of the transpose is entry `(0, h, i, e)`. -/
theorem transpose_rows_apply {α : Type} (x : (⟨4, ![1, 8, 512, 64]⟩ : Shape).Idx → α)
    (h : (⟨4, ![1, 8, 512, 64]⟩ : Shape).Transposes [0, 2, 1, 3] ⟨4, ![1, 512, 8, 64]⟩) (u : Fin 1) (i : Fin 512) (hd : Fin 8) (e : Fin 64) :
    transpose ⟨4, ![1, 512, 8, 64]⟩ [0, 2, 1, 3] x h (ix4 u i hd e) = x (ix4 u hd i e) :=
  transpose_apply _ x h _ _ (fun b => by
    match b with
    | ⟨0, _⟩ => rfl
    | ⟨1, _⟩ => rfl
    | ⟨2, _⟩ => rfl
    | ⟨3, _⟩ => rfl)

/-! ## The four stretches, from any contents `W` of the buffers before them -/

section Stretches

variable (W : Valuation τ sig (Elt F))

/-! ### Before the first call -/

/-- The rows without their leading unit axis. -/
theorem host0_v0 (n d : Fin 512) :
    (StableHlo.after hostOps0 W main_v0 : S512x512.Idx → Elt F .f32) (ix2 n d)
      = (W main_arg0 : S1x512x512.Idx → Elt F .f32) (ix3 (0 : Fin 1) n d) := by
  have e : (StableHlo.after hostOps0 W main_v0 : S512x512.Idx → Elt F .f32)
      = shapeCast S512x512 (W main_arg0 : S1x512x512.Idx → Elt F .f32) shapeCasts_S1x512x512_S512x512 := by
    after_results; rfl
  rw [e]; exact shapeCast_1ab_ab_apply _ _ n d

/-- The three prototype arrays stacked. -/
theorem host0_v1 (r : Fin 1536) (d : Fin 512) :
    (StableHlo.after hostOps0 W main_v1 : S1536x512.Idx → Elt F .f32) (ix2 r d)
      = stack3 (W main_arg5 : S512x512.Idx → Elt F .f32) (W main_arg7 : S512x512.Idx → Elt F .f32) (W main_arg9 : S512x512.Idx → Elt F .f32) r d := by
  have e : (StableHlo.after hostOps0 W main_v1 : S1536x512.Idx → Elt F .f32)
      = concatenate S1536x512 0 [⟨S512x512, (W main_arg5 : S512x512.Idx → Elt F .f32)⟩, ⟨S512x512, (W main_arg7 : S512x512.Idx → Elt F .f32)⟩,
          ⟨S512x512, (W main_arg9 : S512x512.Idx → Elt F .f32)⟩] concatenates_S512x512_S512x512_S512x512_S1536x512_d0 := by
    after_results; rfl
  rw [e]; exact concat3_rows_apply _ _ _ _ r d

/-- The three bias vectors laid end to end, as one row. -/
theorem host0_v3 (u : Fin 1) (r : Fin 1536) :
    (StableHlo.after hostOps0 W main_v3 : S1x1536.Idx → Elt F .f32) (ix2 u r)
      = join3 (W main_arg6 : S512.Idx → Elt F .f32) (W main_arg8 : S512.Idx → Elt F .f32) (W main_arg10 : S512.Idx → Elt F .f32) r := by
  have e : (StableHlo.after hostOps0 W main_v3 : S1x1536.Idx → Elt F .f32)
      = shapeCast S1x1536 (concatenate S1536 0 [⟨S512, (W main_arg6 : S512.Idx → Elt F .f32)⟩, ⟨S512, (W main_arg8 : S512.Idx → Elt F .f32)⟩,
          ⟨S512, (W main_arg10 : S512.Idx → Elt F .f32)⟩] concatenates_S512_S512_S512_S1536_d0) shapeCasts_S1536_S1x1536 := by
    after_results; rfl
  rw [e]
  refine (shapeCast_a_1a_apply _ _ u r).trans ?_
  exact concat3_vec_apply _ _ _ _ r

/-- The three scalars, each as a 1 × 1 array. -/
theorem host0_v4 (u v : Fin 1) :
    (StableHlo.after hostOps0 W main_v4 : S1x1.Idx → Elt F .f32) (ix2 u v) = (W main_arg2 : S_.Idx → Elt F .f32) ix0 := by
  have e : (StableHlo.after hostOps0 W main_v4 : S1x1.Idx → Elt F .f32)
      = shapeCast S1x1 (W main_arg2 : S_.Idx → Elt F .f32) shapeCasts_S_S1x1 := by
    after_results; rfl
  rw [e]; exact shapeCast_scalar_11_apply _ _ u v
theorem host0_v5 (u v : Fin 1) :
    (StableHlo.after hostOps0 W main_v5 : S1x1.Idx → Elt F .f32) (ix2 u v) = (W main_arg3 : S_.Idx → Elt F .f32) ix0 := by
  have e : (StableHlo.after hostOps0 W main_v5 : S1x1.Idx → Elt F .f32)
      = shapeCast S1x1 (W main_arg3 : S_.Idx → Elt F .f32) shapeCasts_S_S1x1 := by
    after_results; rfl
  rw [e]; exact shapeCast_scalar_11_apply _ _ u v
theorem host0_v6 (u v : Fin 1) :
    (StableHlo.after hostOps0 W main_v6 : S1x1.Idx → Elt F .f32) (ix2 u v) = (W main_arg4 : S_.Idx → Elt F .f32) ix0 := by
  have e : (StableHlo.after hostOps0 W main_v6 : S1x1.Idx → Elt F .f32)
      = shapeCast S1x1 (W main_arg4 : S_.Idx → Elt F .f32) shapeCasts_S_S1x1 := by
    after_results; rfl
  rw [e]; exact shapeCast_scalar_11_apply _ _ u v

/-- A buffer the stretch does not write keeps its contents. -/
theorem host0_keep (r : Ref sig .tc) (h : r ∉ hostOps0_W) : StableHlo.after hostOps0 W r = W r :=
  StableHlo.after_of_writes_sub hostOps0 _ hostOps0_writes h

/-! ### Between the first and the second call -/

/-- Head `hd` of the first 512 result columns (the queries). -/
theorem host1_v13 (hd : Fin 8) (i : Fin 512) (e : Fin 64) :
    (StableHlo.after hostOps1 W main_v13 : S8x512x64.Idx → Elt F .f32) (ix3 hd i e)
      = (W main_v7 : S512x1536.Idx → Elt F .f32) (ix2 i (⟨0 + (hd.val * 64 + e.val), by have := hd.isLt; have := e.isLt; omega⟩ : Fin 1536)) := by
  have eq : (StableHlo.after hostOps1 W main_v13 : S8x512x64.Idx → Elt F .f32)
      = shapeCast S8x512x64 (transpose S1x8x512x64 [0, 2, 1, 3] (shapeCast S1x512x8x64
          (extractStridedSlice S512x512 ![0, 0] (W main_v7 : S512x1536.Idx → Elt F .f32) slices_S512x1536_S512x512_0_0)
          shapeCasts_S512x512_S1x512x8x64) transposes_S1x512x8x64_S1x8x512x64_0_2_1_3) shapeCasts_S1x8x512x64_S8x512x64 := by
    after_results; rfl
  rw [eq]
  refine (shapeCast_1abc_abc_apply _ _ hd i e).trans ?_
  refine (transpose_heads_apply _ _ 0 hd i e).trans ?_
  refine (shapeCast_split_heads_apply _ _ 0 i hd e).trans ?_
  exact slice2_axis1_apply 0 _ _ i _ _ rfl

/-- Head `hd` of the second 512 result columns (the keys). -/
theorem host1_v16 (hd : Fin 8) (i : Fin 512) (e : Fin 64) :
    (StableHlo.after hostOps1 W main_v16 : S8x512x64.Idx → Elt F .f32) (ix3 hd i e)
      = (W main_v7 : S512x1536.Idx → Elt F .f32) (ix2 i (⟨512 + (hd.val * 64 + e.val), by have := hd.isLt; have := e.isLt; omega⟩ : Fin 1536)) := by
  have eq : (StableHlo.after hostOps1 W main_v16 : S8x512x64.Idx → Elt F .f32)
      = shapeCast S8x512x64 (transpose S1x8x512x64 [0, 2, 1, 3] (shapeCast S1x512x8x64
          (extractStridedSlice S512x512 ![0, 512] (W main_v7 : S512x1536.Idx → Elt F .f32) slices_S512x1536_S512x512_0_512)
          shapeCasts_S512x512_S1x512x8x64) transposes_S1x512x8x64_S1x8x512x64_0_2_1_3) shapeCasts_S1x8x512x64_S8x512x64 := by
    after_results; rfl
  rw [eq]
  refine (shapeCast_1abc_abc_apply _ _ hd i e).trans ?_
  refine (transpose_heads_apply _ _ 0 hd i e).trans ?_
  refine (shapeCast_split_heads_apply _ _ 0 i hd e).trans ?_
  exact slice2_axis1_apply 512 _ _ i _ _ rfl

/-- Head `hd` of the third 512 result columns (the values). -/
theorem host1_v19 (hd : Fin 8) (i : Fin 512) (e : Fin 64) :
    (StableHlo.after hostOps1 W main_v19 : S8x512x64.Idx → Elt F .f32) (ix3 hd i e)
      = (W main_v7 : S512x1536.Idx → Elt F .f32) (ix2 i (⟨1024 + (hd.val * 64 + e.val), by have := hd.isLt; have := e.isLt; omega⟩ : Fin 1536)) := by
  have eq : (StableHlo.after hostOps1 W main_v19 : S8x512x64.Idx → Elt F .f32)
      = shapeCast S8x512x64 (transpose S1x8x512x64 [0, 2, 1, 3] (shapeCast S1x512x8x64
          (extractStridedSlice S512x512 ![0, 1024] (W main_v7 : S512x1536.Idx → Elt F .f32) slices_S512x1536_S512x512_0_1024)
          shapeCasts_S512x512_S1x512x8x64) transposes_S1x512x8x64_S1x8x512x64_0_2_1_3) shapeCasts_S1x8x512x64_S8x512x64 := by
    after_results; rfl
  rw [eq]
  refine (shapeCast_1abc_abc_apply _ _ hd i e).trans ?_
  refine (transpose_heads_apply _ _ 0 hd i e).trans ?_
  refine (shapeCast_split_heads_apply _ _ 0 i hd e).trans ?_
  exact slice2_axis1_apply 1024 _ _ i _ _ rfl

/-! ### Between the second and the third call -/

/-- The heads merged back into 512 columns. -/
theorem host2_v23 (i : Fin 512) (hd : Fin 8) (e : Fin 64) :
    (StableHlo.after hostOps2 W main_v23 : S512x512.Idx → Elt F .f32) (ix2 i (⟨hd.val * 64 + e.val, by have := hd.isLt; have := e.isLt; omega⟩ : Fin 512))
      = (W main_v20 : S8x512x64.Idx → Elt F .f32) (ix3 hd i e) := by
  have eq : (StableHlo.after hostOps2 W main_v23 : S512x512.Idx → Elt F .f32)
      = shapeCast S512x512 (transpose S1x512x8x64 [0, 2, 1, 3] (shapeCast S1x8x512x64 (W main_v20 : S8x512x64.Idx → Elt F .f32)
          shapeCasts_S8x512x64_S1x8x512x64) transposes_S1x8x512x64_S1x512x8x64_0_2_1_3) shapeCasts_S1x512x8x64_S512x512 := by
    after_results; rfl
  rw [eq]
  refine (shapeCast_merge_heads_apply _ _ i hd e).trans ?_
  refine (transpose_rows_apply _ _ 0 i hd e).trans ?_
  exact shapeCast_abc_1abc_apply _ _ 0 hd i e

/-- The output projection's bias as one row. -/
theorem host2_v24 (u : Fin 1) (j : Fin 512) :
    (StableHlo.after hostOps2 W main_v24 : S1x512.Idx → Elt F .f32) (ix2 u j) = (W main_arg12 : S512.Idx → Elt F .f32) (ix1 j) := by
  have eq : (StableHlo.after hostOps2 W main_v24 : S1x512.Idx → Elt F .f32)
      = shapeCast S1x512 (W main_arg12 : S512.Idx → Elt F .f32) shapeCasts_S512_S1x512 := by
    after_results; rfl
  rw [eq]; exact shapeCast_a_1a_apply _ _ u j

theorem host2_v25 (u v : Fin 1) :
    (StableHlo.after hostOps2 W main_v25 : S1x1.Idx → Elt F .f32) (ix2 u v) = (W main_arg2 : S_.Idx → Elt F .f32) ix0 := by
  have eq : (StableHlo.after hostOps2 W main_v25 : S1x1.Idx → Elt F .f32)
      = shapeCast S1x1 (W main_arg2 : S_.Idx → Elt F .f32) shapeCasts_S_S1x1 := by
    after_results; rfl
  rw [eq]; exact shapeCast_scalar_11_apply _ _ u v
theorem host2_v26 (u v : Fin 1) :
    (StableHlo.after hostOps2 W main_v26 : S1x1.Idx → Elt F .f32) (ix2 u v) = (W main_arg3 : S_.Idx → Elt F .f32) ix0 := by
  have eq : (StableHlo.after hostOps2 W main_v26 : S1x1.Idx → Elt F .f32)
      = shapeCast S1x1 (W main_arg3 : S_.Idx → Elt F .f32) shapeCasts_S_S1x1 := by
    after_results; rfl
  rw [eq]; exact shapeCast_scalar_11_apply _ _ u v
theorem host2_v27 (u v : Fin 1) :
    (StableHlo.after hostOps2 W main_v27 : S1x1.Idx → Elt F .f32) (ix2 u v) = (W main_arg4 : S_.Idx → Elt F .f32) ix0 := by
  have eq : (StableHlo.after hostOps2 W main_v27 : S1x1.Idx → Elt F .f32)
      = shapeCast S1x1 (W main_arg4 : S_.Idx → Elt F .f32) shapeCasts_S_S1x1 := by
    after_results; rfl
  rw [eq]; exact shapeCast_scalar_11_apply _ _ u v

theorem host1_keep (r : Ref sig .tc) (h : r ∉ hostOps1_W) : StableHlo.after hostOps1 W r = W r :=
  StableHlo.after_of_writes_sub hostOps1 _ hostOps1_writes h
theorem host2_keep (r : Ref sig .tc) (h : r ∉ hostOps2_W) : StableHlo.after hostOps2 W r = W r :=
  StableHlo.after_of_writes_sub hostOps2 _ hostOps2_writes h

/-! ### After the third call -/

/-- The result with its leading unit axis. -/
theorem host3_v29 (u : Fin 1) (n j : Fin 512) :
    (StableHlo.after hostOps3 W main_v29 : S1x512x512.Idx → Elt F .f32) (ix3 u n j) = (W main_v28 : S512x512.Idx → Elt F .f32) (ix2 n j) := by
  have eq : (StableHlo.after hostOps3 W main_v29 : S1x512x512.Idx → Elt F .f32)
      = shapeCast S1x512x512 (W main_v28 : S512x512.Idx → Elt F .f32) shapeCasts_S512x512_S1x512x512 := by
    after_results; rfl
  rw [eq]; exact shapeCast_ab_1ab_apply _ _ u n j

end Stretches

end Cert.KernelIdeal.Hand

end
-- ==== Proof.Val.Chain.lean ====
/-
  The idealized kernel's result, entry by entry: the specification of its thirteen argument arrays.

  The contents of the buffers are followed across the seven boundaries of the program. The first call, handed the rows
  and the stacked prototypes, leaves a [512, 1536] array whose column `r` is the Tversky projection against stacked
  prototype `r`; its three 512-column parts are the queries, keys and values, because a projection's entry (n, r) reads
  row `n` of the rows and row `r` of the prototypes only. Split into heads, attended head by head by the second call,
  merged back, and projected once more by the third call, they give the block of the specification.
-/
import proofs.«150770_j35493609734446_2_alg».proof.Proof.Spec
import proofs.«150770_j35493609734446_2_alg».proof.Proof.KI.Run
import proofs.«150770_j35493609734446_2_alg».proof.Proof.KI.Reg0Val
import proofs.«150770_j35493609734446_2_alg».proof.Proof.KI.Reg2Val
import proofs.«150770_j35493609734446_2_alg».proof.Proof.Val.TvBlock
import proofs.«150770_j35493609734446_2_alg».proof.Proof.Val.TvBlock2
import proofs.«150770_j35493609734446_2_alg».proof.Proof.Val.AtBlock
import proofs.«150770_j35493609734446_2_alg».proof.Proof.Val.Arr0
import proofs.«150770_j35493609734446_2_alg».proof.Proof.Val.Arr1
import proofs.«150770_j35493609734446_2_alg».proof.Proof.Val.Arr2
import proofs.«150770_j35493609734446_2_alg».proof.Proof.Val.Host

noncomputable section

namespace Cert.KernelIdeal.Hand

open Cert.KernelIdeal Cert.KernelIdeal.Gen
open Idealize.ShloMosaic Idealize.ShloMosaic.TcCoe Idealize.SL.Sem
open Idealize.ShloMosaic.ValueIdx
open Cert.Spec (layer layer_congr head attend merged col)

variable (m : (ℓ : Loc nD τ sig) → Buf (Elt Ideal) ℓ) (c : Dev nD)

/-! ## The arguments, by coordinates -/

/-- The rows. -/
def xRows : Spec.Mat := fun n k => (Gen.V0 m c main_arg0 : S1x512x512.Idx → Elt Ideal .f32) (ix3 (0 : Fin 1) n k)
/-- The features. -/
def feat : Spec.Mat := fun k d => (Gen.V0 m c main_arg1 : S512x512.Idx → Elt Ideal .f32) (ix2 k d)
def alpha : EReal := (Gen.V0 m c main_arg2 : S_.Idx → Elt Ideal .f32) ix0
def beta : EReal := (Gen.V0 m c main_arg3 : S_.Idx → Elt Ideal .f32) ix0
def gamma : EReal := (Gen.V0 m c main_arg4 : S_.Idx → Elt Ideal .f32) ix0
def protoQ : Spec.Mat := fun r k => (Gen.V0 m c main_arg5 : S512x512.Idx → Elt Ideal .f32) (ix2 r k)
def biasQ : Spec.Vc := fun r => (Gen.V0 m c main_arg6 : S512.Idx → Elt Ideal .f32) (ix1 r)
def protoK : Spec.Mat := fun r k => (Gen.V0 m c main_arg7 : S512x512.Idx → Elt Ideal .f32) (ix2 r k)
def biasK : Spec.Vc := fun r => (Gen.V0 m c main_arg8 : S512.Idx → Elt Ideal .f32) (ix1 r)
def protoV : Spec.Mat := fun r k => (Gen.V0 m c main_arg9 : S512x512.Idx → Elt Ideal .f32) (ix2 r k)
def biasV : Spec.Vc := fun r => (Gen.V0 m c main_arg10 : S512.Idx → Elt Ideal .f32) (ix1 r)
def protoO : Spec.Mat := fun r k => (Gen.V0 m c main_arg11 : S512x512.Idx → Elt Ideal .f32) (ix2 r k)
def biasO : Spec.Vc := fun r => (Gen.V0 m c main_arg12 : S512.Idx → Elt Ideal .f32) (ix1 r)

/-- The stacked prototypes and biases the first call is handed. -/
def protoQKV : Fin 1536 → Fin 512 → EReal :=
  stack3 (Gen.V0 m c main_arg5 : S512x512.Idx → Elt Ideal .f32) (Gen.V0 m c main_arg7 : S512x512.Idx → Elt Ideal .f32) (Gen.V0 m c main_arg9 : S512x512.Idx → Elt Ideal .f32)
def biasQKV : Fin 1536 → EReal :=
  join3 (Gen.V0 m c main_arg6 : S512.Idx → Elt Ideal .f32) (Gen.V0 m c main_arg8 : S512.Idx → Elt Ideal .f32) (Gen.V0 m c main_arg10 : S512.Idx → Elt Ideal .f32)

/-- The queries, keys and values of the specification. -/
def specQ : Spec.Mat := layer (xRows m c) (protoQ m c) (feat m c) (biasQ m c) (alpha m c) (beta m c) (gamma m c)
def specK : Spec.Mat := layer (xRows m c) (protoK m c) (feat m c) (biasK m c) (alpha m c) (beta m c) (gamma m c)
def specV : Spec.Mat := layer (xRows m c) (protoV m c) (feat m c) (biasV m c) (alpha m c) (beta m c) (gamma m c)

/-! ## The first call -/

/-- What the first call leaves: the projection of the rows against the stacked prototypes. -/
theorem o2_at (n : Fin 512) (r : Fin 1536) :
    (o2 m c : S512x1536.Idx → Elt Ideal .f32) (ix2 n r)
      = layer (xRows m c) (protoQKV m c) (feat m c) (biasQKV m c) (alpha m c) (beta m c) (gamma m c) n r := by
  refine arr0_of_blocks (Vr (Va1 m)) c
    (fun n r => layer (xRows m c) (protoQKV m c) (feat m c) (biasQKV m c) (alpha m c) (beta m c) (gamma m c) n r) ?_ n r
  intro t p q
  rw [outsAt0_eq, tvOut0_apply]
  have hf : (fun k d => iblk0 (Vr (Va1 m)) c 2 t (ix2 k d)) = feat m c := by
    funext k d; rw [iblk0_2_at]; exact congrFun (host0_keep (Gen.V0 m c) main_arg1 (by decide)) (ix2 k d)
  have ha : iblk0 (Vr (Va1 m)) c 4 t (ix2 (0 : Fin 1) (0 : Fin 1)) = alpha m c := by
    rw [iblk0_4_at]; exact host0_v4 (Gen.V0 m c) 0 0
  have hb : iblk0 (Vr (Va1 m)) c 5 t (ix2 (0 : Fin 1) (0 : Fin 1)) = beta m c := by
    rw [iblk0_5_at]; exact host0_v5 (Gen.V0 m c) 0 0
  have hg : iblk0 (Vr (Va1 m)) c 6 t (ix2 (0 : Fin 1) (0 : Fin 1)) = gamma m c := by
    rw [iblk0_6_at]; exact host0_v6 (Gen.V0 m c) 0 0
  rw [hf, ha, hb, hg]
  refine layer_congr _ _ _ _ _ _ _ _ _ _ _ _ _ _ ?_ ?_ ?_
  · funext k; rw [iblk0_0_at]; exact host0_v0 (Gen.V0 m c) _ k
  · funext k; rw [iblk0_1_at]; exact host0_v1 (Gen.V0 m c) _ k
  · rw [iblk0_3_at]; exact host0_v3 (Gen.V0 m c) 0 _

/-- Row `h·64 + e` of the stacked prototypes is row `col h e` of the query prototypes, and so on. -/
theorem protoQKV_q (hd : Fin 8) (e : Fin 64) (hlt : 0 + (hd.val * 64 + e.val) < 1536) :
    protoQKV m c ⟨0 + (hd.val * 64 + e.val), hlt⟩ = protoQ m c (col hd e) := by
  funext k
  have h0 : (0 + (hd.val * 64 + e.val)) < 512 := by have := hd.isLt; have := e.isLt; omega
  unfold protoQKV stack3 protoQ
  rw [dif_pos h0]
  exact congrArg _ (congrArg (fun r => ix2 r k) (Fin.ext (by show 0 + (hd.val * 64 + e.val) = hd.val * 64 + e.val; omega)))
theorem protoQKV_k (hd : Fin 8) (e : Fin 64) (hlt : 512 + (hd.val * 64 + e.val) < 1536) :
    protoQKV m c ⟨512 + (hd.val * 64 + e.val), hlt⟩ = protoK m c (col hd e) := by
  funext k
  have hh := hd.isLt; have he := e.isLt
  have h0 : ¬ (512 + (hd.val * 64 + e.val)) < 512 := by omega
  have h1 : (512 + (hd.val * 64 + e.val)) < 1024 := by omega
  unfold protoQKV stack3 protoK
  rw [dif_neg h0, dif_pos h1]
  exact congrArg _ (congrArg (fun r => ix2 r k) (Fin.ext (by show 512 + (hd.val * 64 + e.val) - 512 = hd.val * 64 + e.val; omega)))
theorem protoQKV_v (hd : Fin 8) (e : Fin 64) (hlt : 1024 + (hd.val * 64 + e.val) < 1536) :
    protoQKV m c ⟨1024 + (hd.val * 64 + e.val), hlt⟩ = protoV m c (col hd e) := by
  funext k
  have hh := hd.isLt; have he := e.isLt
  have h0 : ¬ (1024 + (hd.val * 64 + e.val)) < 512 := by omega
  have h1 : ¬ (1024 + (hd.val * 64 + e.val)) < 1024 := by omega
  unfold protoQKV stack3 protoV
  rw [dif_neg h0, dif_neg h1]
  exact congrArg _ (congrArg (fun r => ix2 r k) (Fin.ext (by show 1024 + (hd.val * 64 + e.val) - 1024 = hd.val * 64 + e.val; omega)))
theorem biasQKV_q (hd : Fin 8) (e : Fin 64) (hlt : 0 + (hd.val * 64 + e.val) < 1536) :
    biasQKV m c ⟨0 + (hd.val * 64 + e.val), hlt⟩ = biasQ m c (col hd e) := by
  have h0 : (0 + (hd.val * 64 + e.val)) < 512 := by have := hd.isLt; have := e.isLt; omega
  unfold biasQKV join3 biasQ
  rw [dif_pos h0]
  exact congrArg _ (congrArg ix1 (Fin.ext (by show 0 + (hd.val * 64 + e.val) = hd.val * 64 + e.val; omega)))
theorem biasQKV_k (hd : Fin 8) (e : Fin 64) (hlt : 512 + (hd.val * 64 + e.val) < 1536) :
    biasQKV m c ⟨512 + (hd.val * 64 + e.val), hlt⟩ = biasK m c (col hd e) := by
  have hh := hd.isLt; have he := e.isLt
  have h0 : ¬ (512 + (hd.val * 64 + e.val)) < 512 := by omega
  have h1 : (512 + (hd.val * 64 + e.val)) < 1024 := by omega
  unfold biasQKV join3 biasK
  rw [dif_neg h0, dif_pos h1]
  exact congrArg _ (congrArg ix1 (Fin.ext (by show 512 + (hd.val * 64 + e.val) - 512 = hd.val * 64 + e.val; omega)))
theorem biasQKV_v (hd : Fin 8) (e : Fin 64) (hlt : 1024 + (hd.val * 64 + e.val) < 1536) :
    biasQKV m c ⟨1024 + (hd.val * 64 + e.val), hlt⟩ = biasV m c (col hd e) := by
  have hh := hd.isLt; have he := e.isLt
  have h0 : ¬ (1024 + (hd.val * 64 + e.val)) < 512 := by omega
  have h1 : ¬ (1024 + (hd.val * 64 + e.val)) < 1024 := by omega
  unfold biasQKV join3 biasV
  rw [dif_neg h0, dif_neg h1]
  exact congrArg _ (congrArg ix1 (Fin.ext (by show 1024 + (hd.val * 64 + e.val) - 1024 = hd.val * 64 + e.val; omega)))

/-! ## The heads the second call is handed -/

/-- What the first call left is in `main_v7` when the second stretch of host operations starts. -/
theorem Va2_v7 : (Va2 m c main_v7 : S512x1536.Idx → Elt Ideal .f32) = (o2 m c : S512x1536.Idx → Elt Ideal .f32) :=
  Function.update_self _ _ _

theorem heads_q (hd : Fin 8) (i : Fin 512) (e : Fin 64) :
    (Vr (Va3 m) c main_v13 : S8x512x64.Idx → Elt Ideal .f32) (ix3 hd i e) = head (specQ m c) hd i e := by
  refine (host1_v13 (Va2 m c) hd i e).trans ?_
  rw [Va2_v7, o2_at]
  exact layer_congr _ _ _ _ _ _ _ _ _ _ _ _ _ _ rfl (protoQKV_q m c hd e _) (biasQKV_q m c hd e _)
theorem heads_k (hd : Fin 8) (i : Fin 512) (e : Fin 64) :
    (Vr (Va3 m) c main_v16 : S8x512x64.Idx → Elt Ideal .f32) (ix3 hd i e) = head (specK m c) hd i e := by
  refine (host1_v16 (Va2 m c) hd i e).trans ?_
  rw [Va2_v7, o2_at]
  exact layer_congr _ _ _ _ _ _ _ _ _ _ _ _ _ _ rfl (protoQKV_k m c hd e _) (biasQKV_k m c hd e _)
theorem heads_v (hd : Fin 8) (i : Fin 512) (e : Fin 64) :
    (Vr (Va3 m) c main_v19 : S8x512x64.Idx → Elt Ideal .f32) (ix3 hd i e) = head (specV m c) hd i e := by
  refine (host1_v19 (Va2 m c) hd i e).trans ?_
  rw [Va2_v7, o2_at]
  exact layer_congr _ _ _ _ _ _ _ _ _ _ _ _ _ _ rfl (protoQKV_v m c hd e _) (biasQKV_v m c hd e _)

/-! ## The second call -/

/-- What the attention call leaves: each head attended. -/
theorem o4_at (hd : Fin 8) (i : Fin 512) (e : Fin 64) :
    (o4 m c : S8x512x64.Idx → Elt Ideal .f32) (ix3 hd i e)
      = attend (head (specQ m c) hd) (head (specK m c) hd) (head (specV m c) hd) i e := by
  refine arr1_of_blocks (Vr (Va3 m)) c
    (fun hd i e => attend (head (specQ m c) hd) (head (specK m c) hd) (head (specV m c) hd) i e) ?_ hd i e
  intro t g i e
  rw [atOut1_apply]
  have hq : (fun i e => iblk1 (Vr (Va3 m)) c 0 t (ix3 g i e)) = head (specQ m c) ⟨2 * t.val + g.val, head_lt t g⟩ := by
    funext i e; rw [iblk1_0_at]; exact heads_q m c _ i e
  have hk : (fun j e => iblk1 (Vr (Va3 m)) c 1 t (ix3 g j e)) = head (specK m c) ⟨2 * t.val + g.val, head_lt t g⟩ := by
    funext j e; rw [iblk1_1_at]; exact heads_k m c _ j e
  have hv : (fun j e => iblk1 (Vr (Va3 m)) c 2 t (ix3 g j e)) = head (specV m c) ⟨2 * t.val + g.val, head_lt t g⟩ := by
    funext j e; rw [iblk1_2_at]; exact heads_v m c _ j e
  rw [hq, hk, hv]

/-! ## The rows the third call is handed -/

theorem Va4_v20 : (Va4 m c main_v20 : S8x512x64.Idx → Elt Ideal .f32) = (o4 m c : S8x512x64.Idx → Elt Ideal .f32) :=
  Function.update_self _ _ _

/-- The merged heads. -/
theorem merged_at (i cc : Fin 512) :
    (Vr (Va5 m) c main_v23 : S512x512.Idx → Elt Ideal .f32) (ix2 i cc) = merged (specQ m c) (specK m c) (specV m c) i cc := by
  have hc := cc.isLt
  have hcc : cc = (⟨(⟨cc.val / 64, by omega⟩ : Fin 8).val * 64 + (⟨cc.val % 64, Nat.mod_lt _ (by decide)⟩ : Fin 64).val,
      by show cc.val / 64 * 64 + cc.val % 64 < 512; omega⟩ : Fin 512) :=
    Fin.ext (by show cc.val = cc.val / 64 * 64 + cc.val % 64; omega)
  rw [hcc]
  refine (host2_v23 (Va4 m c) i ⟨cc.val / 64, by omega⟩ ⟨cc.val % 64, Nat.mod_lt _ (by decide)⟩).trans ?_
  rw [Va4_v20, o4_at]
  show _ = merged (specQ m c) (specK m c) (specV m c) i ⟨cc.val / 64 * 64 + cc.val % 64, _⟩
  unfold merged
  have e1 : (cc.val / 64 * 64 + cc.val % 64) / 64 = cc.val / 64 := by omega
  have e2 : (cc.val / 64 * 64 + cc.val % 64) % 64 = cc.val % 64 := by omega
  simp only [e1, e2]

/-- A buffer none of the stretches and calls before the third call writes still holds its launch contents there. -/
theorem Va5_keep (r : Ref sig .tc) (h0 : r ∉ hostOps0_W) (h1 : r ∉ hostOps1_W) (h2 : r ∉ hostOps2_W)
    (h7 : r ≠ main_v7) (h20 : r ≠ main_v20) : Va5 m c r = Gen.V0 m c r := by
  refine (host2_keep (Va4 m c) r h2).trans ?_
  refine (Function.update_of_ne (StableHlo.devRef_ne_of_ne h20) _ _).trans ?_
  refine (host1_keep (Va2 m c) r h1).trans ?_
  refine (Function.update_of_ne (StableHlo.devRef_ne_of_ne h7) _ _).trans ?_
  exact host0_keep (Gen.V0 m c) r h0

/-! ## The third call -/

/-- What the third call leaves: the projection of the merged heads against the output prototypes. -/
theorem o6_at (n j : Fin 512) :
    (o6 m c : S512x512.Idx → Elt Ideal .f32) (ix2 n j)
      = layer (merged (specQ m c) (specK m c) (specV m c)) (protoO m c) (feat m c) (biasO m c) (alpha m c) (beta m c) (gamma m c) n j := by
  refine arr2_of_blocks (Vr (Va5 m)) c
    (fun n j => layer (merged (specQ m c) (specK m c) (specV m c)) (protoO m c) (feat m c) (biasO m c) (alpha m c) (beta m c) (gamma m c) n j) ?_ n j
  intro t p q
  rw [outsAt2_eq, tvOut2_apply]
  have hf : (fun k d => iblk2 (Vr (Va5 m)) c 2 t (ix2 k d)) = feat m c := by
    funext k d; rw [iblk2_2_at]
    exact congrFun (Va5_keep m c main_arg1 (by decide) (by decide) (by decide) (by decide) (by decide)) (ix2 k d)
  have ha : iblk2 (Vr (Va5 m)) c 4 t (ix2 (0 : Fin 1) (0 : Fin 1)) = alpha m c := by
    rw [iblk2_4_at]; refine (host2_v25 (Va4 m c) 0 0).trans ?_
    exact congrFun (((Function.update_of_ne (StableHlo.devRef_ne_of_ne (by decide)) _ _).trans (host1_keep (Va2 m c) main_arg2 (by decide))).trans
      ((Function.update_of_ne (StableHlo.devRef_ne_of_ne (by decide)) _ _).trans (host0_keep (Gen.V0 m c) main_arg2 (by decide)))) ix0
  have hb : iblk2 (Vr (Va5 m)) c 5 t (ix2 (0 : Fin 1) (0 : Fin 1)) = beta m c := by
    rw [iblk2_5_at]; refine (host2_v26 (Va4 m c) 0 0).trans ?_
    exact congrFun (((Function.update_of_ne (StableHlo.devRef_ne_of_ne (by decide)) _ _).trans (host1_keep (Va2 m c) main_arg3 (by decide))).trans
      ((Function.update_of_ne (StableHlo.devRef_ne_of_ne (by decide)) _ _).trans (host0_keep (Gen.V0 m c) main_arg3 (by decide)))) ix0
  have hg : iblk2 (Vr (Va5 m)) c 6 t (ix2 (0 : Fin 1) (0 : Fin 1)) = gamma m c := by
    rw [iblk2_6_at]; refine (host2_v27 (Va4 m c) 0 0).trans ?_
    exact congrFun (((Function.update_of_ne (StableHlo.devRef_ne_of_ne (by decide)) _ _).trans (host1_keep (Va2 m c) main_arg4 (by decide))).trans
      ((Function.update_of_ne (StableHlo.devRef_ne_of_ne (by decide)) _ _).trans (host0_keep (Gen.V0 m c) main_arg4 (by decide)))) ix0
  rw [hf, ha, hb, hg]
  refine layer_congr _ _ _ _ _ _ _ _ _ _ _ _ _ _ ?_ ?_ ?_
  · funext k; rw [iblk2_0_at]; exact merged_at m c _ k
  · funext k; rw [iblk2_1_at]
    exact congrFun (Va5_keep m c main_arg11 (by decide) (by decide) (by decide) (by decide) (by decide)) (ix2 _ k)
  · rw [iblk2_3_at]; refine (host2_v24 (Va4 m c) 0 _).trans ?_
    exact congrFun (((Function.update_of_ne (StableHlo.devRef_ne_of_ne (by decide)) _ _).trans (host1_keep (Va2 m c) main_arg12 (by decide))).trans
      ((Function.update_of_ne (StableHlo.devRef_ne_of_ne (by decide)) _ _).trans (host0_keep (Gen.V0 m c) main_arg12 (by decide)))) (ix1 _)

/-! ## The result -/

theorem Va6_v28 : (Va6 m c main_v28 : S512x512.Idx → Elt Ideal .f32) = (o6 m c : S512x512.Idx → Elt Ideal .f32) :=
  Function.update_self _ _ _

/-- THE RESULT ARRAY of the idealized kernel, entry by entry, is the specification of its arguments. -/
theorem result_at (u : Fin 1) (n j : Fin 512) :
    (Va7 m c main_v29 : S1x512x512.Idx → Elt Ideal .f32) (ix3 u n j)
      = Spec.ofArgs (Gen.V0 m c main_arg0) (Gen.V0 m c main_arg1) (Gen.V0 m c main_arg2) (Gen.V0 m c main_arg3) (Gen.V0 m c main_arg4)
          (Gen.V0 m c main_arg5) (Gen.V0 m c main_arg6) (Gen.V0 m c main_arg7) (Gen.V0 m c main_arg8) (Gen.V0 m c main_arg9)
          (Gen.V0 m c main_arg10) (Gen.V0 m c main_arg11) (Gen.V0 m c main_arg12) n j := by
  refine (host3_v29 (Va6 m c) u n j).trans ?_
  rw [Va6_v28, o6_at]
  rfl

end Cert.KernelIdeal.Hand

end
-- ==== Proof.Ref.Base.lean ====
/-
  The array types the reference program's stages have, at the extended reals, and the one scalar every sum starts from.
-/
import proofs.«150770_j35493609734446_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-- A 512 × 512 × 512 array, a 512 × 512 array, a vector of 512 and a scalar of extended reals, as the program's stages hold them. -/
abbrev A3 : Type := FVec Ideal S512x512x512 .f32
abbrev A2 : Type := FVec Ideal S512x512 .f32
abbrev A1 : Type := FVec Ideal S512 .f32
abbrev A0 : Type := FVec Ideal S_ .f32

/-- The heads of one projection ([1,8,512,64]), the scores or weights of every head ([1,8,512,512]) and one value per head and row ([1,8,512]). -/
abbrev H4 : Type := FVec Ideal S1x8x512x64 .f32
abbrev W4 : Type := FVec Ideal S1x8x512x512 .f32
abbrev R3 : Type := FVec Ideal S1x8x512 .f32

/-- The scalar zero word, the sums' initial value. -/
def zeroS : A0 := constant (F := Ideal) S_ .f32 0x00000000#32

/-- The zero word is the extended real 0. -/
theorem zeroS_at (j : S_.Idx) : zeroS j = 0 := Ideal.ofBits_zero_f32

end Cert.ReferenceIdeal.RefValue

end
-- ==== Proof.Ref.Layer.lean ====
/-
  One Tversky projection as the reference program computes it, as ONE function of its operands: the rows and the
  prototypes through the feature matrix and clipped at zero, both spread over a 512 × 512 × 512 array and their minimum
  summed over the last axis (the shared mass), the two row sums spread down the columns and along the rows, the three
  scalars spread everywhere, then numerator, denominator, quotient and bias. The program applies this function four
  times (queries, keys, values, output). Here each building block is read at an index, and the whole at (n, m) is the
  specification's layer at (n, m).
-/
import proofs.«150770_j35493609734446_2_alg».proof.Proof.Ref.Base
import proofs.«150770_j35493609734446_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-! ## The building blocks -/

/-- The scalar word of 1e-8. -/
def epsS : A0 := constant (F := Ideal) S_ .f32 0x322BCC77#32
/-- A scalar at every entry. -/
def everywhere (a : A0) : A2 := broadcastInDim S512x512 ![] bcast_S_S512x512 a
/-- The matrix product `y · f`. -/
def times (y f : A2) : A2 := Host.dotGeneral (F := Ideal) dot_S512x512_S512x512_S512x512_1_0_0_1_n_n none y f
/-- `max (y · f) 0`: rows through the feature matrix, clipped at zero. -/
def refProj (y f : A2) : A2 := maximumf (times y f) (everywhere zeroS)
/-- Entry (n, m, d) is `y (n, d)`. -/
def spreadX (y : A2) : A3 :=
  broadcastInDim S512x512x512 ![0, 1, 2] bcast_S512x1x512_S512x512x512_0_1_2 (broadcastInDim S512x1x512 ![0, 2] bcast_S512x512_S512x1x512_0_2 y)
/-- Entry (n, m, d) is `y (m, d)`. -/
def spreadP (y : A2) : A3 :=
  broadcastInDim S512x512x512 ![0, 1, 2] bcast_S1x512x512_S512x512x512_0_1_2 (broadcastInDim S1x512x512 ![1, 2] bcast_S512x512_S1x512x512_1_2 y)
/-- The sum over the last of three axes. -/
def sumLast (z : A3) : A2 := Host.reduceAdd (F := Ideal) z zeroS reducesTo_S512x512x512_S512x512_d2 h_S_
/-- The shared mass of projected rows and projected prototypes. -/
def refCommon (xf pf : A2) : A2 := sumLast (minimumf (spreadX xf) (spreadP pf))
/-- Each row's sum. -/
def rowSum (y : A2) : A1 := Host.reduceAdd (F := Ideal) y zeroS reducesTo_S512x512_S512_d1 h_S_
/-- Entry (n, m) is `s n`. -/
def downCols (s : A1) : A2 := broadcastInDim S512x512 ![0, 1] bcast_S512x1_S512x512_0_1 (broadcastInDim S512x1 ![0] bcast_S512_S512x1_0 s)
/-- Entry (n, m) is `s m`. -/
def alongRows (s : A1) : A2 := broadcastInDim S512x512 ![0, 1] bcast_S1x512_S512x512_0_1 (broadcastInDim S1x512 ![1] bcast_S512_S1x512_1 s)
/-- `γ · c`, the numerator. -/
def refNum (xf pf : A2) (g : A0) : A2 := mulf (everywhere g) (refCommon xf pf)
/-- The Tversky ratio plus the bias, over the whole array. -/
def refRatio (xf pf : A2) (bias : A1) (a b g : A0) : A2 :=
  addf
    (Host.divf (refNum xf pf g)
      (addf
        (addf
          (addf (refNum xf pf g) (mulf (everywhere (Host.absf a)) (subf (downCols (rowSum xf)) (refCommon xf pf))))
          (mulf (everywhere (Host.absf b)) (subf (alongRows (rowSum pf)) (refCommon xf pf))))
        (everywhere epsS)))
    (alongRows bias)
/-- One Tversky projection of the rows `x` against the prototypes `p` through the features `f`. -/
def refLayer (x p f : A2) (bias : A1) (a b g : A0) : A2 := refRatio (refProj x f) (refProj p f) bias a b g

/-! ## Each building block at an index -/

theorem everywhere_at (a : A0) (n m : Fin 512) : everywhere a (ix2 n m) = a ix0 := by
  unfold everywhere
  exact broadcastInDim_apply _ bcast_S_S512x512 a (ix2 n m) ix0 (fun r => r.elim0)

/-- The product at (n, d) is the sum over the contracted coordinate. -/
theorem times_at (y f : A2) (n d : Fin 512) : times y f (ix2 n d) = ∑ k : Fin 512, y (ix2 n k) * f (ix2 k d) := by
  unfold times
  simp only [Host.dotGeneral]
  rw [Ideal.dotGeneral_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 n d) ((ValueIdx.contrEquiv1 dot_S512x512_S512x512_S512x512_1_0_0_1_n_n 512 rfl rfl).symm k) = ix2 n k := funext fun r => Fin.ext (by
    match r with
    | ⟨0, _⟩ => exact lhs_main_v1_0 _ _
    | ⟨1, _⟩ => exact (lhs_main_v1_1 _ _).trans hk)
  have er : dot_S512x512_S512x512_S512x512_1_0_0_1_n_n.rhsIdx (ix2 n d) ((ValueIdx.contrEquiv1 dot_S512x512_S512x512_S512x512_1_0_0_1_n_n 512 rfl rfl).symm k) = ix2 k d := funext fun r => Fin.ext (by
    match r with
    | ⟨0, _⟩ => exact (rhs_main_v1_0 _ _).trans hk
    | ⟨1, _⟩ => exact rhs_main_v1_1 _ _)
  rw [el, er]

/-- The clipped product is the specification's projection. -/
theorem refProj_at (y f : A2) (n d : Fin 512) :
    refProj y f (ix2 n d) = Spec.proj (fun n k => y (ix2 n k)) (fun k d => f (ix2 k d)) n d := by
  show max (times y f (ix2 n d)) (everywhere zeroS (ix2 n d)) = _
  rw [times_at, everywhere_at, zeroS_at]
  rfl

theorem spreadX_at (y : A2) (n m d : Fin 512) : spreadX y (ix3 n m d) = y (ix2 n d) := by
  unfold spreadX
  refine (broadcastInDim_apply _ bcast_S512x1x512_S512x512x512_0_1_2 _ (ix3 n m d) (ix3 n (0 : Fin 1) d) (fun r => match r with
    | ⟨0, _⟩ => by show n.val = if (512 : Nat) = 1 then 0 else n.val; rw [if_neg (by decide)]
    | ⟨1, _⟩ => by show 0 = if (1 : Nat) = 1 then 0 else m.val; rw [if_pos rfl]
    | ⟨2, _⟩ => by show d.val = if (512 : Nat) = 1 then 0 else d.val; rw [if_neg (by decide)])).trans ?_
  exact broadcastInDim_apply _ bcast_S512x512_S512x1x512_0_2 y (ix3 n (0 : Fin 1) d) (ix2 n d) (fun r => match r with
    | ⟨0, _⟩ => by show n.val = if (512 : Nat) = 1 then 0 else n.val; rw [if_neg (by decide)]
    | ⟨1, _⟩ => by show d.val = if (512 : Nat) = 1 then 0 else d.val; rw [if_neg (by decide)])

theorem spreadP_at (y : A2) (n m d : Fin 512) : spreadP y (ix3 n m d) = y (ix2 m d) := by
  unfold spreadP
  refine (broadcastInDim_apply _ bcast_S1x512x512_S512x512x512_0_1_2 _ (ix3 n m d) (ix3 (0 : Fin 1) m d) (fun r => match r with
    | ⟨0, _⟩ => by show 0 = if (1 : Nat) = 1 then 0 else n.val; rw [if_pos rfl]
    | ⟨1, _⟩ => by show m.val = if (512 : Nat) = 1 then 0 else m.val; rw [if_neg (by decide)]
    | ⟨2, _⟩ => by show d.val = if (512 : Nat) = 1 then 0 else d.val; rw [if_neg (by decide)])).trans ?_
  exact broadcastInDim_apply _ bcast_S512x512_S1x512x512_1_2 y (ix3 (0 : Fin 1) m d) (ix2 m d) (fun r => match r with
    | ⟨0, _⟩ => by show m.val = if (512 : Nat) = 1 then 0 else m.val; rw [if_neg (by decide)]
    | ⟨1, _⟩ => by show d.val = if (512 : Nat) = 1 then 0 else d.val; rw [if_neg (by decide)])

/-- The sum over the last axis at (n, m): the initial zero plus the sum over `d`. -/
theorem sumLast_at (z : A3) (n m : Fin 512) : sumLast z (ix2 n m) = ∑ d : Fin 512, z (ix3 n m d) := by
  unfold sumLast
  simp only [Host.reduceAdd, Ideal.hostReduceAdd_def]
  rw [Ideal.hostReduceAdd_single reducesTo_S512x512x512_S512x512_d2 (by decide)]
  refine (congrArg (· + _) (zeroS_at _)).trans ((zero_add _).trans (Finset.sum_congr rfl fun k _ => ?_))
  exact congrArg z (funext fun r => Fin.ext (by match r with | ⟨0, _⟩ => rfl | ⟨1, _⟩ => rfl | ⟨2, _⟩ => rfl))

theorem refCommon_at (xf pf : A2) (n m : Fin 512) :
    refCommon xf pf (ix2 n m) = Spec.common (fun n d => xf (ix2 n d)) (fun m d => pf (ix2 m d)) n m := by
  unfold refCommon Spec.common
  rw [sumLast_at]
  refine Finset.sum_congr rfl fun d _ => ?_
  show min (spreadX xf (ix3 n m d)) (spreadP pf (ix3 n m d)) = _
  rw [spreadX_at, spreadP_at]

theorem rowSum_at (y : A2) (n : Fin 512) : rowSum y (ix1 n) = ∑ d : Fin 512, y (ix2 n d) := by
  unfold rowSum
  simp only [Host.reduceAdd, Ideal.hostReduceAdd_def]
  rw [Ideal.hostReduceAdd_single reducesTo_S512x512_S512_d1 (by decide)]
  refine (congrArg (· + _) (zeroS_at _)).trans ((zero_add _).trans (Finset.sum_congr rfl fun k _ => ?_))
  exact congrArg y (funext fun r => Fin.ext (by match r with | ⟨0, _⟩ => rfl | ⟨1, _⟩ => rfl))

theorem downCols_at (s : A1) (n m : Fin 512) : downCols s (ix2 n m) = s (ix1 n) := by
  unfold downCols
  refine (broadcastInDim_apply _ bcast_S512x1_S512x512_0_1 _ (ix2 n m) (ix2 n (0 : Fin 1)) (fun r => match r with
    | ⟨0, _⟩ => by show n.val = if (512 : Nat) = 1 then 0 else n.val; rw [if_neg (by decide)]
    | ⟨1, _⟩ => by show 0 = if (1 : Nat) = 1 then 0 else m.val; rw [if_pos rfl])).trans ?_
  exact broadcastInDim_apply _ bcast_S512_S512x1_0 s (ix2 n (0 : Fin 1)) (ix1 n) (fun r => match r with
    | ⟨0, _⟩ => by show n.val = if (512 : Nat) = 1 then 0 else n.val; rw [if_neg (by decide)])

theorem alongRows_at (s : A1) (n m : Fin 512) : alongRows s (ix2 n m) = s (ix1 m) := by
  unfold alongRows
  refine (broadcastInDim_apply _ bcast_S1x512_S512x512_0_1 _ (ix2 n m) (ix2 (0 : Fin 1) m) (fun r => match r with
    | ⟨0, _⟩ => by show 0 = if (1 : Nat) = 1 then 0 else n.val; rw [if_pos rfl]
    | ⟨1, _⟩ => by show m.val = if (512 : Nat) = 1 then 0 else m.val; rw [if_neg (by decide)])).trans ?_
  exact broadcastInDim_apply _ bcast_S512_S1x512_1 s (ix2 (0 : Fin 1) m) (ix1 m) (fun r => match r with
    | ⟨0, _⟩ => by show m.val = if (512 : Nat) = 1 then 0 else m.val; rw [if_neg (by decide)])

/-! ## The whole projection at an index -/

/-- The ratio over the whole arrays, read at (n, m), is the specification's ratio of the same projected rows. -/
theorem refRatio_at (xf pf : A2) (bias : A1) (a b g : A0) (n m : Fin 512) :
    refRatio xf pf bias a b g (ix2 n m)
      = Spec.ratio (fun n d => xf (ix2 n d)) (fun m d => pf (ix2 m d)) (fun m => bias (ix1 m)) (a ix0) (b ix0) (g ix0) n m := by
  show Ideal.div (everywhere g (ix2 n m) * refCommon xf pf (ix2 n m))
        (everywhere g (ix2 n m) * refCommon xf pf (ix2 n m)
          + everywhere (Host.absf (F := Ideal) a) (ix2 n m) * (downCols (rowSum xf) (ix2 n m) - refCommon xf pf (ix2 n m))
          + everywhere (Host.absf (F := Ideal) b) (ix2 n m) * (alongRows (rowSum pf) (ix2 n m) - refCommon xf pf (ix2 n m))
          + everywhere epsS (ix2 n m))
      + alongRows bias (ix2 n m) = _
  simp only [everywhere_at, downCols_at, alongRows_at, rowSum_at, refCommon_at]
  rfl

/-- One projection of the reference, read at (n, m), is the specification's layer at (n, m). -/
theorem refLayer_at (x p f : A2) (bias : A1) (a b g : A0) (n m : Fin 512) :
    refLayer x p f bias a b g (ix2 n m)
      = Spec.layer (fun n k => x (ix2 n k)) (fun m k => p (ix2 m k)) (fun k d => f (ix2 k d)) (fun m => bias (ix1 m))
          (a ix0) (b ix0) (g ix0) n m := by
  have hx : (fun n d => refProj x f (ix2 n d)) = Spec.proj (fun n k => x (ix2 n k)) (fun k d => f (ix2 k d)) :=
    funext fun n => funext fun d => refProj_at x f n d
  have hp : (fun m d => refProj p f (ix2 m d)) = Spec.proj (fun m k => p (ix2 m k)) (fun k d => f (ix2 k d)) :=
    funext fun m => funext fun d => refProj_at p f m d
  unfold refLayer Spec.layer
  rw [refRatio_at, hx, hp]

end Cert.ReferenceIdeal.RefValue

end
-- ==== Proof.Ref.Heads.lean ====
/-
  A 512 × 512 array cut into 8 heads of 64 columns and laid back: [512,512] → [1,512,8,64] → [1,8,512,64] and the way back.
  Column h·64 + e of row i is entry (0, h, i, e) of the heads.
-/
import proofs.«150770_j35493609734446_2_alg».proof.Proof.Ref.Base
import proofs.«150770_j35493609734446_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-- Column h·64 + e of row i becomes entry (0, h, i, e). -/
def splitHeads (y : A2) : H4 :=
  transpose S1x8x512x64 [0, 2, 1, 3] (shapeCast _ y shapeCasts_S512x512_S1x512x8x64) transposes_S1x512x8x64_S1x8x512x64_0_2_1_3
/-- Entry (0, h, i, e) becomes column h·64 + e of row i. -/
def mergeHeads (w : H4) : A2 :=
  shapeCast _ (transpose S1x512x8x64 [0, 2, 1, 3] w transposes_S1x8x512x64_S1x512x8x64_0_2_1_3) shapeCasts_S1x512x8x64_S512x512

theorem splitHeads_at (y : A2) (h : Fin 8) (i : Fin 512) (e : Fin 64) :
    splitHeads y (ix4 (0 : Fin 1) h i e) = y (ix2 i (Spec.col h e)) := by
  unfold splitHeads
  refine (transpose_apply [0, 2, 1, 3] _ transposes_S1x512x8x64_S1x8x512x64_0_2_1_3 (ix4 (0 : Fin 1) h i e) (ix4 (0 : Fin 1) i h e)
    (fun r => match r with | ⟨0, _⟩ => rfl | ⟨1, _⟩ => rfl | ⟨2, _⟩ => rfl | ⟨3, _⟩ => rfl)).trans ?_
  exact shapeCast_apply y shapeCasts_S512x512_S1x512x8x64 (ix4 (0 : Fin 1) i h e) (ix2 i (Spec.col h e))
    (by rewrite [Shape.rowMajor_val_two, Shape.rowMajor_val_four]
        have hi : i.val < 512 := i.isLt
        have hh : h.val < 8 := h.isLt
        have he : e.val < 64 := e.isLt
        show i.val * 512 + (h.val * 64 + e.val) = ((0 * 512 + i.val) * 8 + h.val) * 64 + e.val
        omega)

theorem mergeHeads_at (w : H4) (i c : Fin 512) (h : Fin 8) (e : Fin 64) (hc : c.val = h.val * 64 + e.val) :
    mergeHeads w (ix2 i c) = w (ix4 (0 : Fin 1) h i e) := by
  unfold mergeHeads
  refine (shapeCast_apply _ shapeCasts_S1x512x8x64_S512x512 (ix2 i c) (ix4 (0 : Fin 1) i h e)
    (by rewrite [Shape.rowMajor_val_four, Shape.rowMajor_val_two]
        show ((0 * 512 + i.val) * 8 + h.val) * 64 + e.val = i.val * 512 + c.val
        omega)).trans ?_
  exact transpose_apply [0, 2, 1, 3] w transposes_S1x8x512x64_S1x512x8x64_0_2_1_3 (ix4 (0 : Fin 1) i h e) (ix4 (0 : Fin 1) h i e)
    (fun r => match r with | ⟨0, _⟩ => rfl | ⟨1, _⟩ => rfl | ⟨2, _⟩ => rfl | ⟨3, _⟩ => rfl)

end Cert.ReferenceIdeal.RefValue

end
-- ==== Proof.Ref.Scale.lean ====
/-
  The scores' scale. One program divides a score by the square root of 64, the other multiplies it by 1/8; on the
  extended reals the two agree at every value, infinite ones included: the float word of 64 is the real 64, whose square
  root is the real 8, and dividing by a nonzero real is multiplying by its reciprocal.
-/
import proofs.«150770_j35493609734446_2_alg».proof.Proof.Spec

noncomputable section

namespace Cert.Spec

open Idealize.ShloMosaic

/-- The float word 0x42800000 is the real 64. -/
theorem ofBits_64 : Ideal.ofBits .f32 0x42800000#32 = ((64 : ℝ) : EReal) := by
  simp [Ideal.ofBits, Ideal.ieee, -EReal.coe_mul]; norm_num

/-- The float word 0x3E000000 is the real 1/8. -/
theorem eighth_eq : eighth = (((1 : ℝ) / 8 : ℝ) : EReal) := by
  unfold eighth
  simp [Ideal.ofBits, Ideal.ieee, -EReal.coe_mul]; norm_num

/-- The square root of 64 is 8. -/
theorem sqrt_64 : Real.sqrt 64 = 8 := by
  rw [show (64 : ℝ) = 8 * 8 by norm_num]
  exact Real.sqrt_mul_self (by norm_num)

/-- Dividing by the square root of the word of 64 is multiplying by the word of 1/8, at every extended real. -/
theorem div_sqrt64 (s : EReal) : Ideal.div s (Ideal.sqrt (Ideal.ofBits .f32 0x42800000#32)) = s * eighth := by
  rw [ofBits_64, Ideal.sqrt_coe, if_neg (by norm_num), sqrt_64, eighth_eq]
  exact Ideal.div_coe (by norm_num : (8 : ℝ) ≠ 0) s

end Cert.Spec

end
-- ==== Proof.Ref.Scores.lean ====
/-
  The scores of one head: query rows times key rows, divided by the square root of 64 — the specification's scaling by 1/8.
-/
import proofs.«150770_j35493609734446_2_alg».proof.Proof.Ref.Base
import proofs.«150770_j35493609734446_2_alg».proof.Proof.Ref.Scale

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-- Query rows times key rows, head by head. -/
def rawScores (q k : H4) : W4 := Host.dotGeneral (F := Ideal) dot_S1x8x512x64_S1x8x512x64_S1x8x512x512_3_3_2_2_01_01 none q k
/-- The square root of the word of 64. -/
def root64 : A0 := Host.sqrt (constant (F := Ideal) S_ .f32 0x42800000#32)
/-- A scalar at every entry of a [1,8,512,512] array. -/
def everywhere4 (a : A0) : W4 := broadcastInDim S1x8x512x512 ![] bcast_S_S1x8x512x512 a
/-- The scaled scores. -/
def scores (q k : H4) : W4 := Host.divf (rawScores q k) (everywhere4 root64)

/-- The raw score of query row i against key row j in head h is the sum over the head's 64 columns. -/
theorem rawScores_at (q k : H4) (h : Fin 8) (i j : Fin 512) :
    rawScores q k (ix4 (0 : Fin 1) h i j) = ∑ e : Fin 64, q (ix4 (0 : Fin 1) h i e) * k (ix4 (0 : Fin 1) h j e) := by
  unfold rawScores
  simp only [Host.dotGeneral]
  rw [Ideal.dotGeneral_apply, ← Equiv.sum_comp (ValueIdx.contrEquiv1 dot_S1x8x512x64_S1x8x512x64_S1x8x512x512_3_3_2_2_01_01 64 rfl rfl).symm]
  refine Finset.sum_congr rfl fun e _ => ?_
  have hk := ValueIdx.contrEquiv1_symm_val dot_S1x8x512x64_S1x8x512x64_S1x8x512x512_3_3_2_2_01_01 64 rfl rfl e
  have el : dot_S1x8x512x64_S1x8x512x64_S1x8x512x512_3_3_2_2_01_01.lhsIdx (ix4 (0 : Fin 1) h i j) ((ValueIdx.contrEquiv1 dot_S1x8x512x64_S1x8x512x64_S1x8x512x512_3_3_2_2_01_01 64 rfl rfl).symm e) = ix4 (0 : Fin 1) h i e := funext fun r => Fin.ext (by
    match r with
    | ⟨0, _⟩ => exact lhs_main_v109_0 _ _
    | ⟨1, _⟩ => exact lhs_main_v109_1 _ _
    | ⟨2, _⟩ => exact lhs_main_v109_2 _ _
    | ⟨3, _⟩ => exact (lhs_main_v109_3 _ _).trans hk)
  have er : dot_S1x8x512x64_S1x8x512x64_S1x8x512x512_3_3_2_2_01_01.rhsIdx (ix4 (0 : Fin 1) h i j) ((ValueIdx.contrEquiv1 dot_S1x8x512x64_S1x8x512x64_S1x8x512x512_3_3_2_2_01_01 64 rfl rfl).symm e) = ix4 (0 : Fin 1) h j e := funext fun r => Fin.ext (by
    match r with
    | ⟨0, _⟩ => exact rhs_main_v109_0 _ _
    | ⟨1, _⟩ => exact rhs_main_v109_1 _ _
    | ⟨2, _⟩ => exact rhs_main_v109_2 _ _
    | ⟨3, _⟩ => exact (rhs_main_v109_3 _ _).trans hk)
  rw [el, er]

theorem everywhere4_at (a : A0) (h : Fin 8) (i j : Fin 512) : everywhere4 a (ix4 (0 : Fin 1) h i j) = a ix0 := by
  unfold everywhere4
  exact broadcastInDim_apply _ bcast_S_S1x8x512x512 a (ix4 (0 : Fin 1) h i j) ix0 (fun r => r.elim0)

/-- Dividing by the square root of 64 is the specification's scaling by 1/8. -/
theorem scores_at (q k : H4) (h : Fin 8) (i j : Fin 512) :
    scores q k (ix4 (0 : Fin 1) h i j)
      = Spec.score (fun i e => q (ix4 (0 : Fin 1) h i e)) (fun j e => k (ix4 (0 : Fin 1) h j e)) i j := by
  show Ideal.div (rawScores q k (ix4 (0 : Fin 1) h i j)) (everywhere4 root64 (ix4 (0 : Fin 1) h i j)) = _
  rw [rawScores_at, everywhere4_at]
  exact Spec.div_sqrt64 _

end Cert.ReferenceIdeal.RefValue

end
-- ==== Proof.Ref.Softmax.lean ====
/-
  The softmax over the keys as the reference program computes it: each row's maximum (a fold of `max` from −∞, then the
  maximum with −∞ once more), the exponential of the difference, each row's sum, the quotient.
-/
import proofs.«150770_j35493609734446_2_alg».proof.Proof.Ref.Base
import proofs.«150770_j35493609734446_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-- The scalar word of −∞. -/
def negInfS : A0 := constant (F := Ideal) S_ .f32 0xFF800000#32
/-- Each row's fold of `max` from −∞ over the keys. -/
def foldMax (s : W4) : R3 := Host.reduce FloatOps.maximumf s negInfS reducesTo_S1x8x512x512_S1x8x512_d3 h_S_
/-- Each row's maximum over the keys (the maximum of −∞ and the fold from −∞). -/
def rowMaxes (s : W4) : R3 := maximumf (broadcastInDim S1x8x512 ![] bcast_S_S1x8x512 negInfS) (foldMax s)
/-- Entry (0, h, i, j) is `r (0, h, i)`. -/
def alongKeys (r : R3) : W4 :=
  broadcastInDim S1x8x512x512 ![0, 1, 2, 3] bcast_S1x8x512x1_S1x8x512x512_0_1_2_3 (broadcastInDim S1x8x512x1 ![0, 1, 2] bcast_S1x8x512_S1x8x512x1_0_1_2 r)
/-- The unnormalised softmax weights. -/
def weights (s : W4) : W4 := Host.exp (subf s (alongKeys (rowMaxes s)))
/-- Each row's sum over the keys. -/
def rowTotals (w : W4) : R3 := Host.reduceAdd (F := Ideal) w zeroS reducesTo_S1x8x512x512_S1x8x512_d3 h_S_
/-- The softmax weights. -/
def probs (s : W4) : W4 := Host.divf (weights s) (alongKeys (rowTotals (weights s)))

/-- The word 0xFF800000 is −∞. -/
theorem negInfS_at (j : S_.Idx) : negInfS j = ⊥ := by
  show Ideal.ofBits .f32 0xFF800000#32 = ⊥
  simp [Ideal.ofBits, Ideal.ieee]

/-- A row's fold: `max` from −∞ over the keys. -/
theorem foldMax_at (s : W4) (h : Fin 8) (i : Fin 512) :
    foldMax s (ix3 (0 : Fin 1) h i) = Spec.rowMax (fun j => s (ix4 (0 : Fin 1) h i j)) := by
  unfold foldMax
  rw [show (FloatOps.maximumf (F := Ideal) (φ := .f32)) = (max : EReal → EReal → EReal) from rfl,
    Host.reduce_eq_fold_single max s negInfS reducesTo_S1x8x512x512_S1x8x512_d3 (by decide) h_S_ (ix3 (0 : Fin 1) h i), negInfS_at]
  unfold Spec.rowMax
  refine Finset.fold_congr fun j _ => ?_
  exact congrArg s (funext fun r => Fin.ext (by match r with | ⟨0, _⟩ => rfl | ⟨1, _⟩ => rfl | ⟨2, _⟩ => rfl | ⟨3, _⟩ => rfl))

/-- The pointwise maximum of two arrays at an index. -/
theorem maximumf_at {S : Shape} (x y : FVec Ideal S .f32) (j : S.Idx) : maximumf x y j = max (x j) (y j) := rfl

theorem rowMaxes_def (s : W4) :
    rowMaxes s = maximumf (broadcastInDim S1x8x512 ![] bcast_S_S1x8x512 negInfS) (foldMax s) := rfl

/-- The maximum with −∞ changes nothing. -/
theorem rowMaxes_at (s : W4) (h : Fin 8) (i : Fin 512) :
    rowMaxes s (ix3 (0 : Fin 1) h i) = Spec.rowMax (fun j => s (ix4 (0 : Fin 1) h i j)) := by
  rw [rowMaxes_def, maximumf_at, foldMax_at,
    broadcastInDim_apply _ bcast_S_S1x8x512 negInfS (ix3 (0 : Fin 1) h i) ix0 (fun r => r.elim0), negInfS_at]
  generalize Spec.rowMax (fun j => s (ix4 (0 : Fin 1) h i j)) = m
  exact max_eq_right bot_le

theorem alongKeys_at (r : R3) (h : Fin 8) (i j : Fin 512) : alongKeys r (ix4 (0 : Fin 1) h i j) = r (ix3 (0 : Fin 1) h i) := by
  unfold alongKeys
  refine (broadcastInDim_apply _ bcast_S1x8x512x1_S1x8x512x512_0_1_2_3 _ (ix4 (0 : Fin 1) h i j) (ix4 (0 : Fin 1) h i (0 : Fin 1)) (fun a => match a with
    | ⟨0, _⟩ => by show 0 = if (1 : Nat) = 1 then 0 else 0; rw [if_pos rfl]
    | ⟨1, _⟩ => by show h.val = if (8 : Nat) = 1 then 0 else h.val; rw [if_neg (by decide)]
    | ⟨2, _⟩ => by show i.val = if (512 : Nat) = 1 then 0 else i.val; rw [if_neg (by decide)]
    | ⟨3, _⟩ => by show 0 = if (1 : Nat) = 1 then 0 else j.val; rw [if_pos rfl])).trans ?_
  exact broadcastInDim_apply _ bcast_S1x8x512_S1x8x512x1_0_1_2 r (ix4 (0 : Fin 1) h i (0 : Fin 1)) (ix3 (0 : Fin 1) h i) (fun a => match a with
    | ⟨0, _⟩ => by show 0 = if (1 : Nat) = 1 then 0 else 0; rw [if_pos rfl]
    | ⟨1, _⟩ => by show h.val = if (8 : Nat) = 1 then 0 else h.val; rw [if_neg (by decide)]
    | ⟨2, _⟩ => by show i.val = if (512 : Nat) = 1 then 0 else i.val; rw [if_neg (by decide)])

theorem weights_at (s : W4) (h : Fin 8) (i j : Fin 512) :
    weights s (ix4 (0 : Fin 1) h i j)
      = Ideal.exp (s (ix4 (0 : Fin 1) h i j) - Spec.rowMax (fun j' => s (ix4 (0 : Fin 1) h i j'))) := by
  show Ideal.exp (s (ix4 (0 : Fin 1) h i j) - alongKeys (rowMaxes s) (ix4 (0 : Fin 1) h i j)) = _
  rw [alongKeys_at, rowMaxes_at]

theorem rowTotals_at (w : W4) (h : Fin 8) (i : Fin 512) :
    rowTotals w (ix3 (0 : Fin 1) h i) = ∑ j : Fin 512, w (ix4 (0 : Fin 1) h i j) := by
  unfold rowTotals
  simp only [Host.reduceAdd, Ideal.hostReduceAdd_def]
  rw [Ideal.hostReduceAdd_single reducesTo_S1x8x512x512_S1x8x512_d3 (by decide)]
  refine (congrArg (· + _) (zeroS_at _)).trans ((zero_add _).trans (Finset.sum_congr rfl fun j _ => ?_))
  exact congrArg w (funext fun r => Fin.ext (by match r with | ⟨0, _⟩ => rfl | ⟨1, _⟩ => rfl | ⟨2, _⟩ => rfl | ⟨3, _⟩ => rfl))

theorem probs_at (s : W4) (h : Fin 8) (i j : Fin 512) :
    probs s (ix4 (0 : Fin 1) h i j)
      = Ideal.div (weights s (ix4 (0 : Fin 1) h i j)) (∑ j' : Fin 512, weights s (ix4 (0 : Fin 1) h i j')) := by
  show Ideal.div (weights s (ix4 (0 : Fin 1) h i j)) (alongKeys (rowTotals (weights s)) (ix4 (0 : Fin 1) h i j)) = _
  rw [alongKeys_at, rowTotals_at]

end Cert.ReferenceIdeal.RefValue

end
-- ==== Proof.Ref.Attend.lean ====
/-
  The attention between the projections as the reference program computes it, as ONE function of the three projected
  arrays: the arrays cut into heads, within a head the scaled scores, their softmax over the keys, and the weighted sum
  of the value rows; the heads laid back side by side. The whole, at (row i, column c), is the specification's merged
  attention at (i, c): head c / 64, column c % 64.
-/
import proofs.«150770_j35493609734446_2_alg».proof.Proof.Ref.Heads
import proofs.«150770_j35493609734446_2_alg».proof.Proof.Ref.Scores
import proofs.«150770_j35493609734446_2_alg».proof.Proof.Ref.Softmax

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-- The attended values, head by head. -/
def refAttend (q k v : H4) : H4 := Host.dotGeneral (F := Ideal) dot_S1x8x512x512_S1x8x512x64_S1x8x512x64_3_2_2_3_01_01 none (probs (scores q k)) v
/-- The attention between three projected arrays, heads merged. -/
def refMerged (q k v : A2) : A2 := mergeHeads (refAttend (splitHeads q) (splitHeads k) (splitHeads v))

/-- The weights times the value rows, head by head: the sum over the keys. -/
theorem weighted_at (p : W4) (v : H4) (h : Fin 8) (i : Fin 512) (e : Fin 64) :
    Host.dotGeneral (F := Ideal) dot_S1x8x512x512_S1x8x512x64_S1x8x512x64_3_2_2_3_01_01 none p v (ix4 (0 : Fin 1) h i e)
      = ∑ j : Fin 512, p (ix4 (0 : Fin 1) h i j) * v (ix4 (0 : Fin 1) h j e) := by
  simp only [Host.dotGeneral]
  rw [Ideal.dotGeneral_apply, ← Equiv.sum_comp (ValueIdx.contrEquiv1 dot_S1x8x512x512_S1x8x512x64_S1x8x512x64_3_2_2_3_01_01 512 rfl rfl).symm]
  refine Finset.sum_congr rfl fun j _ => ?_
  have hk := ValueIdx.contrEquiv1_symm_val dot_S1x8x512x512_S1x8x512x64_S1x8x512x64_3_2_2_3_01_01 512 rfl rfl j
  have el : dot_S1x8x512x512_S1x8x512x64_S1x8x512x64_3_2_2_3_01_01.lhsIdx (ix4 (0 : Fin 1) h i e) ((ValueIdx.contrEquiv1 dot_S1x8x512x512_S1x8x512x64_S1x8x512x64_3_2_2_3_01_01 512 rfl rfl).symm j) = ix4 (0 : Fin 1) h i j := funext fun r => Fin.ext (by
    match r with
    | ⟨0, _⟩ => exact lhs_main_v124_0 _ _
    | ⟨1, _⟩ => exact lhs_main_v124_1 _ _
    | ⟨2, _⟩ => exact lhs_main_v124_2 _ _
    | ⟨3, _⟩ => exact (lhs_main_v124_3 _ _).trans hk)
  have er : dot_S1x8x512x512_S1x8x512x64_S1x8x512x64_3_2_2_3_01_01.rhsIdx (ix4 (0 : Fin 1) h i e) ((ValueIdx.contrEquiv1 dot_S1x8x512x512_S1x8x512x64_S1x8x512x64_3_2_2_3_01_01 512 rfl rfl).symm j) = ix4 (0 : Fin 1) h j e := funext fun r => Fin.ext (by
    match r with
    | ⟨0, _⟩ => exact rhs_main_v124_0 _ _
    | ⟨1, _⟩ => exact rhs_main_v124_1 _ _
    | ⟨2, _⟩ => exact (rhs_main_v124_2 _ _).trans hk
    | ⟨3, _⟩ => exact rhs_main_v124_3 _ _)
  rw [el, er]

/-! ## The whole attention at an index -/

/-- One head of the reference's attention is the specification's attention of that head's rows. -/
theorem refAttend_at (q k v : H4) (h : Fin 8) (i : Fin 512) (e : Fin 64) :
    refAttend q k v (ix4 (0 : Fin 1) h i e)
      = Spec.attend (fun i e => q (ix4 (0 : Fin 1) h i e)) (fun j e => k (ix4 (0 : Fin 1) h j e))
          (fun j e => v (ix4 (0 : Fin 1) h j e)) i e := by
  have hw : ∀ j : Fin 512, weights (scores q k) (ix4 (0 : Fin 1) h i j)
      = Spec.weight (fun i e => q (ix4 (0 : Fin 1) h i e)) (fun j e => k (ix4 (0 : Fin 1) h j e)) i j := fun j => by
    rw [weights_at]
    simp only [scores_at]
    rfl
  have hp : ∀ j : Fin 512, probs (scores q k) (ix4 (0 : Fin 1) h i j)
      = Spec.prob (fun i e => q (ix4 (0 : Fin 1) h i e)) (fun j e => k (ix4 (0 : Fin 1) h j e)) i j := fun j => by
    rw [probs_at]
    simp only [hw]
    rfl
  unfold refAttend Spec.attend
  rw [weighted_at]
  exact Finset.sum_congr rfl fun j _ => by rw [hp]

/-- The merged attention at (row i, column c) is the specification's: head c / 64, column c % 64. -/
theorem refMerged_at (q k v : A2) (i c : Fin 512) :
    refMerged q k v (ix2 i c)
      = Spec.merged (fun n c => q (ix2 n c)) (fun n c => k (ix2 n c)) (fun n c => v (ix2 n c)) i c := by
  unfold refMerged
  rw [mergeHeads_at _ i c ⟨c.val / 64, by have := c.isLt; omega⟩ ⟨c.val % 64, Nat.mod_lt _ (by decide)⟩
    (by show c.val = c.val / 64 * 64 + c.val % 64; omega), refAttend_at]
  simp only [splitHeads_at]
  rfl

end Cert.ReferenceIdeal.RefValue

end
-- ==== Proof.Ref.Stages.lean ====
/-
  The reference program's stages are the functions read in the sibling modules: the query, key and value projections
  are one layer function of the reshaped rows and their own prototypes and bias, the merged attention is the attention
  function of those three, and the output projection is the layer function of the merged attention. Each identity only
  unfolds the stages' definitions; no arithmetic is opened. With the reshape of the rows read at an index, the three
  projections at (n, c) are the specification's layers of the argument arrays.
-/
import proofs.«150770_j35493609734446_2_alg».proof.Proof.Ref.Layer
import proofs.«150770_j35493609734446_2_alg».proof.Proof.Ref.Attend

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

variable (x0 : (⟨S1x512x512, .f32⟩ : BufTy).Contents (Elt Ideal)) (x1 : (⟨S512x512, .f32⟩ : BufTy).Contents (Elt Ideal)) (x2 x3 x4 : (⟨S_, .f32⟩ : BufTy).Contents (Elt Ideal))
  (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 : (⟨S512x512, .f32⟩ : BufTy).Contents (Elt Ideal)) (x12 : (⟨S512, .f32⟩ : BufTy).Contents (Elt Ideal))

/-! ## The stages as the layer and attention functions -/

theorem stage_q : val_main_v34 (F := Ideal) x0 x1 x2 x3 x4 x5 x6 = refLayer (val_main_v0 (F := Ideal) x0) x5 x1 x6 x2 x3 x4 := rfl

theorem stage_k : val_main_v68 (F := Ideal) x0 x1 x2 x3 x4 x7 x8 = refLayer (val_main_v0 (F := Ideal) x0) x7 x1 x8 x2 x3 x4 := rfl

theorem stage_v : val_main_v102 (F := Ideal) x0 x1 x2 x3 x4 x9 x10 = refLayer (val_main_v0 (F := Ideal) x0) x9 x1 x10 x2 x3 x4 := rfl

theorem stage_merged : val_main_v126 (F := Ideal) x0 x1 x2 x3 x4 x5 x6 x7 x8 x9 x10 = refMerged (val_main_v34 (F := Ideal) x0 x1 x2 x3 x4 x5 x6) (val_main_v68 (F := Ideal) x0 x1 x2 x3 x4 x7 x8) (val_main_v102 (F := Ideal) x0 x1 x2 x3 x4 x9 x10) := rfl

theorem stage_out : val_main_v160 (F := Ideal) x0 x1 x2 x3 x4 x5 x6 x7 x8 x9 x10 x11 x12 = refLayer (val_main_v126 (F := Ideal) x0 x1 x2 x3 x4 x5 x6 x7 x8 x9 x10) x11 x1 x12 x2 x3 x4 := rfl

/-! ## The projections at an index -/

/-- The rows with their leading unit axis dropped: entry (n, k) is entry (0, n, k) of the argument. -/
theorem rows_at (n k : Fin 512) : val_main_v0 (F := Ideal) x0 (ix2 n k) = x0 (ix3 (0 : Fin 1) n k) := by
  rw [val_main_v0_apply]
  refine congrArg x0 (funext fun r => Fin.ext ?_)
  have hn : n.val < 512 := n.isLt
  have hk : k.val < 512 := k.isLt
  match r with
  | ⟨0, _⟩ => rfl
  | ⟨1, _⟩ => show (n.val * 512 + k.val) / 512 % 512 = n.val; omega
  | ⟨2, _⟩ => show (n.val * 512 + k.val) % 512 = k.val; omega

theorem q_at (n c : Fin 512) :
    val_main_v34 (F := Ideal) x0 x1 x2 x3 x4 x5 x6 (ix2 n c)
      = Spec.layer (fun n d => x0 (ix3 (0 : Fin 1) n d)) (fun m d => x5 (ix2 m d)) (fun k d => x1 (ix2 k d)) (fun m => x6 (ix1 m))
          (x2 ix0) (x3 ix0) (x4 ix0) n c := by
  rw [stage_q, refLayer_at]
  simp only [rows_at]

theorem k_at (n c : Fin 512) :
    val_main_v68 (F := Ideal) x0 x1 x2 x3 x4 x7 x8 (ix2 n c)
      = Spec.layer (fun n d => x0 (ix3 (0 : Fin 1) n d)) (fun m d => x7 (ix2 m d)) (fun k d => x1 (ix2 k d)) (fun m => x8 (ix1 m))
          (x2 ix0) (x3 ix0) (x4 ix0) n c := by
  rw [stage_k, refLayer_at]
  simp only [rows_at]

theorem v_at (n c : Fin 512) :
    val_main_v102 (F := Ideal) x0 x1 x2 x3 x4 x9 x10 (ix2 n c)
      = Spec.layer (fun n d => x0 (ix3 (0 : Fin 1) n d)) (fun m d => x9 (ix2 m d)) (fun k d => x1 (ix2 k d)) (fun m => x10 (ix1 m))
          (x2 ix0) (x3 ix0) (x4 ix0) n c := by
  rw [stage_v, refLayer_at]
  simp only [rows_at]

end Cert.ReferenceIdeal.RefValue

end
-- ==== Proof.Ref.Result.lean ====
/-
  The reference's result at an index is the specification's block of the thirteen argument arrays: the last stage is a
  reshape of the output projection, the output projection is the layer of the merged attention, the merged attention is
  the attention of the three projections, and each projection is the layer of the argument rows.
-/
import proofs.«150770_j35493609734446_2_alg».proof.Proof.Ref.Stages

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-- The merged attention of the program at (n, k) is the specification's merged attention of the three layers. -/
theorem merged_at (x0 : (⟨S1x512x512, .f32⟩ : BufTy).Contents (Elt Ideal)) (x1 : (⟨S512x512, .f32⟩ : BufTy).Contents (Elt Ideal)) (x2 x3 x4 : (⟨S_, .f32⟩ : BufTy).Contents (Elt Ideal))
    (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (n k : Fin 512) :
    val_main_v126 (F := Ideal) x0 x1 x2 x3 x4 x5 x6 x7 x8 x9 x10 (ix2 n k)
      = Spec.merged (Spec.layer (fun n d => x0 (ix3 (0 : Fin 1) n d)) (fun m d => x5 (ix2 m d)) (fun k d => x1 (ix2 k d)) (fun m => x6 (ix1 m)) (x2 ix0) (x3 ix0) (x4 ix0))
          (Spec.layer (fun n d => x0 (ix3 (0 : Fin 1) n d)) (fun m d => x7 (ix2 m d)) (fun k d => x1 (ix2 k d)) (fun m => x8 (ix1 m)) (x2 ix0) (x3 ix0) (x4 ix0))
          (Spec.layer (fun n d => x0 (ix3 (0 : Fin 1) n d)) (fun m d => x9 (ix2 m d)) (fun k d => x1 (ix2 k d)) (fun m => x10 (ix1 m)) (x2 ix0) (x3 ix0) (x4 ix0)) n k := by
  rw [stage_merged, refMerged_at]
  simp only [q_at, k_at, v_at]

theorem result_at
    (x0 : (⟨S1x512x512, .f32⟩ : BufTy).Contents (Elt Ideal)) (x1 : (⟨S512x512, .f32⟩ : BufTy).Contents (Elt Ideal)) (x2 x3 x4 : (⟨S_, .f32⟩ : BufTy).Contents (Elt Ideal))
    (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal))
    (x9 : (⟨S512x512, .f32⟩ : BufTy).Contents (Elt Ideal)) (x10 : (⟨S512, .f32⟩ : BufTy).Contents (Elt Ideal)) (x11 : (⟨S512x512, .f32⟩ : BufTy).Contents (Elt Ideal)) (x12 : (⟨S512, .f32⟩ : BufTy).Contents (Elt Ideal))
    (z : Fin 1) (n m : Fin 512) :
    Cert.ReferenceIdeal.Read.val_main_v161 (F := Ideal) x0 x1 x2 x3 x4 x5 x6 x7 x8 x9 x10 x11 x12 (ValueIdx.ix3 z n m)
      = Cert.Spec.ofArgs x0 x1 x2 x3 x4 x5 x6 x7 x8 x9 x10 x11 x12 n m := by
  obtain rfl : z = 0 := Fin.fin_one_eq_zero z
  have hi : idx_main_v161 (ix3 (0 : Fin 1) n m) = ix2 n m := funext fun r => Fin.ext (by
    have hn : n.val < 512 := n.isLt
    have hm : m.val < 512 := m.isLt
    match r with
    | ⟨0, _⟩ => show ((0 * 512 + n.val) * 512 + m.val) / 512 = n.val; omega
    | ⟨1, _⟩ => show ((0 * 512 + n.val) * 512 + m.val) % 512 = m.val; omega)
  rw [val_main_v161_apply, hi, stage_out, refLayer_at]
  simp only [merged_at]
  rfl

end Cert.ReferenceIdeal.RefValue

end
-- ==== Proof.lean ====
/-
  A Tversky attention block computed by three kernel calls equals, on the extended reals, its plain reference.

  The block projects 512 rows through a shared feature matrix against prototypes with the Tversky ratio
  `γ·c / (γ·c + |α|·(Σ xf − c) + |β|·(Σ pf − c) + ε) + bias`, `c = Σ_d min (xf_d, pf_d)` the mass a row and a prototype share:
  queries, keys and values from the same rows, softmax attention over 8 heads of 64 columns with scores scaled by 1/8, and
  a fourth projection of the attended rows. The kernel stacks the three prototype arrays and makes ONE call for queries, keys
  and values (an entry of a projection reads one row and one prototype, so the three 512-column parts of the result are the
  three projections), sums the shared mass 128 feature columns at a time (a regrouping of one finite sum), rounds to bf16 on
  the way into its products (the identity on the extended reals), and multiplies the scores by the word of 1/8 where the
  reference divides by the square root of the word of 64 — the same number, √64 = 8 exactly. Both programs are read as
  ONE function of the thirteen argument arrays (`Cert.Spec.ofArgs`): the kernel's result through its three calls and the
  re-laying host operations between them, the reference's through its operations one at a time. No step needs the
  arguments finite: the laws used are regrouping of sums and `x / 8 = x · (1/8)`, which hold on every extended real, so the
  precondition is never opened.

  The three frames — each program runs to the end, faults nowhere and leaves its arguments as launched — come from each
  kernel body's run at every grid point (the two programs with kernels) and from the reference's run read back.
  The idealization rewrote nothing, so there is nothing to preserve.
-/
import proofs.«150770_j35493609734446_2_alg».proof.Defs
import proofs.«150770_j35493609734446_2_alg».proof.Proof.Gen.Kernel
import proofs.«150770_j35493609734446_2_alg».proof.Proof.Gen.KernelIdeal
import proofs.«150770_j35493609734446_2_alg».proof.Proof.Gen.ReferenceIdeal
import proofs.«150770_j35493609734446_2_alg».proof.Proof.Gen.Pre_finite_inputs
import proofs.«150770_j35493609734446_2_alg».proof.Proof.Gen.ReferenceIdeal.Run
import proofs.«150770_j35493609734446_2_alg».proof.Proof.Gen.ReferenceIdeal.Read
import proofs.«150770_j35493609734446_2_alg».proof.Proof.K.Run
import proofs.«150770_j35493609734446_2_alg».proof.Proof.KI.Run
import proofs.«150770_j35493609734446_2_alg».proof.Proof.Val.Chain
import proofs.«150770_j35493609734446_2_alg».proof.Proof.Ref.Result
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as launched. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- And the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same array: entry `(0, n, j)` of either
    result is the specification's block of the argument arrays at `(n, j)`. -/
theorem algebraic : Cert.algebraic_KernelIdeal_ReferenceIdeal := by
  intro m ρ m' ρ' _ hagree
  refine ⟨fun c => Cert.KernelIdeal.Hand.Va7 m c Cert.KernelIdeal.main_v29, Cert.KernelIdeal.Hand.run_valued m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v161_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  funext idx
  obtain ⟨u, n, j, rfl⟩ : ∃ (u : Fin 1) (n j : Fin 512), idx = ix3 u n j := ⟨idx 0, idx 1, idx 2, eq_ix3 idx⟩
  exact (Cert.ReferenceIdeal.RefValue.result_at _ _ _ _ _ _ _ _ _ _ _ _ _ u n j).trans
    (Cert.KernelIdeal.Hand.result_at m c u n j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
